-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v406) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x256x512 : Shape := ⟨4, ![4, 3, 256, 512]⟩
abbrev S_ : Shape := ⟨0, ![]⟩

class Facts : Prop where
  bcast_S_S4x3x256x512 : S_.BroadcastsInDim S4x3x256x512 (![] : Fin 0 → Fin S4x3x256x512.rank)
  reducesTo_S4x3x256x512_S_d0_1_2_3 : S4x3x256x512.ReducesTo [0, 1, 2, 3] S_
  h_S_ : 0 < S_.numel

variable [Facts]

def fn {F : FTy → Type} [FloatOps F] (main_arg0 : FVec F S4x3x256x512 .f32) (main_arg1 : FVec F S4x3x256x512 .f32) : IVec S_ 1 :=
  let main_v0 : FVec F S4x3x256x512 .f32 := Host.absf main_arg0
  let main_cst : FVec F S_ .f32 := constant S_ .f32 0x7F800000#32
  let main_v1 : FVec F S4x3x256x512 .f32 := broadcastInDim S4x3x256x512 ![] bcast_S_S4x3x256x512 main_cst
  let main_v2 : IVec S4x3x256x512 1 := cmpf .olt main_v0 main_v1
  let main_c : IVec S_ 1 := constantI S_ 1 1#1
  let main_v3 : IVec S_ 1 := (fun x v => Host.reduce IntOp.andi x v reducesTo_S4x3x256x512_S_d0_1_2_3 h_S_) main_v2 main_c
  let main_v4 : FVec F S4x3x256x512 .f32 := Host.absf main_arg1
  let main_cst_0 : FVec F S_ .f32 := constant S_ .f32 0x7F800000#32
  let main_v5 : FVec F S4x3x256x512 .f32 := broadcastInDim S4x3x256x512 ![] bcast_S_S4x3x256x512 main_cst_0
  let main_v6 : IVec S4x3x256x512 1 := cmpf .olt main_v4 main_v5
  let main_c_1 : IVec S_ 1 := constantI S_ 1 1#1
  let main_v7 : IVec S_ 1 := (fun x v => Host.reduce IntOp.andi x v reducesTo_S4x3x256x512_S_d0_1_2_3 h_S_) main_v6 main_c_1
  let main_v8 : IVec S_ 1 := andi main_v3 main_v7
  main_v8
-- ==== Kernel.lean ====
abbrev S4x3x256x512 : Shape := ⟨4, ![4, 3, 256, 512]⟩
abbrev S_ : Shape := ⟨0, ![]⟩
abbrev S4x3x264x520 : Shape := ⟨4, ![4, 3, 264, 520]⟩
abbrev S4x256x512 : Shape := ⟨3, ![4, 256, 512]⟩
abbrev S1x3x256x512 : Shape := ⟨4, ![1, 3, 256, 512]⟩
abbrev S1x3x264x520 : Shape := ⟨4, ![1, 3, 264, 520]⟩
abbrev S1x256x512 : Shape := ⟨3, ![1, 256, 512]⟩
abbrev S3x256x512 : Shape := ⟨3, ![3, 256, 512]⟩
abbrev S256x512 : Shape := ⟨2, ![256, 512]⟩
abbrev S1x1x256x512 : Shape := ⟨4, ![1, 1, 256, 512]⟩
abbrev S4x1x131072 : Shape := ⟨3, ![4, 1, 131072]⟩

abbrev nBuf : Space → Nat
  | .hbm => 7
  | .vmem => 6
  | .smem => 0
  | _ => 0

abbrev bufTy : (tb : Table) → Fin (tcTables nBuf tb) → BufTy
  | .hbm, ⟨0, _⟩ => ⟨S4x3x256x512, .f32⟩
  | .hbm, ⟨1, _⟩ => ⟨S4x3x256x512, .f32⟩
  | .hbm, ⟨2, _⟩ => ⟨S_, .i32⟩
  | .hbm, ⟨3, _⟩ => ⟨S_, .f32⟩
  | .hbm, ⟨4, _⟩ => ⟨S4x3x264x520, .f32⟩
  | .hbm, ⟨5, _⟩ => ⟨S4x256x512, .f32⟩
  | .hbm, ⟨6, _⟩ => ⟨S4x1x131072, .f32⟩
  | .local _ .vmem, ⟨0, _⟩ => ⟨S1x3x256x512, .f32⟩
  | .local _ .vmem, ⟨1, _⟩ => ⟨S1x3x256x512, .f32⟩
  | .local _ .vmem, ⟨2, _⟩ => ⟨S1x3x264x520, .f32⟩
  | .local _ .vmem, ⟨3, _⟩ => ⟨S1x3x264x520, .f32⟩
  | .local _ .vmem, ⟨4, _⟩ => ⟨S1x256x512, .f32⟩
  | .local _ .vmem, ⟨5, _⟩ => ⟨S1x256x512, .f32⟩
  | _, _ => ⟨S4x3x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x264x520 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x3x256x512_S4x3x264x520_000_000_440_440 : S4x3x256x512.Pads (![0, 0, 4, 4] : Fin 4 → Nat) ![0, 0, 4, 4] ![0, 0, 0, 0] S4x3x264x520
  h_S_ : 0 < S_.numel
  inb_S1x3x256x512_S1x3x256x512_0_0_0_0 : ∀ a, (![0, 0, 0, 0] : Fin 4 → Nat) a + S1x3x256x512.size a ≤ S1x3x256x512.size a
  h_S1x3x256x512 : 0 < S1x3x256x512.numel
  shapeCasts_S1x3x256x512_S3x256x512 : S1x3x256x512.ShapeCasts S3x256x512
  slices_S3x256x512_o0_0_0_S1x256x512 : S3x256x512.Slices ![0, 0, 0] S1x256x512
  shapeCasts_S1x256x512_S256x512 : S1x256x512.ShapeCasts S256x512
  inb_S1x3x264x520_S1x1x256x512_0_0_0_0 : ∀ a, (![0, 0, 0, 0] : Fin 4 → Nat) a + S1x1x256x512.size a ≤ S1x3x264x520.size a
  h_S1x1x256x512 : 0 < S1x1x256x512.numel
  shapeCasts_S1x1x256x512_S256x512 : S1x1x256x512.ShapeCasts S256x512
  slices_S3x256x512_o1_0_0_S1x256x512 : S3x256x512.Slices ![1, 0, 0] S1x256x512
  inb_S1x3x264x520_S1x1x256x512_0_1_0_0 : ∀ a, (![0, 1, 0, 0] : Fin 4 → Nat) a + S1x1x256x512.size a ≤ S1x3x264x520.size a
  slices_S3x256x512_o2_0_0_S1x256x512 : S3x256x512.Slices ![2, 0, 0] S1x256x512
  inb_S1x3x264x520_S1x1x256x512_0_2_0_0 : ∀ a, (![0, 2, 0, 0] : Fin 4 → Nat) a + S1x1x256x512.size a ≤ S1x3x264x520.size a
  inb_S1x3x264x520_S1x1x256x512_0_0_0_1 : ∀ a, (![0, 0, 0, 1] : Fin 4 → Nat) a + S1x1x256x512.size a ≤ S1x3x264x520.size a
  inb_S1x3x264x520_S1x1x256x512_0_1_0_1 : ∀ a, (![0, 1, 0, 1] : Fin 4 → Nat) a + S1x1x256x512.size a ≤ S1x3x264x520.size a
  inb_S1x3x264x520_S1x1x256x512_0_2_0_1 : ∀ a, (![0, 2, 0, 1] : Fin 4 → Nat) a + S1x1x256x512.size a ≤ S1x3x264x520.size a
  inb_S1x3x264x520_S1x1x256x512_0_0_0_2 : ∀ a, (![0, 0, 0, 2] : Fin 4 → Nat) a + S1x1x256x512.size a ≤ S1x3x264x520.size a
  inb_S1x3x264x520_S1x1x256x512_0_1_0_2 : ∀ a, (![0, 1, 0, 2] : Fin 4 → Nat) a + S1x1x256x512.size a ≤ S1x3x264x520.size a
  inb_S1x3x264x520_S1x1x256x512_0_2_0_2 : ∀ a, (![0, 2, 0, 2] : Fin 4 → Nat) a + S1x1x256x512.size a ≤ S1x3x264x520.size a
  inb_S1x3x264x520_S1x1x256x512_0_0_0_3 : ∀ a, (![0, 0, 0, 3] : Fin 4 → Nat) a + S1x1x256x512.size a ≤ S1x3x264x520.size a
  inb_S1x3x264x520_S1x1x256x512_0_1_0_3 : ∀ a, (![0, 1, 0, 3] : Fin 4 → Nat) a + S1x1x256x512.size a ≤ S1x3x264x520.size a
  inb_S1x3x264x520_S1x1x256x512_0_2_0_3 : ∀ a, (![0, 2, 0, 3] : Fin 4 → Nat) a + S1x1x256x512.size a ≤ S1x3x264x520.size a
  inb_S1x3x264x520_S1x1x256x512_0_0_0_4 : ∀ a, (![0, 0, 0, 4] : Fin 4 → Nat) a + S1x1x256x512.size a ≤ S1x3x264x520.size a
  inb_S1x3x264x520_S1x1x256x512_0_1_0_4 : ∀ a, (![0, 1, 0, 4] : Fin 4 → Nat) a + S1x1x256x512.size a ≤ S1x3x264x520.size a
  inb_S1x3x264x520_S1x1x256x512_0_2_0_4 : ∀ a, (![0, 2, 0, 4] : Fin 4 → Nat) a + S1x1x256x512.size a ≤ S1x3x264x520.size a
  inb_S1x3x264x520_S1x1x256x512_0_0_0_5 : ∀ a, (![0, 0, 0, 5] : Fin 4 → Nat) a + S1x1x256x512.size a ≤ S1x3x264x520.size a
  inb_S1x3x264x520_S1x1x256x512_0_1_0_5 : ∀ a, (![0, 1, 0, 5] : Fin 4 → Nat) a + S1x1x256x512.size a ≤ S1x3x264x520.size a
  inb_S1x3x264x520_S1x1x256x512_0_2_0_5 : ∀ a, (![0, 2, 0, 5] : Fin 4 → Nat) a + S1x1x256x512.size a ≤ S1x3x264x520.size a
  inb_S1x3x264x520_S1x1x256x512_0_0_0_6 : ∀ a, (![0, 0, 0, 6] : Fin 4 → Nat) a + S1x1x256x512.size a ≤ S1x3x264x520.size a
  inb_S1x3x264x520_S1x1x256x512_0_1_0_6 : ∀ a, (![0, 1, 0, 6] : Fin 4 → Nat) a + S1x1x256x512.size a ≤ S1x3x264x520.size a
  inb_S1x3x264x520_S1x1x256x512_0_2_0_6 : ∀ a, (![0, 2, 0, 6] : Fin 4 → Nat) a + S1x1x256x512.size a ≤ S1x3x264x520.size a
  inb_S1x3x264x520_S1x1x256x512_0_0_0_7 : ∀ a, (![0, 0, 0, 7] : Fin 4 → Nat) a + S1x1x256x512.size a ≤ S1x3x264x520.size a
  inb_S1x3x264x520_S1x1x256x512_0_1_0_7 : ∀ a, (![0, 1, 0, 7] : Fin 4 → Nat) a + S1x1x256x512.size a ≤ S1x3x264x520.size a
  inb_S1x3x264x520_S1x1x256x512_0_2_0_7 : ∀ a, (![0, 2, 0, 7] : Fin 4 → Nat) a + S1x1x256x512.size a ≤ S1x3x264x520.size a
  inb_S1x3x264x520_S1x1x256x512_0_0_0_8 : ∀ a, (![0, 0, 0, 8] : Fin 4 → Nat) a + S1x1x256x512.size a ≤ S1x3x264x520.size a
  inb_S1x3x264x520_S1x1x256x512_0_1_0_8 : ∀ a, (![0, 1, 0, 8] : Fin 4 → Nat) a + S1x1x256x512.size a ≤ S1x3x264x520.size a
  inb_S1x3x264x520_S1x1x256x512_0_2_0_8 : ∀ a, (![0, 2, 0, 8] : Fin 4 → Nat) a + S1x1x256x512.size a ≤ S1x3x264x520.size a
  inb_S1x3x264x520_S1x1x256x512_0_0_1_0 : ∀ a, (![0, 0, 1, 0] : Fin 4 → Nat) a + S1x1x256x512.size a ≤ S1x3x264x520.size a
  inb_S1x3x264x520_S1x1x256x512_0_1_1_0 : ∀ a, (![0, 1, 1, 0] : Fin 4 → Nat) a + S1x1x256x512.size a ≤ S1x3x264x520.size a
  inb_S1x3x264x520_S1x1x256x512_0_2_1_0 : ∀ a, (![0, 2, 1, 0] : Fin 4 → Nat) a + S1x1x256x512.size a ≤ S1x3x264x520.size a
  inb_S1x3x264x520_S1x1x256x512_0_0_1_1 : ∀ a, (![0, 0, 1, 1] : Fin 4 → Nat) a + S1x1x256x512.size a ≤ S1x3x264x520.size a
  inb_S1x3x264x520_S1x1x256x512_0_1_1_1 : ∀ a, (![0, 1, 1, 1] : Fin 4 → Nat) a + S1x1x256x512.size a ≤ S1x3x264x520.size a
  inb_S1x3x264x520_S1x1x256x512_0_2_1_1 : ∀ a, (![0, 2, 1, 1] : Fin 4 → Nat) a + S1x1x256x512.size a ≤ S1x3x264x520.size a
  inb_S1x3x264x520_S1x1x256x512_0_0_1_2 : ∀ a, (![0, 0, 1, 2] : Fin 4 → Nat) a + S1x1x256x512.size a ≤ S1x3x264x520.size a
  inb_S1x3x264x520_S1x1x256x512_0_1_1_2 : ∀ a, (![0, 1, 1, 2] : Fin 4 → Nat) a + S1x1x256x512.size a ≤ S1x3x264x520.size a
  inb_S1x3x264x520_S1x1x256x512_0_2_1_2 : ∀ a, (![0, 2, 1, 2] : Fin 4 → Nat) a + S1x1x256x512.size a ≤ S1x3x264x520.size a
  inb_S1x3x264x520_S1x1x256x512_0_0_1_3 : ∀ a, (![0, 0, 1, 3] : Fin 4 → Nat) a + S1x1x256x512.size a ≤ S1x3x264x520.size a
  inb_S1x3x264x520_S1x1x256x512_0_1_1_3 : ∀ a, (![0, 1, 1, 3] : Fin 4 → Nat) a + S1x1x256x512.size a ≤ S1x3x264x520.size a
  inb_S1x3x264x520_S1x1x256x512_0_2_1_3 : ∀ a, (![0, 2, 1, 3] : Fin 4 → Nat) a + S1x1x256x512.size a ≤ S1x3x264x520.size a
  inb_S1x3x264x520_S1x1x256x512_0_0_1_4 : ∀ a, (![0, 0, 1, 4] : Fin 4 → Nat) a + S1x1x256x512.size a ≤ S1x3x264x520.size a
  inb_S1x3x264x520_S1x1x256x512_0_1_1_4 : ∀ a, (![0, 1, 1, 4] : Fin 4 → Nat) a + S1x1x256x512.size a ≤ S1x3x264x520.size a
  inb_S1x3x264x520_S1x1x256x512_0_2_1_4 : ∀ a, (![0, 2, 1, 4] : Fin 4 → Nat) a + S1x1x256x512.size a ≤ S1x3x264x520.size a
  inb_S1x3x264x520_S1x1x256x512_0_0_1_5 : ∀ a, (![0, 0, 1, 5] : Fin 4 → Nat) a + S1x1x256x512.size a ≤ S1x3x264x520.size a
  inb_S1x3x264x520_S1x1x256x512_0_1_1_5 : ∀ a, (![0, 1, 1, 5] : Fin 4 → Nat) a + S1x1x256x512.size a ≤ S1x3x264x520.size a
  inb_S1x3x264x520_S1x1x256x512_0_2_1_5 : ∀ a, (![0, 2, 1, 5] : Fin 4 → Nat) a + S1x1x256x512.size a ≤ S1x3x264x520.size a
  inb_S1x3x264x520_S1x1x256x512_0_0_1_6 : ∀ a, (![0, 0, 1, 6] : Fin 4 → Nat) a + S1x1x256x512.size a ≤ S1x3x264x520.size a
  inb_S1x3x264x520_S1x1x256x512_0_1_1_6 : ∀ a, (![0, 1, 1, 6] : Fin 4 → Nat) a + S1x1x256x512.size a ≤ S1x3x264x520.size a
  inb_S1x3x264x520_S1x1x256x512_0_2_1_6 : ∀ a, (![0, 2, 1, 6] : Fin 4 → Nat) a + S1x1x256x512.size a ≤ S1x3x264x520.size a
  inb_S1x3x264x520_S1x1x256x512_0_0_1_7 : ∀ a, (![0, 0, 1, 7] : Fin 4 → Nat) a + S1x1x256x512.size a ≤ S1x3x264x520.size a
  inb_S1x3x264x520_S1x1x256x512_0_1_1_7 : ∀ a, (![0, 1, 1, 7] : Fin 4 → Nat) a + S1x1x256x512.size a ≤ S1x3x264x520.size a
  inb_S1x3x264x520_S1x1x256x512_0_2_1_7 : ∀ a, (![0, 2, 1, 7] : Fin 4 → Nat) a + S1x1x256x512.size a ≤ S1x3x264x520.size a
  inb_S1x3x264x520_S1x1x256x512_0_0_1_8 : ∀ a, (![0, 0, 1, 8] : Fin 4 → Nat) a + S1x1x256x512.size a ≤ S1x3x264x520.size a
  inb_S1x3x264x520_S1x1x256x512_0_1_1_8 : ∀ a, (![0, 1, 1, 8] : Fin 4 → Nat) a + S1x1x256x512.size a ≤ S1x3x264x520.size a
  inb_S1x3x264x520_S1x1x256x512_0_2_1_8 : ∀ a, (![0, 2, 1, 8] : Fin 4 → Nat) a + S1x1x256x512.size a ≤ S1x3x264x520.size a
  inb_S1x3x264x520_S1x1x256x512_0_0_2_0 : ∀ a, (![0, 0, 2, 0] : Fin 4 → Nat) a + S1x1x256x512.size a ≤ S1x3x264x520.size a
  inb_S1x3x264x520_S1x1x256x512_0_1_2_0 : ∀ a, (![0, 1, 2, 0] : Fin 4 → Nat) a + S1x1x256x512.size a ≤ S1x3x264x520.size a
  inb_S1x3x264x520_S1x1x256x512_0_2_2_0 : ∀ a, (![0, 2, 2, 0] : Fin 4 → Nat) a + S1x1x256x512.size a ≤ S1x3x264x520.size a
  inb_S1x3x264x520_S1x1x256x512_0_0_2_1 : ∀ a, (![0, 0, 2, 1] : Fin 4 → Nat) a + S1x1x256x512.size a ≤ S1x3x264x520.size a
  inb_S1x3x264x520_S1x1x256x512_0_1_2_1 : ∀ a, (![0, 1, 2, 1] : Fin 4 → Nat) a + S1x1x256x512.size a ≤ S1x3x264x520.size a
  inb_S1x3x264x520_S1x1x256x512_0_2_2_1 : ∀ a, (![0, 2, 2, 1] : Fin 4 → Nat) a + S1x1x256x512.size a ≤ S1x3x264x520.size a
  inb_S1x3x264x520_S1x1x256x512_0_0_2_2 : ∀ a, (![0, 0, 2, 2] : Fin 4 → Nat) a + S1x1x256x512.size a ≤ S1x3x264x520.size a
  inb_S1x3x264x520_S1x1x256x512_0_1_2_2 : ∀ a, (![0, 1, 2, 2] : Fin 4 → Nat) a + S1x1x256x512.size a ≤ S1x3x264x520.size a
  inb_S1x3x264x520_S1x1x256x512_0_2_2_2 : ∀ a, (![0, 2, 2, 2] : Fin 4 → Nat) a + S1x1x256x512.size a ≤ S1x3x264x520.size a
  inb_S1x3x264x520_S1x1x256x512_0_0_2_3 : ∀ a, (![0, 0, 2, 3] : Fin 4 → Nat) a + S1x1x256x512.size a ≤ S1x3x264x520.size a
  inb_S1x3x264x520_S1x1x256x512_0_1_2_3 : ∀ a, (![0, 1, 2, 3] : Fin 4 → Nat) a + S1x1x256x512.size a ≤ S1x3x264x520.size a
  inb_S1x3x264x520_S1x1x256x512_0_2_2_3 : ∀ a, (![0, 2, 2, 3] : Fin 4 → Nat) a + S1x1x256x512.size a ≤ S1x3x264x520.size a
  inb_S1x3x264x520_S1x1x256x512_0_0_2_4 : ∀ a, (![0, 0, 2, 4] : Fin 4 → Nat) a + S1x1x256x512.size a ≤ S1x3x264x520.size a
  inb_S1x3x264x520_S1x1x256x512_0_1_2_4 : ∀ a, (![0, 1, 2, 4] : Fin 4 → Nat) a + S1x1x256x512.size a ≤ S1x3x264x520.size a
  inb_S1x3x264x520_S1x1x256x512_0_2_2_4 : ∀ a, (![0, 2, 2, 4] : Fin 4 → Nat) a + S1x1x256x512.size a ≤ S1x3x264x520.size a
  inb_S1x3x264x520_S1x1x256x512_0_0_2_5 : ∀ a, (![0, 0, 2, 5] : Fin 4 → Nat) a + S1x1x256x512.size a ≤ S1x3x264x520.size a
  inb_S1x3x264x520_S1x1x256x512_0_1_2_5 : ∀ a, (![0, 1, 2, 5] : Fin 4 → Nat) a + S1x1x256x512.size a ≤ S1x3x264x520.size a
  inb_S1x3x264x520_S1x1x256x512_0_2_2_5 : ∀ a, (![0, 2, 2, 5] : Fin 4 → Nat) a + S1x1x256x512.size a ≤ S1x3x264x520.size a
  inb_S1x3x264x520_S1x1x256x512_0_0_2_6 : ∀ a, (![0, 0, 2, 6] : Fin 4 → Nat) a + S1x1x256x512.size a ≤ S1x3x264x520.size a
  inb_S1x3x264x520_S1x1x256x512_0_1_2_6 : ∀ a, (![0, 1, 2, 6] : Fin 4 → Nat) a + S1x1x256x512.size a ≤ S1x3x264x520.size a
  inb_S1x3x264x520_S1x1x256x512_0_2_2_6 : ∀ a, (![0, 2, 2, 6] : Fin 4 → Nat) a + S1x1x256x512.size a ≤ S1x3x264x520.size a
  inb_S1x3x264x520_S1x1x256x512_0_0_2_7 : ∀ a, (![0, 0, 2, 7] : Fin 4 → Nat) a + S1x1x256x512.size a ≤ S1x3x264x520.size a
  inb_S1x3x264x520_S1x1x256x512_0_1_2_7 : ∀ a, (![0, 1, 2, 7] : Fin 4 → Nat) a + S1x1x256x512.size a ≤ S1x3x264x520.size a
  inb_S1x3x264x520_S1x1x256x512_0_2_2_7 : ∀ a, (![0, 2, 2, 7] : Fin 4 → Nat) a + S1x1x256x512.size a ≤ S1x3x264x520.size a
  inb_S1x3x264x520_S1x1x256x512_0_0_2_8 : ∀ a, (![0, 0, 2, 8] : Fin 4 → Nat) a + S1x1x256x512.size a ≤ S1x3x264x520.size a
  inb_S1x3x264x520_S1x1x256x512_0_1_2_8 : ∀ a, (![0, 1, 2, 8] : Fin 4 → Nat) a + S1x1x256x512.size a ≤ S1x3x264x520.size a
  inb_S1x3x264x520_S1x1x256x512_0_2_2_8 : ∀ a, (![0, 2, 2, 8] : Fin 4 → Nat) a + S1x1x256x512.size a ≤ S1x3x264x520.size a
  inb_S1x3x264x520_S1x1x256x512_0_0_3_0 : ∀ a, (![0, 0, 3, 0] : Fin 4 → Nat) a + S1x1x256x512.size a ≤ S1x3x264x520.size a
  inb_S1x3x264x520_S1x1x256x512_0_1_3_0 : ∀ a, (![0, 1, 3, 0] : Fin 4 → Nat) a + S1x1x256x512.size a ≤ S1x3x264x520.size a
  inb_S1x3x264x520_S1x1x256x512_0_2_3_0 : ∀ a, (![0, 2, 3, 0] : Fin 4 → Nat) a + S1x1x256x512.size a ≤ S1x3x264x520.size a
  inb_S1x3x264x520_S1x1x256x512_0_0_3_1 : ∀ a, (![0, 0, 3, 1] : Fin 4 → Nat) a + S1x1x256x512.size a ≤ S1x3x264x520.size a
  inb_S1x3x264x520_S1x1x256x512_0_1_3_1 : ∀ a, (![0, 1, 3, 1] : Fin 4 → Nat) a + S1x1x256x512.size a ≤ S1x3x264x520.size a
  inb_S1x3x264x520_S1x1x256x512_0_2_3_1 : ∀ a, (![0, 2, 3, 1] : Fin 4 → Nat) a + S1x1x256x512.size a ≤ S1x3x264x520.size a
  inb_S1x3x264x520_S1x1x256x512_0_0_3_2 : ∀ a, (![0, 0, 3, 2] : Fin 4 → Nat) a + S1x1x256x512.size a ≤ S1x3x264x520.size a
  inb_S1x3x264x520_S1x1x256x512_0_1_3_2 : ∀ a, (![0, 1, 3, 2] : Fin 4 → Nat) a + S1x1x256x512.size a ≤ S1x3x264x520.size a
  inb_S1x3x264x520_S1x1x256x512_0_2_3_2 : ∀ a, (![0, 2, 3, 2] : Fin 4 → Nat) a + S1x1x256x512.size a ≤ S1x3x264x520.size a
  inb_S1x3x264x520_S1x1x256x512_0_0_3_3 : ∀ a, (![0, 0, 3, 3] : Fin 4 → Nat) a + S1x1x256x512.size a ≤ S1x3x264x520.size a
  inb_S1x3x264x520_S1x1x256x512_0_1_3_3 : ∀ a, (![0, 1, 3, 3] : Fin 4 → Nat) a + S1x1x256x512.size a ≤ S1x3x264x520.size a
  inb_S1x3x264x520_S1x1x256x512_0_2_3_3 : ∀ a, (![0, 2, 3, 3] : Fin 4 → Nat) a + S1x1x256x512.size a ≤ S1x3x264x520.size a
  inb_S1x3x264x520_S1x1x256x512_0_0_3_4 : ∀ a, (![0, 0, 3, 4] : Fin 4 → Nat) a + S1x1x256x512.size a ≤ S1x3x264x520.size a
  inb_S1x3x264x520_S1x1x256x512_0_1_3_4 : ∀ a, (![0, 1, 3, 4] : Fin 4 → Nat) a + S1x1x256x512.size a ≤ S1x3x264x520.size a
  inb_S1x3x264x520_S1x1x256x512_0_2_3_4 : ∀ a, (![0, 2, 3, 4] : Fin 4 → Nat) a + S1x1x256x512.size a ≤ S1x3x264x520.size a
  inb_S1x3x264x520_S1x1x256x512_0_0_3_5 : ∀ a, (![0, 0, 3, 5] : Fin 4 → Nat) a + S1x1x256x512.size a ≤ S1x3x264x520.size a
  inb_S1x3x264x520_S1x1x256x512_0_1_3_5 : ∀ a, (![0, 1, 3, 5] : Fin 4 → Nat) a + S1x1x256x512.size a ≤ S1x3x264x520.size a
  inb_S1x3x264x520_S1x1x256x512_0_2_3_5 : ∀ a, (![0, 2, 3, 5] : Fin 4 → Nat) a + S1x1x256x512.size a ≤ S1x3x264x520.size a
  inb_S1x3x264x520_S1x1x256x512_0_0_3_6 : ∀ a, (![0, 0, 3, 6] : Fin 4 → Nat) a + S1x1x256x512.size a ≤ S1x3x264x520.size a
  inb_S1x3x264x520_S1x1x256x512_0_1_3_6 : ∀ a, (![0, 1, 3, 6] : Fin 4 → Nat) a + S1x1x256x512.size a ≤ S1x3x264x520.size a
  inb_S1x3x264x520_S1x1x256x512_0_2_3_6 : ∀ a, (![0, 2, 3, 6] : Fin 4 → Nat) a + S1x1x256x512.size a ≤ S1x3x264x520.size a
  inb_S1x3x264x520_S1x1x256x512_0_0_3_7 : ∀ a, (![0, 0, 3, 7] : Fin 4 → Nat) a + S1x1x256x512.size a ≤ S1x3x264x520.size a
  inb_S1x3x264x520_S1x1x256x512_0_1_3_7 : ∀ a, (![0, 1, 3, 7] : Fin 4 → Nat) a + S1x1x256x512.size a ≤ S1x3x264x520.size a
  inb_S1x3x264x520_S1x1x256x512_0_2_3_7 : ∀ a, (![0, 2, 3, 7] : Fin 4 → Nat) a + S1x1x256x512.size a ≤ S1x3x264x520.size a
  inb_S1x3x264x520_S1x1x256x512_0_0_3_8 : ∀ a, (![0, 0, 3, 8] : Fin 4 → Nat) a + S1x1x256x512.size a ≤ S1x3x264x520.size a
  inb_S1x3x264x520_S1x1x256x512_0_1_3_8 : ∀ a, (![0, 1, 3, 8] : Fin 4 → Nat) a + S1x1x256x512.size a ≤ S1x3x264x520.size a
  inb_S1x3x264x520_S1x1x256x512_0_2_3_8 : ∀ a, (![0, 2, 3, 8] : Fin 4 → Nat) a + S1x1x256x512.size a ≤ S1x3x264x520.size a
  inb_S1x3x264x520_S1x1x256x512_0_0_4_0 : ∀ a, (![0, 0, 4, 0] : Fin 4 → Nat) a + S1x1x256x512.size a ≤ S1x3x264x520.size a
  inb_S1x3x264x520_S1x1x256x512_0_1_4_0 : ∀ a, (![0, 1, 4, 0] : Fin 4 → Nat) a + S1x1x256x512.size a ≤ S1x3x264x520.size a
  inb_S1x3x264x520_S1x1x256x512_0_2_4_0 : ∀ a, (![0, 2, 4, 0] : Fin 4 → Nat) a + S1x1x256x512.size a ≤ S1x3x264x520.size a
  inb_S1x3x264x520_S1x1x256x512_0_0_4_1 : ∀ a, (![0, 0, 4, 1] : Fin 4 → Nat) a + S1x1x256x512.size a ≤ S1x3x264x520.size a
  inb_S1x3x264x520_S1x1x256x512_0_1_4_1 : ∀ a, (![0, 1, 4, 1] : Fin 4 → Nat) a + S1x1x256x512.size a ≤ S1x3x264x520.size a
  inb_S1x3x264x520_S1x1x256x512_0_2_4_1 : ∀ a, (![0, 2, 4, 1] : Fin 4 → Nat) a + S1x1x256x512.size a ≤ S1x3x264x520.size a
  inb_S1x3x264x520_S1x1x256x512_0_0_4_2 : ∀ a, (![0, 0, 4, 2] : Fin 4 → Nat) a + S1x1x256x512.size a ≤ S1x3x264x520.size a
  inb_S1x3x264x520_S1x1x256x512_0_1_4_2 : ∀ a, (![0, 1, 4, 2] : Fin 4 → Nat) a + S1x1x256x512.size a ≤ S1x3x264x520.size a
  inb_S1x3x264x520_S1x1x256x512_0_2_4_2 : ∀ a, (![0, 2, 4, 2] : Fin 4 → Nat) a + S1x1x256x512.size a ≤ S1x3x264x520.size a
  inb_S1x3x264x520_S1x1x256x512_0_0_4_3 : ∀ a, (![0, 0, 4, 3] : Fin 4 → Nat) a + S1x1x256x512.size a ≤ S1x3x264x520.size a
  inb_S1x3x264x520_S1x1x256x512_0_1_4_3 : ∀ a, (![0, 1, 4, 3] : Fin 4 → Nat) a + S1x1x256x512.size a ≤ S1x3x264x520.size a
  inb_S1x3x264x520_S1x1x256x512_0_2_4_3 : ∀ a, (![0, 2, 4, 3] : Fin 4 → Nat) a + S1x1x256x512.size a ≤ S1x3x264x520.size a
  inb_S1x3x264x520_S1x1x256x512_0_0_4_4 : ∀ a, (![0, 0, 4, 4] : Fin 4 → Nat) a + S1x1x256x512.size a ≤ S1x3x264x520.size a
  inb_S1x3x264x520_S1x1x256x512_0_1_4_4 : ∀ a, (![0, 1, 4, 4] : Fin 4 → Nat) a + S1x1x256x512.size a ≤ S1x3x264x520.size a
  inb_S1x3x264x520_S1x1x256x512_0_2_4_4 : ∀ a, (![0, 2, 4, 4] : Fin 4 → Nat) a + S1x1x256x512.size a ≤ S1x3x264x520.size a
  inb_S1x3x264x520_S1x1x256x512_0_0_4_5 : ∀ a, (![0, 0, 4, 5] : Fin 4 → Nat) a + S1x1x256x512.size a ≤ S1x3x264x520.size a
  inb_S1x3x264x520_S1x1x256x512_0_1_4_5 : ∀ a, (![0, 1, 4, 5] : Fin 4 → Nat) a + S1x1x256x512.size a ≤ S1x3x264x520.size a
  inb_S1x3x264x520_S1x1x256x512_0_2_4_5 : ∀ a, (![0, 2, 4, 5] : Fin 4 → Nat) a + S1x1x256x512.size a ≤ S1x3x264x520.size a
  inb_S1x3x264x520_S1x1x256x512_0_0_4_6 : ∀ a, (![0, 0, 4, 6] : Fin 4 → Nat) a + S1x1x256x512.size a ≤ S1x3x264x520.size a
  inb_S1x3x264x520_S1x1x256x512_0_1_4_6 : ∀ a, (![0, 1, 4, 6] : Fin 4 → Nat) a + S1x1x256x512.size a ≤ S1x3x264x520.size a
  inb_S1x3x264x520_S1x1x256x512_0_2_4_6 : ∀ a, (![0, 2, 4, 6] : Fin 4 → Nat) a + S1x1x256x512.size a ≤ S1x3x264x520.size a
  inb_S1x3x264x520_S1x1x256x512_0_0_4_7 : ∀ a, (![0, 0, 4, 7] : Fin 4 → Nat) a + S1x1x256x512.size a ≤ S1x3x264x520.size a
  inb_S1x3x264x520_S1x1x256x512_0_1_4_7 : ∀ a, (![0, 1, 4, 7] : Fin 4 → Nat) a + S1x1x256x512.size a ≤ S1x3x264x520.size a
  inb_S1x3x264x520_S1x1x256x512_0_2_4_7 : ∀ a, (![0, 2, 4, 7] : Fin 4 → Nat) a + S1x1x256x512.size a ≤ S1x3x264x520.size a
  inb_S1x3x264x520_S1x1x256x512_0_0_4_8 : ∀ a, (![0, 0, 4, 8] : Fin 4 → Nat) a + S1x1x256x512.size a ≤ S1x3x264x520.size a
  inb_S1x3x264x520_S1x1x256x512_0_1_4_8 : ∀ a, (![0, 1, 4, 8] : Fin 4 → Nat) a + S1x1x256x512.size a ≤ S1x3x264x520.size a
  inb_S1x3x264x520_S1x1x256x512_0_2_4_8 : ∀ a, (![0, 2, 4, 8] : Fin 4 → Nat) a + S1x1x256x512.size a ≤ S1x3x264x520.size a
  inb_S1x3x264x520_S1x1x256x512_0_0_5_0 : ∀ a, (![0, 0, 5, 0] : Fin 4 → Nat) a + S1x1x256x512.size a ≤ S1x3x264x520.size a
  inb_S1x3x264x520_S1x1x256x512_0_1_5_0 : ∀ a, (![0, 1, 5, 0] : Fin 4 → Nat) a + S1x1x256x512.size a ≤ S1x3x264x520.size a
  inb_S1x3x264x520_S1x1x256x512_0_2_5_0 : ∀ a, (![0, 2, 5, 0] : Fin 4 → Nat) a + S1x1x256x512.size a ≤ S1x3x264x520.size a
  inb_S1x3x264x520_S1x1x256x512_0_0_5_1 : ∀ a, (![0, 0, 5, 1] : Fin 4 → Nat) a + S1x1x256x512.size a ≤ S1x3x264x520.size a
  inb_S1x3x264x520_S1x1x256x512_0_1_5_1 : ∀ a, (![0, 1, 5, 1] : Fin 4 → Nat) a + S1x1x256x512.size a ≤ S1x3x264x520.size a
  inb_S1x3x264x520_S1x1x256x512_0_2_5_1 : ∀ a, (![0, 2, 5, 1] : Fin 4 → Nat) a + S1x1x256x512.size a ≤ S1x3x264x520.size a
  inb_S1x3x264x520_S1x1x256x512_0_0_5_2 : ∀ a, (![0, 0, 5, 2] : Fin 4 → Nat) a + S1x1x256x512.size a ≤ S1x3x264x520.size a
  inb_S1x3x264x520_S1x1x256x512_0_1_5_2 : ∀ a, (![0, 1, 5, 2] : Fin 4 → Nat) a + S1x1x256x512.size a ≤ S1x3x264x520.size a
  inb_S1x3x264x520_S1x1x256x512_0_2_5_2 : ∀ a, (![0, 2, 5, 2] : Fin 4 → Nat) a + S1x1x256x512.size a ≤ S1x3x264x520.size a
  inb_S1x3x264x520_S1x1x256x512_0_0_5_3 : ∀ a, (![0, 0, 5, 3] : Fin 4 → Nat) a + S1x1x256x512.size a ≤ S1x3x264x520.size a
  inb_S1x3x264x520_S1x1x256x512_0_1_5_3 : ∀ a, (![0, 1, 5, 3] : Fin 4 → Nat) a + S1x1x256x512.size a ≤ S1x3x264x520.size a
  inb_S1x3x264x520_S1x1x256x512_0_2_5_3 : ∀ a, (![0, 2, 5, 3] : Fin 4 → Nat) a + S1x1x256x512.size a ≤ S1x3x264x520.size a
  inb_S1x3x264x520_S1x1x256x512_0_0_5_4 : ∀ a, (![0, 0, 5, 4] : Fin 4 → Nat) a + S1x1x256x512.size a ≤ S1x3x264x520.size a
  inb_S1x3x264x520_S1x1x256x512_0_1_5_4 : ∀ a, (![0, 1, 5, 4] : Fin 4 → Nat) a + S1x1x256x512.size a ≤ S1x3x264x520.size a
  inb_S1x3x264x520_S1x1x256x512_0_2_5_4 : ∀ a, (![0, 2, 5, 4] : Fin 4 → Nat) a + S1x1x256x512.size a ≤ S1x3x264x520.size a
  inb_S1x3x264x520_S1x1x256x512_0_0_5_5 : ∀ a, (![0, 0, 5, 5] : Fin 4 → Nat) a + S1x1x256x512.size a ≤ S1x3x264x520.size a
  inb_S1x3x264x520_S1x1x256x512_0_1_5_5 : ∀ a, (![0, 1, 5, 5] : Fin 4 → Nat) a + S1x1x256x512.size a ≤ S1x3x264x520.size a
  inb_S1x3x264x520_S1x1x256x512_0_2_5_5 : ∀ a, (![0, 2, 5, 5] : Fin 4 → Nat) a + S1x1x256x512.size a ≤ S1x3x264x520.size a
  inb_S1x3x264x520_S1x1x256x512_0_0_5_6 : ∀ a, (![0, 0, 5, 6] : Fin 4 → Nat) a + S1x1x256x512.size a ≤ S1x3x264x520.size a
  inb_S1x3x264x520_S1x1x256x512_0_1_5_6 : ∀ a, (![0, 1, 5, 6] : Fin 4 → Nat) a + S1x1x256x512.size a ≤ S1x3x264x520.size a
  inb_S1x3x264x520_S1x1x256x512_0_2_5_6 : ∀ a, (![0, 2, 5, 6] : Fin 4 → Nat) a + S1x1x256x512.size a ≤ S1x3x264x520.size a
  inb_S1x3x264x520_S1x1x256x512_0_0_5_7 : ∀ a, (![0, 0, 5, 7] : Fin 4 → Nat) a + S1x1x256x512.size a ≤ S1x3x264x520.size a
  inb_S1x3x264x520_S1x1x256x512_0_1_5_7 : ∀ a, (![0, 1, 5, 7] : Fin 4 → Nat) a + S1x1x256x512.size a ≤ S1x3x264x520.size a
  inb_S1x3x264x520_S1x1x256x512_0_2_5_7 : ∀ a, (![0, 2, 5, 7] : Fin 4 → Nat) a + S1x1x256x512.size a ≤ S1x3x264x520.size a
  inb_S1x3x264x520_S1x1x256x512_0_0_5_8 : ∀ a, (![0, 0, 5, 8] : Fin 4 → Nat) a + S1x1x256x512.size a ≤ S1x3x264x520.size a
  inb_S1x3x264x520_S1x1x256x512_0_1_5_8 : ∀ a, (![0, 1, 5, 8] : Fin 4 → Nat) a + S1x1x256x512.size a ≤ S1x3x264x520.size a
  inb_S1x3x264x520_S1x1x256x512_0_2_5_8 : ∀ a, (![0, 2, 5, 8] : Fin 4 → Nat) a + S1x1x256x512.size a ≤ S1x3x264x520.size a
  inb_S1x3x264x520_S1x1x256x512_0_0_6_0 : ∀ a, (![0, 0, 6, 0] : Fin 4 → Nat) a + S1x1x256x512.size a ≤ S1x3x264x520.size a
  inb_S1x3x264x520_S1x1x256x512_0_1_6_0 : ∀ a, (![0, 1, 6, 0] : Fin 4 → Nat) a + S1x1x256x512.size a ≤ S1x3x264x520.size a
  inb_S1x3x264x520_S1x1x256x512_0_2_6_0 : ∀ a, (![0, 2, 6, 0] : Fin 4 → Nat) a + S1x1x256x512.size a ≤ S1x3x264x520.size a
  inb_S1x3x264x520_S1x1x256x512_0_0_6_1 : ∀ a, (![0, 0, 6, 1] : Fin 4 → Nat) a + S1x1x256x512.size a ≤ S1x3x264x520.size a
  inb_S1x3x264x520_S1x1x256x512_0_1_6_1 : ∀ a, (![0, 1, 6, 1] : Fin 4 → Nat) a + S1x1x256x512.size a ≤ S1x3x264x520.size a
  inb_S1x3x264x520_S1x1x256x512_0_2_6_1 : ∀ a, (![0, 2, 6, 1] : Fin 4 → Nat) a + S1x1x256x512.size a ≤ S1x3x264x520.size a
  inb_S1x3x264x520_S1x1x256x512_0_0_6_2 : ∀ a, (![0, 0, 6, 2] : Fin 4 → Nat) a + S1x1x256x512.size a ≤ S1x3x264x520.size a
  inb_S1x3x264x520_S1x1x256x512_0_1_6_2 : ∀ a, (![0, 1, 6, 2] : Fin 4 → Nat) a + S1x1x256x512.size a ≤ S1x3x264x520.size a
  inb_S1x3x264x520_S1x1x256x512_0_2_6_2 : ∀ a, (![0, 2, 6, 2] : Fin 4 → Nat) a + S1x1x256x512.size a ≤ S1x3x264x520.size a
  inb_S1x3x264x520_S1x1x256x512_0_0_6_3 : ∀ a, (![0, 0, 6, 3] : Fin 4 → Nat) a + S1x1x256x512.size a ≤ S1x3x264x520.size a
  inb_S1x3x264x520_S1x1x256x512_0_1_6_3 : ∀ a, (![0, 1, 6, 3] : Fin 4 → Nat) a + S1x1x256x512.size a ≤ S1x3x264x520.size a
  inb_S1x3x264x520_S1x1x256x512_0_2_6_3 : ∀ a, (![0, 2, 6, 3] : Fin 4 → Nat) a + S1x1x256x512.size a ≤ S1x3x264x520.size a
  inb_S1x3x264x520_S1x1x256x512_0_0_6_4 : ∀ a, (![0, 0, 6, 4] : Fin 4 → Nat) a + S1x1x256x512.size a ≤ S1x3x264x520.size a
  inb_S1x3x264x520_S1x1x256x512_0_1_6_4 : ∀ a, (![0, 1, 6, 4] : Fin 4 → Nat) a + S1x1x256x512.size a ≤ S1x3x264x520.size a
  inb_S1x3x264x520_S1x1x256x512_0_2_6_4 : ∀ a, (![0, 2, 6, 4] : Fin 4 → Nat) a + S1x1x256x512.size a ≤ S1x3x264x520.size a
  inb_S1x3x264x520_S1x1x256x512_0_0_6_5 : ∀ a, (![0, 0, 6, 5] : Fin 4 → Nat) a + S1x1x256x512.size a ≤ S1x3x264x520.size a
  inb_S1x3x264x520_S1x1x256x512_0_1_6_5 : ∀ a, (![0, 1, 6, 5] : Fin 4 → Nat) a + S1x1x256x512.size a ≤ S1x3x264x520.size a
  inb_S1x3x264x520_S1x1x256x512_0_2_6_5 : ∀ a, (![0, 2, 6, 5] : Fin 4 → Nat) a + S1x1x256x512.size a ≤ S1x3x264x520.size a
  inb_S1x3x264x520_S1x1x256x512_0_0_6_6 : ∀ a, (![0, 0, 6, 6] : Fin 4 → Nat) a + S1x1x256x512.size a ≤ S1x3x264x520.size a
  inb_S1x3x264x520_S1x1x256x512_0_1_6_6 : ∀ a, (![0, 1, 6, 6] : Fin 4 → Nat) a + S1x1x256x512.size a ≤ S1x3x264x520.size a
  inb_S1x3x264x520_S1x1x256x512_0_2_6_6 : ∀ a, (![0, 2, 6, 6] : Fin 4 → Nat) a + S1x1x256x512.size a ≤ S1x3x264x520.size a
  inb_S1x3x264x520_S1x1x256x512_0_0_6_7 : ∀ a, (![0, 0, 6, 7] : Fin 4 → Nat) a + S1x1x256x512.size a ≤ S1x3x264x520.size a
  inb_S1x3x264x520_S1x1x256x512_0_1_6_7 : ∀ a, (![0, 1, 6, 7] : Fin 4 → Nat) a + S1x1x256x512.size a ≤ S1x3x264x520.size a
  inb_S1x3x264x520_S1x1x256x512_0_2_6_7 : ∀ a, (![0, 2, 6, 7] : Fin 4 → Nat) a + S1x1x256x512.size a ≤ S1x3x264x520.size a
  inb_S1x3x264x520_S1x1x256x512_0_0_6_8 : ∀ a, (![0, 0, 6, 8] : Fin 4 → Nat) a + S1x1x256x512.size a ≤ S1x3x264x520.size a
  inb_S1x3x264x520_S1x1x256x512_0_1_6_8 : ∀ a, (![0, 1, 6, 8] : Fin 4 → Nat) a + S1x1x256x512.size a ≤ S1x3x264x520.size a
  inb_S1x3x264x520_S1x1x256x512_0_2_6_8 : ∀ a, (![0, 2, 6, 8] : Fin 4 → Nat) a + S1x1x256x512.size a ≤ S1x3x264x520.size a
  inb_S1x3x264x520_S1x1x256x512_0_0_7_0 : ∀ a, (![0, 0, 7, 0] : Fin 4 → Nat) a + S1x1x256x512.size a ≤ S1x3x264x520.size a
  inb_S1x3x264x520_S1x1x256x512_0_1_7_0 : ∀ a, (![0, 1, 7, 0] : Fin 4 → Nat) a + S1x1x256x512.size a ≤ S1x3x264x520.size a
  inb_S1x3x264x520_S1x1x256x512_0_2_7_0 : ∀ a, (![0, 2, 7, 0] : Fin 4 → Nat) a + S1x1x256x512.size a ≤ S1x3x264x520.size a
  inb_S1x3x264x520_S1x1x256x512_0_0_7_1 : ∀ a, (![0, 0, 7, 1] : Fin 4 → Nat) a + S1x1x256x512.size a ≤ S1x3x264x520.size a
  inb_S1x3x264x520_S1x1x256x512_0_1_7_1 : ∀ a, (![0, 1, 7, 1] : Fin 4 → Nat) a + S1x1x256x512.size a ≤ S1x3x264x520.size a
  inb_S1x3x264x520_S1x1x256x512_0_2_7_1 : ∀ a, (![0, 2, 7, 1] : Fin 4 → Nat) a + S1x1x256x512.size a ≤ S1x3x264x520.size a
  inb_S1x3x264x520_S1x1x256x512_0_0_7_2 : ∀ a, (![0, 0, 7, 2] : Fin 4 → Nat) a + S1x1x256x512.size a ≤ S1x3x264x520.size a
  inb_S1x3x264x520_S1x1x256x512_0_1_7_2 : ∀ a, (![0, 1, 7, 2] : Fin 4 → Nat) a + S1x1x256x512.size a ≤ S1x3x264x520.size a
  inb_S1x3x264x520_S1x1x256x512_0_2_7_2 : ∀ a, (![0, 2, 7, 2] : Fin 4 → Nat) a + S1x1x256x512.size a ≤ S1x3x264x520.size a
  inb_S1x3x264x520_S1x1x256x512_0_0_7_3 : ∀ a, (![0, 0, 7, 3] : Fin 4 → Nat) a + S1x1x256x512.size a ≤ S1x3x264x520.size a
  inb_S1x3x264x520_S1x1x256x512_0_1_7_3 : ∀ a, (![0, 1, 7, 3] : Fin 4 → Nat) a + S1x1x256x512.size a ≤ S1x3x264x520.size a
  inb_S1x3x264x520_S1x1x256x512_0_2_7_3 : ∀ a, (![0, 2, 7, 3] : Fin 4 → Nat) a + S1x1x256x512.size a ≤ S1x3x264x520.size a
  inb_S1x3x264x520_S1x1x256x512_0_0_7_4 : ∀ a, (![0, 0, 7, 4] : Fin 4 → Nat) a + S1x1x256x512.size a ≤ S1x3x264x520.size a
  inb_S1x3x264x520_S1x1x256x512_0_1_7_4 : ∀ a, (![0, 1, 7, 4] : Fin 4 → Nat) a + S1x1x256x512.size a ≤ S1x3x264x520.size a
  inb_S1x3x264x520_S1x1x256x512_0_2_7_4 : ∀ a, (![0, 2, 7, 4] : Fin 4 → Nat) a + S1x1x256x512.size a ≤ S1x3x264x520.size a
  inb_S1x3x264x520_S1x1x256x512_0_0_7_5 : ∀ a, (![0, 0, 7, 5] : Fin 4 → Nat) a + S1x1x256x512.size a ≤ S1x3x264x520.size a
  inb_S1x3x264x520_S1x1x256x512_0_1_7_5 : ∀ a, (![0, 1, 7, 5] : Fin 4 → Nat) a + S1x1x256x512.size a ≤ S1x3x264x520.size a
  inb_S1x3x264x520_S1x1x256x512_0_2_7_5 : ∀ a, (![0, 2, 7, 5] : Fin 4 → Nat) a + S1x1x256x512.size a ≤ S1x3x264x520.size a
  inb_S1x3x264x520_S1x1x256x512_0_0_7_6 : ∀ a, (![0, 0, 7, 6] : Fin 4 → Nat) a + S1x1x256x512.size a ≤ S1x3x264x520.size a
  inb_S1x3x264x520_S1x1x256x512_0_1_7_6 : ∀ a, (![0, 1, 7, 6] : Fin 4 → Nat) a + S1x1x256x512.size a ≤ S1x3x264x520.size a
  inb_S1x3x264x520_S1x1x256x512_0_2_7_6 : ∀ a, (![0, 2, 7, 6] : Fin 4 → Nat) a + S1x1x256x512.size a ≤ S1x3x264x520.size a
  inb_S1x3x264x520_S1x1x256x512_0_0_7_7 : ∀ a, (![0, 0, 7, 7] : Fin 4 → Nat) a + S1x1x256x512.size a ≤ S1x3x264x520.size a
  inb_S1x3x264x520_S1x1x256x512_0_1_7_7 : ∀ a, (![0, 1, 7, 7] : Fin 4 → Nat) a + S1x1x256x512.size a ≤ S1x3x264x520.size a
  inb_S1x3x264x520_S1x1x256x512_0_2_7_7 : ∀ a, (![0, 2, 7, 7] : Fin 4 → Nat) a + S1x1x256x512.size a ≤ S1x3x264x520.size a
  inb_S1x3x264x520_S1x1x256x512_0_0_7_8 : ∀ a, (![0, 0, 7, 8] : Fin 4 → Nat) a + S1x1x256x512.size a ≤ S1x3x264x520.size a
  inb_S1x3x264x520_S1x1x256x512_0_1_7_8 : ∀ a, (![0, 1, 7, 8] : Fin 4 → Nat) a + S1x1x256x512.size a ≤ S1x3x264x520.size a
  inb_S1x3x264x520_S1x1x256x512_0_2_7_8 : ∀ a, (![0, 2, 7, 8] : Fin 4 → Nat) a + S1x1x256x512.size a ≤ S1x3x264x520.size a
  inb_S1x3x264x520_S1x1x256x512_0_0_8_0 : ∀ a, (![0, 0, 8, 0] : Fin 4 → Nat) a + S1x1x256x512.size a ≤ S1x3x264x520.size a
  inb_S1x3x264x520_S1x1x256x512_0_1_8_0 : ∀ a, (![0, 1, 8, 0] : Fin 4 → Nat) a + S1x1x256x512.size a ≤ S1x3x264x520.size a
  inb_S1x3x264x520_S1x1x256x512_0_2_8_0 : ∀ a, (![0, 2, 8, 0] : Fin 4 → Nat) a + S1x1x256x512.size a ≤ S1x3x264x520.size a
  inb_S1x3x264x520_S1x1x256x512_0_0_8_1 : ∀ a, (![0, 0, 8, 1] : Fin 4 → Nat) a + S1x1x256x512.size a ≤ S1x3x264x520.size a
  inb_S1x3x264x520_S1x1x256x512_0_1_8_1 : ∀ a, (![0, 1, 8, 1] : Fin 4 → Nat) a + S1x1x256x512.size a ≤ S1x3x264x520.size a
  inb_S1x3x264x520_S1x1x256x512_0_2_8_1 : ∀ a, (![0, 2, 8, 1] : Fin 4 → Nat) a + S1x1x256x512.size a ≤ S1x3x264x520.size a
  inb_S1x3x264x520_S1x1x256x512_0_0_8_2 : ∀ a, (![0, 0, 8, 2] : Fin 4 → Nat) a + S1x1x256x512.size a ≤ S1x3x264x520.size a
  inb_S1x3x264x520_S1x1x256x512_0_1_8_2 : ∀ a, (![0, 1, 8, 2] : Fin 4 → Nat) a + S1x1x256x512.size a ≤ S1x3x264x520.size a
  inb_S1x3x264x520_S1x1x256x512_0_2_8_2 : ∀ a, (![0, 2, 8, 2] : Fin 4 → Nat) a + S1x1x256x512.size a ≤ S1x3x264x520.size a
  inb_S1x3x264x520_S1x1x256x512_0_0_8_3 : ∀ a, (![0, 0, 8, 3] : Fin 4 → Nat) a + S1x1x256x512.size a ≤ S1x3x264x520.size a
  inb_S1x3x264x520_S1x1x256x512_0_1_8_3 : ∀ a, (![0, 1, 8, 3] : Fin 4 → Nat) a + S1x1x256x512.size a ≤ S1x3x264x520.size a
  inb_S1x3x264x520_S1x1x256x512_0_2_8_3 : ∀ a, (![0, 2, 8, 3] : Fin 4 → Nat) a + S1x1x256x512.size a ≤ S1x3x264x520.size a
  inb_S1x3x264x520_S1x1x256x512_0_0_8_4 : ∀ a, (![0, 0, 8, 4] : Fin 4 → Nat) a + S1x1x256x512.size a ≤ S1x3x264x520.size a
  inb_S1x3x264x520_S1x1x256x512_0_1_8_4 : ∀ a, (![0, 1, 8, 4] : Fin 4 → Nat) a + S1x1x256x512.size a ≤ S1x3x264x520.size a
  inb_S1x3x264x520_S1x1x256x512_0_2_8_4 : ∀ a, (![0, 2, 8, 4] : Fin 4 → Nat) a + S1x1x256x512.size a ≤ S1x3x264x520.size a
  inb_S1x3x264x520_S1x1x256x512_0_0_8_5 : ∀ a, (![0, 0, 8, 5] : Fin 4 → Nat) a + S1x1x256x512.size a ≤ S1x3x264x520.size a
  inb_S1x3x264x520_S1x1x256x512_0_1_8_5 : ∀ a, (![0, 1, 8, 5] : Fin 4 → Nat) a + S1x1x256x512.size a ≤ S1x3x264x520.size a
  inb_S1x3x264x520_S1x1x256x512_0_2_8_5 : ∀ a, (![0, 2, 8, 5] : Fin 4 → Nat) a + S1x1x256x512.size a ≤ S1x3x264x520.size a
  inb_S1x3x264x520_S1x1x256x512_0_0_8_6 : ∀ a, (![0, 0, 8, 6] : Fin 4 → Nat) a + S1x1x256x512.size a ≤ S1x3x264x520.size a
  inb_S1x3x264x520_S1x1x256x512_0_1_8_6 : ∀ a, (![0, 1, 8, 6] : Fin 4 → Nat) a + S1x1x256x512.size a ≤ S1x3x264x520.size a
  inb_S1x3x264x520_S1x1x256x512_0_2_8_6 : ∀ a, (![0, 2, 8, 6] : Fin 4 → Nat) a + S1x1x256x512.size a ≤ S1x3x264x520.size a
  inb_S1x3x264x520_S1x1x256x512_0_0_8_7 : ∀ a, (![0, 0, 8, 7] : Fin 4 → Nat) a + S1x1x256x512.size a ≤ S1x3x264x520.size a
  inb_S1x3x264x520_S1x1x256x512_0_1_8_7 : ∀ a, (![0, 1, 8, 7] : Fin 4 → Nat) a + S1x1x256x512.size a ≤ S1x3x264x520.size a
  inb_S1x3x264x520_S1x1x256x512_0_2_8_7 : ∀ a, (![0, 2, 8, 7] : Fin 4 → Nat) a + S1x1x256x512.size a ≤ S1x3x264x520.size a
  inb_S1x3x264x520_S1x1x256x512_0_0_8_8 : ∀ a, (![0, 0, 8, 8] : Fin 4 → Nat) a + S1x1x256x512.size a ≤ S1x3x264x520.size a
  inb_S1x3x264x520_S1x1x256x512_0_1_8_8 : ∀ a, (![0, 1, 8, 8] : Fin 4 → Nat) a + S1x1x256x512.size a ≤ S1x3x264x520.size a
  inb_S1x3x264x520_S1x1x256x512_0_2_8_8 : ∀ a, (![0, 2, 8, 8] : Fin 4 → Nat) a + S1x1x256x512.size a ≤ S1x3x264x520.size a
  inb_S1x256x512_S1x256x512_0_0_0 : ∀ a, (![0, 0, 0] : Fin 3 → Nat) a + S1x256x512.size a ≤ S1x256x512.size a
  h_S1x256x512 : 0 < S1x256x512.numel
  shapeCasts_S256x512_S1x256x512 : S256x512.ShapeCasts S1x256x512
  shapeCasts_S4x256x512_S4x1x131072 : S4x256x512.ShapeCasts S4x1x131072
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x256x512.size a ≤ S4x3x256x512.size a
  hwx0_0 : ∀ i : grid0.Coords, EltTy.bits .f32 = 32 ∨ (Rect.block (s := S4x3x256x512) S1x3x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x264x520.size a ≤ S4x3x264x520.size a
  hwx0_1 : ∀ i : grid0.Coords, EltTy.bits .f32 = 32 ∨ (Rect.block (s := S4x3x264x520) S1x3x264x520.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x512.size a ≤ S4x256x512.size a
  hwx0_2 : ∀ i : grid0.Coords, EltTy.bits .f32 = 32 ∨ (Rect.block (s := S4x256x512) S1x256x512.size (cc0_transform_2 i) (hinb0_2 i)).WholeWords (EltTy.packing .f32)

variable [Facts₀]

abbrev win0_0 : Pipeline.Window sig grid0 :=
  Pipeline.Window.ofSpec (Memref.whole main_arg0) S1x3x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x264x520.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x256x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x3x256x512 : Shape := ⟨4, ![4, 3, 256, 512]⟩
abbrev S_ : Shape := ⟨0, ![]⟩
abbrev S4x3x264x520 : Shape := ⟨4, ![4, 3, 264, 520]⟩
abbrev S4x256x512 : Shape := ⟨3, ![4, 256, 512]⟩
abbrev S4x1x131072 : Shape := ⟨3, ![4, 1, 131072]⟩

abbrev nBuf : Space → Nat
  | .hbm => 816
  | .vmem => 0
  | .smem => 0
  | _ => 0

abbrev hbmTy0_0 (i : Nat) : BufTy := match i % 128 with
  | 0 => ⟨S4x3x256x512, .f32⟩
  | 1 => ⟨S4x3x256x512, .f32⟩
  | 2 => ⟨S_, .i32⟩
  | 3 => ⟨S_, .f32⟩
  | 4 => ⟨S4x3x264x520, .f32⟩
  | 5 => ⟨S_, .i32⟩
  | 6 => ⟨S_, .i32⟩
  | 7 => ⟨S_, .i32⟩
  | 8 => ⟨S_, .i32⟩
  | 9 => ⟨S4x3x256x512, .f32⟩
  | 10 => ⟨S4x3x256x512, .f32⟩
  | 11 => ⟨S4x3x256x512, .f32⟩
  | 12 => ⟨S_, .f32⟩
  | 13 => ⟨S4x256x512, .f32⟩
  | 14 => ⟨S_, .i32⟩
  | 15 => ⟨S_, .i32⟩
  | 16 => ⟨S_, .i32⟩
  | 17 => ⟨S_, .i32⟩
  | 18 => ⟨S4x3x256x512, .f32⟩
  | 19 => ⟨S4x3x256x512, .f32⟩
  | 20 => ⟨S4x3x256x512, .f32⟩
  | 21 => ⟨S_, .f32⟩
  | 22 => ⟨S4x256x512, .f32⟩
  | 23 => ⟨S4x256x512, .f32⟩
  | 24 => ⟨S_, .i32⟩
  | 25 => ⟨S_, .i32⟩
  | 26 => ⟨S_, .i32⟩
  | 27 => ⟨S_, .i32⟩
  | 28 => ⟨S4x3x256x512, .f32⟩
  | 29 => ⟨S4x3x256x512, .f32⟩
  | 30 => ⟨S4x3x256x512, .f32⟩
  | 31 => ⟨S_, .f32⟩
  | 32 => ⟨S4x256x512, .f32⟩
  | 33 => ⟨S4x256x512, .f32⟩
  | 34 => ⟨S_, .i32⟩
  | 35 => ⟨S_, .i32⟩
  | 36 => ⟨S_, .i32⟩
  | 37 => ⟨S_, .i32⟩
  | 38 => ⟨S4x3x256x512, .f32⟩
  | 39 => ⟨S4x3x256x512, .f32⟩
  | 40 => ⟨S4x3x256x512, .f32⟩
  | 41 => ⟨S_, .f32⟩
  | 42 => ⟨S4x256x512, .f32⟩
  | 43 => ⟨S4x256x512, .f32⟩
  | 44 => ⟨S_, .i32⟩
  | 45 => ⟨S_, .i32⟩
  | 46 => ⟨S_, .i32⟩
  | 47 => ⟨S_, .i32⟩
  | 48 => ⟨S4x3x256x512, .f32⟩
  | 49 => ⟨S4x3x256x512, .f32⟩
  | 50 => ⟨S4x3x256x512, .f32⟩
  | 51 => ⟨S_, .f32⟩
  | 52 => ⟨S4x256x512, .f32⟩
  | 53 => ⟨S4x256x512, .f32⟩
  | 54 => ⟨S_, .i32⟩
  | 55 => ⟨S_, .i32⟩
  | 56 => ⟨S_, .i32⟩
  | 57 => ⟨S_, .i32⟩
  | 58 => ⟨S4x3x256x512, .f32⟩
  | 59 => ⟨S4x3x256x512, .f32⟩
  | 60 => ⟨S4x3x256x512, .f32⟩
  | 61 => ⟨S_, .f32⟩
  | 62 => ⟨S4x256x512, .f32⟩
  | 63 => ⟨S4x256x512, .f32⟩
  | 64 => ⟨S_, .i32⟩
  | 65 => ⟨S_, .i32⟩
  | 66 => ⟨S_, .i32⟩
  | 67 => ⟨S_, .i32⟩
  | 68 => ⟨S4x3x256x512, .f32⟩
  | 69 => ⟨S4x3x256x512, .f32⟩
  | 70 => ⟨S4x3x256x512, .f32⟩
  | 71 => ⟨S_, .f32⟩
  | 72 => ⟨S4x256x512, .f32⟩
  | 73 => ⟨S4x256x512, .f32⟩
  | 74 => ⟨S_, .i32⟩
  | 75 => ⟨S_, .i32⟩
  | 76 => ⟨S_, .i32⟩
  | 77 => ⟨S_, .i32⟩
  | 78 => ⟨S4x3x256x512, .f32⟩
  | 79 => ⟨S4x3x256x512, .f32⟩
  | 80 => ⟨S4x3x256x512, .f32⟩
  | 81 => ⟨S_, .f32⟩
  | 82 => ⟨S4x256x512, .f32⟩
  | 83 => ⟨S4x256x512, .f32⟩
  | 84 => ⟨S_, .i32⟩
  | 85 => ⟨S_, .i32⟩
  | 86 => ⟨S_, .i32⟩
  | 87 => ⟨S_, .i32⟩
  | 88 => ⟨S4x3x256x512, .f32⟩
  | 89 => ⟨S4x3x256x512, .f32⟩
  | 90 => ⟨S4x3x256x512, .f32⟩
  | 91 => ⟨S_, .f32⟩
  | 92 => ⟨S4x256x512, .f32⟩
  | 93 => ⟨S4x256x512, .f32⟩
  | 94 => ⟨S_, .i32⟩
  | 95 => ⟨S_, .i32⟩
  | 96 => ⟨S_, .i32⟩
  | 97 => ⟨S_, .i32⟩
  | 98 => ⟨S4x3x256x512, .f32⟩
  | 99 => ⟨S4x3x256x512, .f32⟩
  | 100 => ⟨S4x3x256x512, .f32⟩
  | 101 => ⟨S_, .f32⟩
  | 102 => ⟨S4x256x512, .f32⟩
  | 103 => ⟨S4x256x512, .f32⟩
  | 104 => ⟨S_, .i32⟩
  | 105 => ⟨S_, .i32⟩
  | 106 => ⟨S_, .i32⟩
  | 107 => ⟨S_, .i32⟩
  | 108 => ⟨S4x3x256x512, .f32⟩
  | 109 => ⟨S4x3x256x512, .f32⟩
  | 110 => ⟨S4x3x256x512, .f32⟩
  | 111 => ⟨S_, .f32⟩
  | 112 => ⟨S4x256x512, .f32⟩
  | 113 => ⟨S4x256x512, .f32⟩
  | 114 => ⟨S_, .i32⟩
  | 115 => ⟨S_, .i32⟩
  | 116 => ⟨S_, .i32⟩
  | 117 => ⟨S_, .i32⟩
  | 118 => ⟨S4x3x256x512, .f32⟩
  | 119 => ⟨S4x3x256x512, .f32⟩
  | 120 => ⟨S4x3x256x512, .f32⟩
  | 121 => ⟨S_, .f32⟩
  | 122 => ⟨S4x256x512, .f32⟩
  | 123 => ⟨S4x256x512, .f32⟩
  | 124 => ⟨S_, .i32⟩
  | 125 => ⟨S_, .i32⟩
  | 126 => ⟨S_, .i32⟩
  | 127 => ⟨S_, .i32⟩
  | _ => ⟨S4x3x256x512, .f32⟩

abbrev hbmTy0_1 (i : Nat) : BufTy := match i % 128 with
  | 0 => ⟨S4x3x256x512, .f32⟩
  | 1 => ⟨S4x3x256x512, .f32⟩
  | 2 => ⟨S4x3x256x512, .f32⟩
  | 3 => ⟨S_, .f32⟩
  | 4 => ⟨S4x256x512, .f32⟩
  | 5 => ⟨S4x256x512, .f32⟩
  | 6 => ⟨S_, .i32⟩
  | 7 => ⟨S_, .i32⟩
  | 8 => ⟨S_, .i32⟩
  | 9 => ⟨S_, .i32⟩
  | 10 => ⟨S4x3x256x512, .f32⟩
  | 11 => ⟨S4x3x256x512, .f32⟩
  | 12 => ⟨S4x3x256x512, .f32⟩
  | 13 => ⟨S_, .f32⟩
  | 14 => ⟨S4x256x512, .f32⟩
  | 15 => ⟨S4x256x512, .f32⟩
  | 16 => ⟨S_, .i32⟩
  | 17 => ⟨S_, .i32⟩
  | 18 => ⟨S_, .i32⟩
  | 19 => ⟨S_, .i32⟩
  | 20 => ⟨S4x3x256x512, .f32⟩
  | 21 => ⟨S4x3x256x512, .f32⟩
  | 22 => ⟨S4x3x256x512, .f32⟩
  | 23 => ⟨S_, .f32⟩
  | 24 => ⟨S4x256x512, .f32⟩
  | 25 => ⟨S4x256x512, .f32⟩
  | 26 => ⟨S_, .i32⟩
  | 27 => ⟨S_, .i32⟩
  | 28 => ⟨S_, .i32⟩
  | 29 => ⟨S_, .i32⟩
  | 30 => ⟨S4x3x256x512, .f32⟩
  | 31 => ⟨S4x3x256x512, .f32⟩
  | 32 => ⟨S4x3x256x512, .f32⟩
  | 33 => ⟨S_, .f32⟩
  | 34 => ⟨S4x256x512, .f32⟩
  | 35 => ⟨S4x256x512, .f32⟩
  | 36 => ⟨S_, .i32⟩
  | 37 => ⟨S_, .i32⟩
  | 38 => ⟨S_, .i32⟩
  | 39 => ⟨S_, .i32⟩
  | 40 => ⟨S4x3x256x512, .f32⟩
  | 41 => ⟨S4x3x256x512, .f32⟩
  | 42 => ⟨S4x3x256x512, .f32⟩
  | 43 => ⟨S_, .f32⟩
  | 44 => ⟨S4x256x512, .f32⟩
  | 45 => ⟨S4x256x512, .f32⟩
  | 46 => ⟨S_, .i32⟩
  | 47 => ⟨S_, .i32⟩
  | 48 => ⟨S_, .i32⟩
  | 49 => ⟨S_, .i32⟩
  | 50 => ⟨S4x3x256x512, .f32⟩
  | 51 => ⟨S4x3x256x512, .f32⟩
  | 52 => ⟨S4x3x256x512, .f32⟩
  | 53 => ⟨S_, .f32⟩
  | 54 => ⟨S4x256x512, .f32⟩
  | 55 => ⟨S4x256x512, .f32⟩
  | 56 => ⟨S_, .i32⟩
  | 57 => ⟨S_, .i32⟩
  | 58 => ⟨S_, .i32⟩
  | 59 => ⟨S_, .i32⟩
  | 60 => ⟨S4x3x256x512, .f32⟩
  | 61 => ⟨S4x3x256x512, .f32⟩
  | 62 => ⟨S4x3x256x512, .f32⟩
  | 63 => ⟨S_, .f32⟩
  | 64 => ⟨S4x256x512, .f32⟩
  | 65 => ⟨S4x256x512, .f32⟩
  | 66 => ⟨S_, .i32⟩
  | 67 => ⟨S_, .i32⟩
  | 68 => ⟨S_, .i32⟩
  | 69 => ⟨S_, .i32⟩
  | 70 => ⟨S4x3x256x512, .f32⟩
  | 71 => ⟨S4x3x256x512, .f32⟩
  | 72 => ⟨S4x3x256x512, .f32⟩
  | 73 => ⟨S_, .f32⟩
  | 74 => ⟨S4x256x512, .f32⟩
  | 75 => ⟨S4x256x512, .f32⟩
  | 76 => ⟨S_, .i32⟩
  | 77 => ⟨S_, .i32⟩
  | 78 => ⟨S_, .i32⟩
  | 79 => ⟨S_, .i32⟩
  | 80 => ⟨S4x3x256x512, .f32⟩
  | 81 => ⟨S4x3x256x512, .f32⟩
  | 82 => ⟨S4x3x256x512, .f32⟩
  | 83 => ⟨S_, .f32⟩
  | 84 => ⟨S4x256x512, .f32⟩
  | 85 => ⟨S4x256x512, .f32⟩
  | 86 => ⟨S_, .i32⟩
  | 87 => ⟨S_, .i32⟩
  | 88 => ⟨S_, .i32⟩
  | 89 => ⟨S_, .i32⟩
  | 90 => ⟨S4x3x256x512, .f32⟩
  | 91 => ⟨S4x3x256x512, .f32⟩
  | 92 => ⟨S4x3x256x512, .f32⟩
  | 93 => ⟨S_, .f32⟩
  | 94 => ⟨S4x256x512, .f32⟩
  | 95 => ⟨S4x256x512, .f32⟩
  | 96 => ⟨S_, .i32⟩
  | 97 => ⟨S_, .i32⟩
  | 98 => ⟨S_, .i32⟩
  | 99 => ⟨S_, .i32⟩
  | 100 => ⟨S4x3x256x512, .f32⟩
  | 101 => ⟨S4x3x256x512, .f32⟩
  | 102 => ⟨S4x3x256x512, .f32⟩
  | 103 => ⟨S_, .f32⟩
  | 104 => ⟨S4x256x512, .f32⟩
  | 105 => ⟨S4x256x512, .f32⟩
  | 106 => ⟨S_, .i32⟩
  | 107 => ⟨S_, .i32⟩
  | 108 => ⟨S_, .i32⟩
  | 109 => ⟨S_, .i32⟩
  | 110 => ⟨S4x3x256x512, .f32⟩
  | 111 => ⟨S4x3x256x512, .f32⟩
  | 112 => ⟨S4x3x256x512, .f32⟩
  | 113 => ⟨S_, .f32⟩
  | 114 => ⟨S4x256x512, .f32⟩
  | 115 => ⟨S4x256x512, .f32⟩
  | 116 => ⟨S_, .i32⟩
  | 117 => ⟨S_, .i32⟩
  | 118 => ⟨S_, .i32⟩
  | 119 => ⟨S_, .i32⟩
  | 120 => ⟨S4x3x256x512, .f32⟩
  | 121 => ⟨S4x3x256x512, .f32⟩
  | 122 => ⟨S4x3x256x512, .f32⟩
  | 123 => ⟨S_, .f32⟩
  | 124 => ⟨S4x256x512, .f32⟩
  | 125 => ⟨S4x256x512, .f32⟩
  | 126 => ⟨S_, .i32⟩
  | 127 => ⟨S_, .i32⟩
  | _ => ⟨S4x3x256x512, .f32⟩

abbrev hbmTy0_2 (i : Nat) : BufTy := match i % 128 with
  | 0 => ⟨S_, .i32⟩
  | 1 => ⟨S_, .i32⟩
  | 2 => ⟨S4x3x256x512, .f32⟩
  | 3 => ⟨S4x3x256x512, .f32⟩
  | 4 => ⟨S4x3x256x512, .f32⟩
  | 5 => ⟨S_, .f32⟩
  | 6 => ⟨S4x256x512, .f32⟩
  | 7 => ⟨S4x256x512, .f32⟩
  | 8 => ⟨S_, .i32⟩
  | 9 => ⟨S_, .i32⟩
  | 10 => ⟨S_, .i32⟩
  | 11 => ⟨S_, .i32⟩
  | 12 => ⟨S4x3x256x512, .f32⟩
  | 13 => ⟨S4x3x256x512, .f32⟩
  | 14 => ⟨S4x3x256x512, .f32⟩
  | 15 => ⟨S_, .f32⟩
  | 16 => ⟨S4x256x512, .f32⟩
  | 17 => ⟨S4x256x512, .f32⟩
  | 18 => ⟨S_, .i32⟩
  | 19 => ⟨S_, .i32⟩
  | 20 => ⟨S_, .i32⟩
  | 21 => ⟨S_, .i32⟩
  | 22 => ⟨S4x3x256x512, .f32⟩
  | 23 => ⟨S4x3x256x512, .f32⟩
  | 24 => ⟨S4x3x256x512, .f32⟩
  | 25 => ⟨S_, .f32⟩
  | 26 => ⟨S4x256x512, .f32⟩
  | 27 => ⟨S4x256x512, .f32⟩
  | 28 => ⟨S_, .i32⟩
  | 29 => ⟨S_, .i32⟩
  | 30 => ⟨S_, .i32⟩
  | 31 => ⟨S_, .i32⟩
  | 32 => ⟨S4x3x256x512, .f32⟩
  | 33 => ⟨S4x3x256x512, .f32⟩
  | 34 => ⟨S4x3x256x512, .f32⟩
  | 35 => ⟨S_, .f32⟩
  | 36 => ⟨S4x256x512, .f32⟩
  | 37 => ⟨S4x256x512, .f32⟩
  | 38 => ⟨S_, .i32⟩
  | 39 => ⟨S_, .i32⟩
  | 40 => ⟨S_, .i32⟩
  | 41 => ⟨S_, .i32⟩
  | 42 => ⟨S4x3x256x512, .f32⟩
  | 43 => ⟨S4x3x256x512, .f32⟩
  | 44 => ⟨S4x3x256x512, .f32⟩
  | 45 => ⟨S_, .f32⟩
  | 46 => ⟨S4x256x512, .f32⟩
  | 47 => ⟨S4x256x512, .f32⟩
  | 48 => ⟨S_, .i32⟩
  | 49 => ⟨S_, .i32⟩
  | 50 => ⟨S_, .i32⟩
  | 51 => ⟨S_, .i32⟩
  | 52 => ⟨S4x3x256x512, .f32⟩
  | 53 => ⟨S4x3x256x512, .f32⟩
  | 54 => ⟨S4x3x256x512, .f32⟩
  | 55 => ⟨S_, .f32⟩
  | 56 => ⟨S4x256x512, .f32⟩
  | 57 => ⟨S4x256x512, .f32⟩
  | 58 => ⟨S_, .i32⟩
  | 59 => ⟨S_, .i32⟩
  | 60 => ⟨S_, .i32⟩
  | 61 => ⟨S_, .i32⟩
  | 62 => ⟨S4x3x256x512, .f32⟩
  | 63 => ⟨S4x3x256x512, .f32⟩
  | 64 => ⟨S4x3x256x512, .f32⟩
  | 65 => ⟨S_, .f32⟩
  | 66 => ⟨S4x256x512, .f32⟩
  | 67 => ⟨S4x256x512, .f32⟩
  | 68 => ⟨S_, .i32⟩
  | 69 => ⟨S_, .i32⟩
  | 70 => ⟨S_, .i32⟩
  | 71 => ⟨S_, .i32⟩
  | 72 => ⟨S4x3x256x512, .f32⟩
  | 73 => ⟨S4x3x256x512, .f32⟩
  | 74 => ⟨S4x3x256x512, .f32⟩
  | 75 => ⟨S_, .f32⟩
  | 76 => ⟨S4x256x512, .f32⟩
  | 77 => ⟨S4x256x512, .f32⟩
  | 78 => ⟨S_, .i32⟩
  | 79 => ⟨S_, .i32⟩
  | 80 => ⟨S_, .i32⟩
  | 81 => ⟨S_, .i32⟩
  | 82 => ⟨S4x3x256x512, .f32⟩
  | 83 => ⟨S4x3x256x512, .f32⟩
  | 84 => ⟨S4x3x256x512, .f32⟩
  | 85 => ⟨S_, .f32⟩
  | 86 => ⟨S4x256x512, .f32⟩
  | 87 => ⟨S4x256x512, .f32⟩
  | 88 => ⟨S_, .i32⟩
  | 89 => ⟨S_, .i32⟩
  | 90 => ⟨S_, .i32⟩
  | 91 => ⟨S_, .i32⟩
  | 92 => ⟨S4x3x256x512, .f32⟩
  | 93 => ⟨S4x3x256x512, .f32⟩
  | 94 => ⟨S4x3x256x512, .f32⟩
  | 95 => ⟨S_, .f32⟩
  | 96 => ⟨S4x256x512, .f32⟩
  | 97 => ⟨S4x256x512, .f32⟩
  | 98 => ⟨S_, .i32⟩
  | 99 => ⟨S_, .i32⟩
  | 100 => ⟨S_, .i32⟩
  | 101 => ⟨S_, .i32⟩
  | 102 => ⟨S4x3x256x512, .f32⟩
  | 103 => ⟨S4x3x256x512, .f32⟩
  | 104 => ⟨S4x3x256x512, .f32⟩
  | 105 => ⟨S_, .f32⟩
  | 106 => ⟨S4x256x512, .f32⟩
  | 107 => ⟨S4x256x512, .f32⟩
  | 108 => ⟨S_, .i32⟩
  | 109 => ⟨S_, .i32⟩
  | 110 => ⟨S_, .i32⟩
  | 111 => ⟨S_, .i32⟩
  | 112 => ⟨S4x3x256x512, .f32⟩
  | 113 => ⟨S4x3x256x512, .f32⟩
  | 114 => ⟨S4x3x256x512, .f32⟩
  | 115 => ⟨S_, .f32⟩
  | 116 => ⟨S4x256x512, .f32⟩
  | 117 => ⟨S4x256x512, .f32⟩
  | 118 => ⟨S_, .i32⟩
  | 119 => ⟨S_, .i32⟩
  | 120 => ⟨S_, .i32⟩
  | 121 => ⟨S_, .i32⟩
  | 122 => ⟨S4x3x256x512, .f32⟩
  | 123 => ⟨S4x3x256x512, .f32⟩
  | 124 => ⟨S4x3x256x512, .f32⟩
  | 125 => ⟨S_, .f32⟩
  | 126 => ⟨S4x256x512, .f32⟩
  | 127 => ⟨S4x256x512, .f32⟩
  | _ => ⟨S4x3x256x512, .f32⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S4x3x256x512, .f32⟩
  | 5 => ⟨S4x3x256x512, .f32⟩
  | 6 => ⟨S4x3x256x512, .f32⟩
  | 7 => ⟨S_, .f32⟩
  | 8 => ⟨S4x256x512, .f32⟩
  | 9 => ⟨S4x256x512, .f32⟩
  | 10 => ⟨S_, .i32⟩
  | 11 => ⟨S_, .i32⟩
  | 12 => ⟨S_, .i32⟩
  | 13 => ⟨S_, .i32⟩
  | 14 => ⟨S4x3x256x512, .f32⟩
  | 15 => ⟨S4x3x256x512, .f32⟩
  | 16 => ⟨S4x3x256x512, .f32⟩
  | 17 => ⟨S_, .f32⟩
  | 18 => ⟨S4x256x512, .f32⟩
  | 19 => ⟨S4x256x512, .f32⟩
  | 20 => ⟨S_, .i32⟩
  | 21 => ⟨S_, .i32⟩
  | 22 => ⟨S_, .i32⟩
  | 23 => ⟨S_, .i32⟩
  | 24 => ⟨S4x3x256x512, .f32⟩
  | 25 => ⟨S4x3x256x512, .f32⟩
  | 26 => ⟨S4x3x256x512, .f32⟩
  | 27 => ⟨S_, .f32⟩
  | 28 => ⟨S4x256x512, .f32⟩
  | 29 => ⟨S4x256x512, .f32⟩
  | 30 => ⟨S_, .i32⟩
  | 31 => ⟨S_, .i32⟩
  | 32 => ⟨S_, .i32⟩
  | 33 => ⟨S_, .i32⟩
  | 34 => ⟨S4x3x256x512, .f32⟩
  | 35 => ⟨S4x3x256x512, .f32⟩
  | 36 => ⟨S4x3x256x512, .f32⟩
  | 37 => ⟨S_, .f32⟩
  | 38 => ⟨S4x256x512, .f32⟩
  | 39 => ⟨S4x256x512, .f32⟩
  | 40 => ⟨S_, .i32⟩
  | 41 => ⟨S_, .i32⟩
  | 42 => ⟨S_, .i32⟩
  | 43 => ⟨S_, .i32⟩
  | 44 => ⟨S4x3x256x512, .f32⟩
  | 45 => ⟨S4x3x256x512, .f32⟩
  | 46 => ⟨S4x3x256x512, .f32⟩
  | 47 => ⟨S_, .f32⟩
  | 48 => ⟨S4x256x512, .f32⟩
  | 49 => ⟨S4x256x512, .f32⟩
  | 50 => ⟨S_, .i32⟩
  | 51 => ⟨S_, .i32⟩
  | 52 => ⟨S_, .i32⟩
  | 53 => ⟨S_, .i32⟩
  | 54 => ⟨S4x3x256x512, .f32⟩
  | 55 => ⟨S4x3x256x512, .f32⟩
  | 56 => ⟨S4x3x256x512, .f32⟩
  | 57 => ⟨S_, .f32⟩
  | 58 => ⟨S4x256x512, .f32⟩
  | 59 => ⟨S4x256x512, .f32⟩
  | 60 => ⟨S_, .i32⟩
  | 61 => ⟨S_, .i32⟩
  | 62 => ⟨S_, .i32⟩
  | 63 => ⟨S_, .i32⟩
  | 64 => ⟨S4x3x256x512, .f32⟩
  | 65 => ⟨S4x3x256x512, .f32⟩
  | 66 => ⟨S4x3x256x512, .f32⟩
  | 67 => ⟨S_, .f32⟩
  | 68 => ⟨S4x256x512, .f32⟩
  | 69 => ⟨S4x256x512, .f32⟩
  | 70 => ⟨S_, .i32⟩
  | 71 => ⟨S_, .i32⟩
  | 72 => ⟨S_, .i32⟩
  | 73 => ⟨S_, .i32⟩
  | 74 => ⟨S4x3x256x512, .f32⟩
  | 75 => ⟨S4x3x256x512, .f32⟩
  | 76 => ⟨S4x3x256x512, .f32⟩
  | 77 => ⟨S_, .f32⟩
  | 78 => ⟨S4x256x512, .f32⟩
  | 79 => ⟨S4x256x512, .f32⟩
  | 80 => ⟨S_, .i32⟩
  | 81 => ⟨S_, .i32⟩
  | 82 => ⟨S_, .i32⟩
  | 83 => ⟨S_, .i32⟩
  | 84 => ⟨S4x3x256x512, .f32⟩
  | 85 => ⟨S4x3x256x512, .f32⟩
  | 86 => ⟨S4x3x256x512, .f32⟩
  | 87 => ⟨S_, .f32⟩
  | 88 => ⟨S4x256x512, .f32⟩
  | 89 => ⟨S4x256x512, .f32⟩
  | 90 => ⟨S_, .i32⟩
  | 91 => ⟨S_, .i32⟩
  | 92 => ⟨S_, .i32⟩
  | 93 => ⟨S_, .i32⟩
  | 94 => ⟨S4x3x256x512, .f32⟩
  | 95 => ⟨S4x3x256x512, .f32⟩
  | 96 => ⟨S4x3x256x512, .f32⟩
  | 97 => ⟨S_, .f32⟩
  | 98 => ⟨S4x256x512, .f32⟩
  | 99 => ⟨S4x256x512, .f32⟩
  | 100 => ⟨S_, .i32⟩
  | 101 => ⟨S_, .i32⟩
  | 102 => ⟨S_, .i32⟩
  | 103 => ⟨S_, .i32⟩
  | 104 => ⟨S4x3x256x512, .f32⟩
  | 105 => ⟨S4x3x256x512, .f32⟩
  | 106 => ⟨S4x3x256x512, .f32⟩
  | 107 => ⟨S_, .f32⟩
  | 108 => ⟨S4x256x512, .f32⟩
  | 109 => ⟨S4x256x512, .f32⟩
  | 110 => ⟨S_, .i32⟩
  | 111 => ⟨S_, .i32⟩
  | 112 => ⟨S_, .i32⟩
  | 113 => ⟨S_, .i32⟩
  | 114 => ⟨S4x3x256x512, .f32⟩
  | 115 => ⟨S4x3x256x512, .f32⟩
  | 116 => ⟨S4x3x256x512, .f32⟩
  | 117 => ⟨S_, .f32⟩
  | 118 => ⟨S4x256x512, .f32⟩
  | 119 => ⟨S4x256x512, .f32⟩
  | 120 => ⟨S_, .i32⟩
  | 121 => ⟨S_, .i32⟩
  | 122 => ⟨S_, .i32⟩
  | 123 => ⟨S_, .i32⟩
  | 124 => ⟨S4x3x256x512, .f32⟩
  | 125 => ⟨S4x3x256x512, .f32⟩
  | 126 => ⟨S4x3x256x512, .f32⟩
  | 127 => ⟨S_, .f32⟩
  | _ => ⟨S4x3x256x512, .f32⟩

abbrev hbmTy0_4 (i : Nat) : BufTy := match i % 128 with
  | 0 => ⟨S4x256x512, .f32⟩
  | 1 => ⟨S4x256x512, .f32⟩
  | 2 => ⟨S_, .i32⟩
  | 3 => ⟨S_, .i32⟩
  | 4 => ⟨S_, .i32⟩
  | 5 => ⟨S_, .i32⟩
  | 6 => ⟨S4x3x256x512, .f32⟩
  | 7 => ⟨S4x3x256x512, .f32⟩
  | 8 => ⟨S4x3x256x512, .f32⟩
  | 9 => ⟨S_, .f32⟩
  | 10 => ⟨S4x256x512, .f32⟩
  | 11 => ⟨S4x256x512, .f32⟩
  | 12 => ⟨S_, .i32⟩
  | 13 => ⟨S_, .i32⟩
  | 14 => ⟨S_, .i32⟩
  | 15 => ⟨S_, .i32⟩
  | 16 => ⟨S4x3x256x512, .f32⟩
  | 17 => ⟨S4x3x256x512, .f32⟩
  | 18 => ⟨S4x3x256x512, .f32⟩
  | 19 => ⟨S_, .f32⟩
  | 20 => ⟨S4x256x512, .f32⟩
  | 21 => ⟨S4x256x512, .f32⟩
  | 22 => ⟨S_, .i32⟩
  | 23 => ⟨S_, .i32⟩
  | 24 => ⟨S_, .i32⟩
  | 25 => ⟨S_, .i32⟩
  | 26 => ⟨S4x3x256x512, .f32⟩
  | 27 => ⟨S4x3x256x512, .f32⟩
  | 28 => ⟨S4x3x256x512, .f32⟩
  | 29 => ⟨S_, .f32⟩
  | 30 => ⟨S4x256x512, .f32⟩
  | 31 => ⟨S4x256x512, .f32⟩
  | 32 => ⟨S_, .i32⟩
  | 33 => ⟨S_, .i32⟩
  | 34 => ⟨S_, .i32⟩
  | 35 => ⟨S_, .i32⟩
  | 36 => ⟨S4x3x256x512, .f32⟩
  | 37 => ⟨S4x3x256x512, .f32⟩
  | 38 => ⟨S4x3x256x512, .f32⟩
  | 39 => ⟨S_, .f32⟩
  | 40 => ⟨S4x256x512, .f32⟩
  | 41 => ⟨S4x256x512, .f32⟩
  | 42 => ⟨S_, .i32⟩
  | 43 => ⟨S_, .i32⟩
  | 44 => ⟨S_, .i32⟩
  | 45 => ⟨S_, .i32⟩
  | 46 => ⟨S4x3x256x512, .f32⟩
  | 47 => ⟨S4x3x256x512, .f32⟩
  | 48 => ⟨S4x3x256x512, .f32⟩
  | 49 => ⟨S_, .f32⟩
  | 50 => ⟨S4x256x512, .f32⟩
  | 51 => ⟨S4x256x512, .f32⟩
  | 52 => ⟨S_, .i32⟩
  | 53 => ⟨S_, .i32⟩
  | 54 => ⟨S_, .i32⟩
  | 55 => ⟨S_, .i32⟩
  | 56 => ⟨S4x3x256x512, .f32⟩
  | 57 => ⟨S4x3x256x512, .f32⟩
  | 58 => ⟨S4x3x256x512, .f32⟩
  | 59 => ⟨S_, .f32⟩
  | 60 => ⟨S4x256x512, .f32⟩
  | 61 => ⟨S4x256x512, .f32⟩
  | 62 => ⟨S_, .i32⟩
  | 63 => ⟨S_, .i32⟩
  | 64 => ⟨S_, .i32⟩
  | 65 => ⟨S_, .i32⟩
  | 66 => ⟨S4x3x256x512, .f32⟩
  | 67 => ⟨S4x3x256x512, .f32⟩
  | 68 => ⟨S4x3x256x512, .f32⟩
  | 69 => ⟨S_, .f32⟩
  | 70 => ⟨S4x256x512, .f32⟩
  | 71 => ⟨S4x256x512, .f32⟩
  | 72 => ⟨S_, .i32⟩
  | 73 => ⟨S_, .i32⟩
  | 74 => ⟨S_, .i32⟩
  | 75 => ⟨S_, .i32⟩
  | 76 => ⟨S4x3x256x512, .f32⟩
  | 77 => ⟨S4x3x256x512, .f32⟩
  | 78 => ⟨S4x3x256x512, .f32⟩
  | 79 => ⟨S_, .f32⟩
  | 80 => ⟨S4x256x512, .f32⟩
  | 81 => ⟨S4x256x512, .f32⟩
  | 82 => ⟨S_, .i32⟩
  | 83 => ⟨S_, .i32⟩
  | 84 => ⟨S_, .i32⟩
  | 85 => ⟨S_, .i32⟩
  | 86 => ⟨S4x3x256x512, .f32⟩
  | 87 => ⟨S4x3x256x512, .f32⟩
  | 88 => ⟨S4x3x256x512, .f32⟩
  | 89 => ⟨S_, .f32⟩
  | 90 => ⟨S4x256x512, .f32⟩
  | 91 => ⟨S4x256x512, .f32⟩
  | 92 => ⟨S_, .i32⟩
  | 93 => ⟨S_, .i32⟩
  | 94 => ⟨S_, .i32⟩
  | 95 => ⟨S_, .i32⟩
  | 96 => ⟨S4x3x256x512, .f32⟩
  | 97 => ⟨S4x3x256x512, .f32⟩
  | 98 => ⟨S4x3x256x512, .f32⟩
  | 99 => ⟨S_, .f32⟩
  | 100 => ⟨S4x256x512, .f32⟩
  | 101 => ⟨S4x256x512, .f32⟩
  | 102 => ⟨S_, .i32⟩
  | 103 => ⟨S_, .i32⟩
  | 104 => ⟨S_, .i32⟩
  | 105 => ⟨S_, .i32⟩
  | 106 => ⟨S4x3x256x512, .f32⟩
  | 107 => ⟨S4x3x256x512, .f32⟩
  | 108 => ⟨S4x3x256x512, .f32⟩
  | 109 => ⟨S_, .f32⟩
  | 110 => ⟨S4x256x512, .f32⟩
  | 111 => ⟨S4x256x512, .f32⟩
  | 112 => ⟨S_, .i32⟩
  | 113 => ⟨S_, .i32⟩
  | 114 => ⟨S_, .i32⟩
  | 115 => ⟨S_, .i32⟩
  | 116 => ⟨S4x3x256x512, .f32⟩
  | 117 => ⟨S4x3x256x512, .f32⟩
  | 118 => ⟨S4x3x256x512, .f32⟩
  | 119 => ⟨S_, .f32⟩
  | 120 => ⟨S4x256x512, .f32⟩
  | 121 => ⟨S4x256x512, .f32⟩
  | 122 => ⟨S_, .i32⟩
  | 123 => ⟨S_, .i32⟩
  | 124 => ⟨S_, .i32⟩
  | 125 => ⟨S_, .i32⟩
  | 126 => ⟨S4x3x256x512, .f32⟩
  | 127 => ⟨S4x3x256x512, .f32⟩
  | _ => ⟨S4x3x256x512, .f32⟩

abbrev hbmTy0_5 (i : Nat) : BufTy := match i % 128 with
  | 0 => ⟨S4x3x256x512, .f32⟩
  | 1 => ⟨S_, .f32⟩
  | 2 => ⟨S4x256x512, .f32⟩
  | 3 => ⟨S4x256x512, .f32⟩
  | 4 => ⟨S_, .i32⟩
  | 5 => ⟨S_, .i32⟩
  | 6 => ⟨S_, .i32⟩
  | 7 => ⟨S_, .i32⟩
  | 8 => ⟨S4x3x256x512, .f32⟩
  | 9 => ⟨S4x3x256x512, .f32⟩
  | 10 => ⟨S4x3x256x512, .f32⟩
  | 11 => ⟨S_, .f32⟩
  | 12 => ⟨S4x256x512, .f32⟩
  | 13 => ⟨S4x256x512, .f32⟩
  | 14 => ⟨S_, .i32⟩
  | 15 => ⟨S_, .i32⟩
  | 16 => ⟨S_, .i32⟩
  | 17 => ⟨S_, .i32⟩
  | 18 => ⟨S4x3x256x512, .f32⟩
  | 19 => ⟨S4x3x256x512, .f32⟩
  | 20 => ⟨S4x3x256x512, .f32⟩
  | 21 => ⟨S_, .f32⟩
  | 22 => ⟨S4x256x512, .f32⟩
  | 23 => ⟨S4x256x512, .f32⟩
  | 24 => ⟨S_, .i32⟩
  | 25 => ⟨S_, .i32⟩
  | 26 => ⟨S_, .i32⟩
  | 27 => ⟨S_, .i32⟩
  | 28 => ⟨S4x3x256x512, .f32⟩
  | 29 => ⟨S4x3x256x512, .f32⟩
  | 30 => ⟨S4x3x256x512, .f32⟩
  | 31 => ⟨S_, .f32⟩
  | 32 => ⟨S4x256x512, .f32⟩
  | 33 => ⟨S4x256x512, .f32⟩
  | 34 => ⟨S_, .i32⟩
  | 35 => ⟨S_, .i32⟩
  | 36 => ⟨S_, .i32⟩
  | 37 => ⟨S_, .i32⟩
  | 38 => ⟨S4x3x256x512, .f32⟩
  | 39 => ⟨S4x3x256x512, .f32⟩
  | 40 => ⟨S4x3x256x512, .f32⟩
  | 41 => ⟨S_, .f32⟩
  | 42 => ⟨S4x256x512, .f32⟩
  | 43 => ⟨S4x256x512, .f32⟩
  | 44 => ⟨S_, .i32⟩
  | 45 => ⟨S_, .i32⟩
  | 46 => ⟨S_, .i32⟩
  | 47 => ⟨S_, .i32⟩
  | 48 => ⟨S4x3x256x512, .f32⟩
  | 49 => ⟨S4x3x256x512, .f32⟩
  | 50 => ⟨S4x3x256x512, .f32⟩
  | 51 => ⟨S_, .f32⟩
  | 52 => ⟨S4x256x512, .f32⟩
  | 53 => ⟨S4x256x512, .f32⟩
  | 54 => ⟨S_, .i32⟩
  | 55 => ⟨S_, .i32⟩
  | 56 => ⟨S_, .i32⟩
  | 57 => ⟨S_, .i32⟩
  | 58 => ⟨S4x3x256x512, .f32⟩
  | 59 => ⟨S4x3x256x512, .f32⟩
  | 60 => ⟨S4x3x256x512, .f32⟩
  | 61 => ⟨S_, .f32⟩
  | 62 => ⟨S4x256x512, .f32⟩
  | 63 => ⟨S4x256x512, .f32⟩
  | 64 => ⟨S_, .i32⟩
  | 65 => ⟨S_, .i32⟩
  | 66 => ⟨S_, .i32⟩
  | 67 => ⟨S_, .i32⟩
  | 68 => ⟨S4x3x256x512, .f32⟩
  | 69 => ⟨S4x3x256x512, .f32⟩
  | 70 => ⟨S4x3x256x512, .f32⟩
  | 71 => ⟨S_, .f32⟩
  | 72 => ⟨S4x256x512, .f32⟩
  | 73 => ⟨S4x256x512, .f32⟩
  | 74 => ⟨S_, .i32⟩
  | 75 => ⟨S_, .i32⟩
  | 76 => ⟨S_, .i32⟩
  | 77 => ⟨S_, .i32⟩
  | 78 => ⟨S4x3x256x512, .f32⟩
  | 79 => ⟨S4x3x256x512, .f32⟩
  | 80 => ⟨S4x3x256x512, .f32⟩
  | 81 => ⟨S_, .f32⟩
  | 82 => ⟨S4x256x512, .f32⟩
  | 83 => ⟨S4x256x512, .f32⟩
  | 84 => ⟨S_, .i32⟩
  | 85 => ⟨S_, .i32⟩
  | 86 => ⟨S_, .i32⟩
  | 87 => ⟨S_, .i32⟩
  | 88 => ⟨S4x3x256x512, .f32⟩
  | 89 => ⟨S4x3x256x512, .f32⟩
  | 90 => ⟨S4x3x256x512, .f32⟩
  | 91 => ⟨S_, .f32⟩
  | 92 => ⟨S4x256x512, .f32⟩
  | 93 => ⟨S4x256x512, .f32⟩
  | 94 => ⟨S_, .i32⟩
  | 95 => ⟨S_, .i32⟩
  | 96 => ⟨S_, .i32⟩
  | 97 => ⟨S_, .i32⟩
  | 98 => ⟨S4x3x256x512, .f32⟩
  | 99 => ⟨S4x3x256x512, .f32⟩
  | 100 => ⟨S4x3x256x512, .f32⟩
  | 101 => ⟨S_, .f32⟩
  | 102 => ⟨S4x256x512, .f32⟩
  | 103 => ⟨S4x256x512, .f32⟩
  | 104 => ⟨S_, .i32⟩
  | 105 => ⟨S_, .i32⟩
  | 106 => ⟨S_, .i32⟩
  | 107 => ⟨S_, .i32⟩
  | 108 => ⟨S4x3x256x512, .f32⟩
  | 109 => ⟨S4x3x256x512, .f32⟩
  | 110 => ⟨S4x3x256x512, .f32⟩
  | 111 => ⟨S_, .f32⟩
  | 112 => ⟨S4x256x512, .f32⟩
  | 113 => ⟨S4x256x512, .f32⟩
  | 114 => ⟨S_, .i32⟩
  | 115 => ⟨S_, .i32⟩
  | 116 => ⟨S_, .i32⟩
  | 117 => ⟨S_, .i32⟩
  | 118 => ⟨S4x3x256x512, .f32⟩
  | 119 => ⟨S4x3x256x512, .f32⟩
  | 120 => ⟨S4x3x256x512, .f32⟩
  | 121 => ⟨S_, .f32⟩
  | 122 => ⟨S4x256x512, .f32⟩
  | 123 => ⟨S4x256x512, .f32⟩
  | 124 => ⟨S_, .i32⟩
  | 125 => ⟨S_, .i32⟩
  | 126 => ⟨S_, .i32⟩
  | 127 => ⟨S_, .i32⟩
  | _ => ⟨S4x3x256x512, .f32⟩

abbrev hbmTy0_6 (i : Nat) : BufTy := match i % 128 with
  | 0 => ⟨S4x3x256x512, .f32⟩
  | 1 => ⟨S4x3x256x512, .f32⟩
  | 2 => ⟨S4x3x256x512, .f32⟩
  | 3 => ⟨S_, .f32⟩
  | 4 => ⟨S4x256x512, .f32⟩
  | 5 => ⟨S4x256x512, .f32⟩
  | 6 => ⟨S_, .i32⟩
  | 7 => ⟨S_, .i32⟩
  | 8 => ⟨S_, .i32⟩
  | 9 => ⟨S_, .i32⟩
  | 10 => ⟨S4x3x256x512, .f32⟩
  | 11 => ⟨S4x3x256x512, .f32⟩
  | 12 => ⟨S4x3x256x512, .f32⟩
  | 13 => ⟨S_, .f32⟩
  | 14 => ⟨S4x256x512, .f32⟩
  | 15 => ⟨S4x256x512, .f32⟩
  | 16 => ⟨S_, .i32⟩
  | 17 => ⟨S_, .i32⟩
  | 18 => ⟨S_, .i32⟩
  | 19 => ⟨S_, .i32⟩
  | 20 => ⟨S4x3x256x512, .f32⟩
  | 21 => ⟨S4x3x256x512, .f32⟩
  | 22 => ⟨S4x3x256x512, .f32⟩
  | 23 => ⟨S_, .f32⟩
  | 24 => ⟨S4x256x512, .f32⟩
  | 25 => ⟨S4x256x512, .f32⟩
  | 26 => ⟨S_, .i32⟩
  | 27 => ⟨S_, .i32⟩
  | 28 => ⟨S_, .i32⟩
  | 29 => ⟨S_, .i32⟩
  | 30 => ⟨S4x3x256x512, .f32⟩
  | 31 => ⟨S4x3x256x512, .f32⟩
  | 32 => ⟨S4x3x256x512, .f32⟩
  | 33 => ⟨S_, .f32⟩
  | 34 => ⟨S4x256x512, .f32⟩
  | 35 => ⟨S4x256x512, .f32⟩
  | 36 => ⟨S_, .i32⟩
  | 37 => ⟨S_, .i32⟩
  | 38 => ⟨S_, .i32⟩
  | 39 => ⟨S_, .i32⟩
  | 40 => ⟨S4x3x256x512, .f32⟩
  | 41 => ⟨S4x3x256x512, .f32⟩
  | 42 => ⟨S4x3x256x512, .f32⟩
  | 43 => ⟨S_, .f32⟩
  | 44 => ⟨S4x256x512, .f32⟩
  | 45 => ⟨S4x256x512, .f32⟩
  | 46 => ⟨S4x256x512, .f32⟩
  | 47 => ⟨S4x1x131072, .f32⟩
  | _ => ⟨S4x3x256x512, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S4x3x256x512, .f32⟩

abbrev bufTy : (tb : Table) → Fin (tcTables nBuf tb) → BufTy
  | .hbm, ⟨i, _⟩ => hbmTy i
  | _, _ => ⟨S4x3x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_c_0 : Ref sig .tc := ⟨.hbm, 5, rfl⟩
abbrev main_c_1 : Ref sig .tc := ⟨.hbm, 6, rfl⟩
abbrev main_c_2 : Ref sig .tc := ⟨.hbm, 7, rfl⟩
abbrev main_c_3 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_c_4 : Ref sig .tc := ⟨.hbm, 14, rfl⟩
abbrev main_c_5 : Ref sig .tc := ⟨.hbm, 15, rfl⟩
abbrev main_c_6 : Ref sig .tc := ⟨.hbm, 16, rfl⟩
abbrev main_c_7 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_8 : Ref sig .tc := ⟨.hbm, 21, rfl⟩
abbrev main_v8 : Ref sig .tc := ⟨.hbm, 22, rfl⟩
abbrev main_v9 : Ref sig .tc := ⟨.hbm, 23, rfl⟩
abbrev main_c_9 : Ref sig .tc := ⟨.hbm, 24, rfl⟩
abbrev main_c_10 : Ref sig .tc := ⟨.hbm, 25, rfl⟩
abbrev main_c_11 : Ref sig .tc := ⟨.hbm, 26, rfl⟩
abbrev main_c_12 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_13 : Ref sig .tc := ⟨.hbm, 31, rfl⟩
abbrev main_v13 : Ref sig .tc := ⟨.hbm, 32, rfl⟩
abbrev main_v14 : Ref sig .tc := ⟨.hbm, 33, rfl⟩
abbrev main_c_14 : Ref sig .tc := ⟨.hbm, 34, rfl⟩
abbrev main_c_15 : Ref sig .tc := ⟨.hbm, 35, rfl⟩
abbrev main_c_16 : Ref sig .tc := ⟨.hbm, 36, rfl⟩
abbrev main_c_17 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_18 : Ref sig .tc := ⟨.hbm, 41, rfl⟩
abbrev main_v18 : Ref sig .tc := ⟨.hbm, 42, rfl⟩
abbrev main_v19 : Ref sig .tc := ⟨.hbm, 43, rfl⟩
abbrev main_c_19 : Ref sig .tc := ⟨.hbm, 44, rfl⟩
abbrev main_c_20 : Ref sig .tc := ⟨.hbm, 45, rfl⟩
abbrev main_c_21 : Ref sig .tc := ⟨.hbm, 46, rfl⟩
abbrev main_c_22 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_23 : Ref sig .tc := ⟨.hbm, 51, rfl⟩
abbrev main_v23 : Ref sig .tc := ⟨.hbm, 52, rfl⟩
abbrev main_v24 : Ref sig .tc := ⟨.hbm, 53, rfl⟩
abbrev main_c_24 : Ref sig .tc := ⟨.hbm, 54, rfl⟩
abbrev main_c_25 : Ref sig .tc := ⟨.hbm, 55, rfl⟩
abbrev main_c_26 : Ref sig .tc := ⟨.hbm, 56, rfl⟩
abbrev main_c_27 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_cst_28 : Ref sig .tc := ⟨.hbm, 61, rfl⟩
abbrev main_v28 : Ref sig .tc := ⟨.hbm, 62, rfl⟩
abbrev main_v29 : Ref sig .tc := ⟨.hbm, 63, rfl⟩
abbrev main_c_29 : Ref sig .tc := ⟨.hbm, 64, rfl⟩
abbrev main_c_30 : Ref sig .tc := ⟨.hbm, 65, rfl⟩
abbrev main_c_31 : Ref sig .tc := ⟨.hbm, 66, rfl⟩
abbrev main_c_32 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_cst_33 : Ref sig .tc := ⟨.hbm, 71, rfl⟩
abbrev main_v33 : Ref sig .tc := ⟨.hbm, 72, rfl⟩
abbrev main_v34 : Ref sig .tc := ⟨.hbm, 73, rfl⟩
abbrev main_c_34 : Ref sig .tc := ⟨.hbm, 74, rfl⟩
abbrev main_c_35 : Ref sig .tc := ⟨.hbm, 75, rfl⟩
abbrev main_c_36 : Ref sig .tc := ⟨.hbm, 76, rfl⟩
abbrev main_c_37 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_cst_38 : Ref sig .tc := ⟨.hbm, 81, rfl⟩
abbrev main_v38 : Ref sig .tc := ⟨.hbm, 82, rfl⟩
abbrev main_v39 : Ref sig .tc := ⟨.hbm, 83, rfl⟩
abbrev main_c_39 : Ref sig .tc := ⟨.hbm, 84, rfl⟩
abbrev main_c_40 : Ref sig .tc := ⟨.hbm, 85, rfl⟩
abbrev main_c_41 : Ref sig .tc := ⟨.hbm, 86, rfl⟩
abbrev main_c_42 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_cst_43 : Ref sig .tc := ⟨.hbm, 91, rfl⟩
abbrev main_v43 : Ref sig .tc := ⟨.hbm, 92, rfl⟩
abbrev main_v44 : Ref sig .tc := ⟨.hbm, 93, rfl⟩
abbrev main_c_44 : Ref sig .tc := ⟨.hbm, 94, rfl⟩
abbrev main_c_45 : Ref sig .tc := ⟨.hbm, 95, rfl⟩
abbrev main_c_46 : Ref sig .tc := ⟨.hbm, 96, rfl⟩
abbrev main_c_47 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_cst_48 : Ref sig .tc := ⟨.hbm, 101, rfl⟩
abbrev main_v48 : Ref sig .tc := ⟨.hbm, 102, rfl⟩
abbrev main_v49 : Ref sig .tc := ⟨.hbm, 103, rfl⟩
abbrev main_c_49 : Ref sig .tc := ⟨.hbm, 104, rfl⟩
abbrev main_c_50 : Ref sig .tc := ⟨.hbm, 105, rfl⟩
abbrev main_c_51 : Ref sig .tc := ⟨.hbm, 106, rfl⟩
abbrev main_c_52 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_cst_53 : Ref sig .tc := ⟨.hbm, 111, rfl⟩
abbrev main_v53 : Ref sig .tc := ⟨.hbm, 112, rfl⟩
abbrev main_v54 : Ref sig .tc := ⟨.hbm, 113, rfl⟩
abbrev main_c_54 : Ref sig .tc := ⟨.hbm, 114, rfl⟩
abbrev main_c_55 : Ref sig .tc := ⟨.hbm, 115, rfl⟩
abbrev main_c_56 : Ref sig .tc := ⟨.hbm, 116, rfl⟩
abbrev main_c_57 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_58 : Ref sig .tc := ⟨.hbm, 121, rfl⟩
abbrev main_v58 : Ref sig .tc := ⟨.hbm, 122, rfl⟩
abbrev main_v59 : Ref sig .tc := ⟨.hbm, 123, rfl⟩
abbrev main_c_59 : Ref sig .tc := ⟨.hbm, 124, rfl⟩
abbrev main_c_60 : Ref sig .tc := ⟨.hbm, 125, rfl⟩
abbrev main_c_61 : Ref sig .tc := ⟨.hbm, 126, rfl⟩
abbrev main_c_62 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_cst_63 : Ref sig .tc := ⟨.hbm, 131, rfl⟩
abbrev main_v63 : Ref sig .tc := ⟨.hbm, 132, rfl⟩
abbrev main_v64 : Ref sig .tc := ⟨.hbm, 133, rfl⟩
abbrev main_c_64 : Ref sig .tc := ⟨.hbm, 134, rfl⟩
abbrev main_c_65 : Ref sig .tc := ⟨.hbm, 135, rfl⟩
abbrev main_c_66 : Ref sig .tc := ⟨.hbm, 136, rfl⟩
abbrev main_c_67 : Ref sig .tc := ⟨.hbm, 137, rfl⟩
abbrev main_v65 : Ref sig .tc := ⟨.hbm, 138, rfl⟩
abbrev main_v66 : Ref sig .tc := ⟨.hbm, 139, rfl⟩
abbrev main_v67 : Ref sig .tc := ⟨.hbm, 140, rfl⟩
abbrev main_cst_68 : Ref sig .tc := ⟨.hbm, 141, rfl⟩
abbrev main_v68 : Ref sig .tc := ⟨.hbm, 142, rfl⟩
abbrev main_v69 : Ref sig .tc := ⟨.hbm, 143, rfl⟩
abbrev main_c_69 : Ref sig .tc := ⟨.hbm, 144, rfl⟩
abbrev main_c_70 : Ref sig .tc := ⟨.hbm, 145, rfl⟩
abbrev main_c_71 : Ref sig .tc := ⟨.hbm, 146, rfl⟩
abbrev main_c_72 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_cst_73 : Ref sig .tc := ⟨.hbm, 151, rfl⟩
abbrev main_v73 : Ref sig .tc := ⟨.hbm, 152, rfl⟩
abbrev main_v74 : Ref sig .tc := ⟨.hbm, 153, rfl⟩
abbrev main_c_74 : Ref sig .tc := ⟨.hbm, 154, rfl⟩
abbrev main_c_75 : Ref sig .tc := ⟨.hbm, 155, rfl⟩
abbrev main_c_76 : Ref sig .tc := ⟨.hbm, 156, rfl⟩
abbrev main_c_77 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_78 : Ref sig .tc := ⟨.hbm, 161, rfl⟩
abbrev main_v78 : Ref sig .tc := ⟨.hbm, 162, rfl⟩
abbrev main_v79 : Ref sig .tc := ⟨.hbm, 163, rfl⟩
abbrev main_c_79 : Ref sig .tc := ⟨.hbm, 164, rfl⟩
abbrev main_c_80 : Ref sig .tc := ⟨.hbm, 165, rfl⟩
abbrev main_c_81 : Ref sig .tc := ⟨.hbm, 166, rfl⟩
abbrev main_c_82 : Ref sig .tc := ⟨.hbm, 167, rfl⟩
abbrev main_v80 : Ref sig .tc := ⟨.hbm, 168, rfl⟩
abbrev main_v81 : Ref sig .tc := ⟨.hbm, 169, rfl⟩
abbrev main_v82 : Ref sig .tc := ⟨.hbm, 170, rfl⟩
abbrev main_cst_83 : Ref sig .tc := ⟨.hbm, 171, rfl⟩
abbrev main_v83 : Ref sig .tc := ⟨.hbm, 172, rfl⟩
abbrev main_v84 : Ref sig .tc := ⟨.hbm, 173, rfl⟩
abbrev main_c_84 : Ref sig .tc := ⟨.hbm, 174, rfl⟩
abbrev main_c_85 : Ref sig .tc := ⟨.hbm, 175, rfl⟩
abbrev main_c_86 : Ref sig .tc := ⟨.hbm, 176, rfl⟩
abbrev main_c_87 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_cst_88 : Ref sig .tc := ⟨.hbm, 181, rfl⟩
abbrev main_v88 : Ref sig .tc := ⟨.hbm, 182, rfl⟩
abbrev main_v89 : Ref sig .tc := ⟨.hbm, 183, rfl⟩
abbrev main_c_89 : Ref sig .tc := ⟨.hbm, 184, rfl⟩
abbrev main_c_90 : Ref sig .tc := ⟨.hbm, 185, rfl⟩
abbrev main_c_91 : Ref sig .tc := ⟨.hbm, 186, rfl⟩
abbrev main_c_92 : Ref sig .tc := ⟨.hbm, 187, rfl⟩
abbrev main_v90 : Ref sig .tc := ⟨.hbm, 188, rfl⟩
abbrev main_v91 : Ref sig .tc := ⟨.hbm, 189, rfl⟩
abbrev main_v92 : Ref sig .tc := ⟨.hbm, 190, rfl⟩
abbrev main_cst_93 : Ref sig .tc := ⟨.hbm, 191, rfl⟩
abbrev main_v93 : Ref sig .tc := ⟨.hbm, 192, rfl⟩
abbrev main_v94 : Ref sig .tc := ⟨.hbm, 193, rfl⟩
abbrev main_c_94 : Ref sig .tc := ⟨.hbm, 194, rfl⟩
abbrev main_c_95 : Ref sig .tc := ⟨.hbm, 195, rfl⟩
abbrev main_c_96 : Ref sig .tc := ⟨.hbm, 196, rfl⟩
abbrev main_c_97 : Ref sig .tc := ⟨.hbm, 197, rfl⟩
abbrev main_v95 : Ref sig .tc := ⟨.hbm, 198, rfl⟩
abbrev main_v96 : Ref sig .tc := ⟨.hbm, 199, rfl⟩
abbrev main_v97 : Ref sig .tc := ⟨.hbm, 200, rfl⟩
abbrev main_cst_98 : Ref sig .tc := ⟨.hbm, 201, rfl⟩
abbrev main_v98 : Ref sig .tc := ⟨.hbm, 202, rfl⟩
abbrev main_v99 : Ref sig .tc := ⟨.hbm, 203, rfl⟩
abbrev main_c_99 : Ref sig .tc := ⟨.hbm, 204, rfl⟩
abbrev main_c_100 : Ref sig .tc := ⟨.hbm, 205, rfl⟩
abbrev main_c_101 : Ref sig .tc := ⟨.hbm, 206, rfl⟩
abbrev main_c_102 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_cst_103 : Ref sig .tc := ⟨.hbm, 211, rfl⟩
abbrev main_v103 : Ref sig .tc := ⟨.hbm, 212, rfl⟩
abbrev main_v104 : Ref sig .tc := ⟨.hbm, 213, rfl⟩
abbrev main_c_104 : Ref sig .tc := ⟨.hbm, 214, rfl⟩
abbrev main_c_105 : Ref sig .tc := ⟨.hbm, 215, rfl⟩
abbrev main_c_106 : Ref sig .tc := ⟨.hbm, 216, rfl⟩
abbrev main_c_107 : Ref sig .tc := ⟨.hbm, 217, rfl⟩
abbrev main_v105 : Ref sig .tc := ⟨.hbm, 218, rfl⟩
abbrev main_v106 : Ref sig .tc := ⟨.hbm, 219, rfl⟩
abbrev main_v107 : Ref sig .tc := ⟨.hbm, 220, rfl⟩
abbrev main_cst_108 : Ref sig .tc := ⟨.hbm, 221, rfl⟩
abbrev main_v108 : Ref sig .tc := ⟨.hbm, 222, rfl⟩
abbrev main_v109 : Ref sig .tc := ⟨.hbm, 223, rfl⟩
abbrev main_c_109 : Ref sig .tc := ⟨.hbm, 224, rfl⟩
abbrev main_c_110 : Ref sig .tc := ⟨.hbm, 225, rfl⟩
abbrev main_c_111 : Ref sig .tc := ⟨.hbm, 226, rfl⟩
abbrev main_c_112 : Ref sig .tc := ⟨.hbm, 227, rfl⟩
abbrev main_v110 : Ref sig .tc := ⟨.hbm, 228, rfl⟩
abbrev main_v111 : Ref sig .tc := ⟨.hbm, 229, rfl⟩
abbrev main_v112 : Ref sig .tc := ⟨.hbm, 230, rfl⟩
abbrev main_cst_113 : Ref sig .tc := ⟨.hbm, 231, rfl⟩
abbrev main_v113 : Ref sig .tc := ⟨.hbm, 232, rfl⟩
abbrev main_v114 : Ref sig .tc := ⟨.hbm, 233, rfl⟩
abbrev main_c_114 : Ref sig .tc := ⟨.hbm, 234, rfl⟩
abbrev main_c_115 : Ref sig .tc := ⟨.hbm, 235, rfl⟩
abbrev main_c_116 : Ref sig .tc := ⟨.hbm, 236, rfl⟩
abbrev main_c_117 : Ref sig .tc := ⟨.hbm, 237, rfl⟩
abbrev main_v115 : Ref sig .tc := ⟨.hbm, 238, rfl⟩
abbrev main_v116 : Ref sig .tc := ⟨.hbm, 239, rfl⟩
abbrev main_v117 : Ref sig .tc := ⟨.hbm, 240, rfl⟩
abbrev main_cst_118 : Ref sig .tc := ⟨.hbm, 241, rfl⟩
abbrev main_v118 : Ref sig .tc := ⟨.hbm, 242, rfl⟩
abbrev main_v119 : Ref sig .tc := ⟨.hbm, 243, rfl⟩
abbrev main_c_119 : Ref sig .tc := ⟨.hbm, 244, rfl⟩
abbrev main_c_120 : Ref sig .tc := ⟨.hbm, 245, rfl⟩
abbrev main_c_121 : Ref sig .tc := ⟨.hbm, 246, rfl⟩
abbrev main_c_122 : Ref sig .tc := ⟨.hbm, 247, rfl⟩
abbrev main_v120 : Ref sig .tc := ⟨.hbm, 248, rfl⟩
abbrev main_v121 : Ref sig .tc := ⟨.hbm, 249, rfl⟩
abbrev main_v122 : Ref sig .tc := ⟨.hbm, 250, rfl⟩
abbrev main_cst_123 : Ref sig .tc := ⟨.hbm, 251, rfl⟩
abbrev main_v123 : Ref sig .tc := ⟨.hbm, 252, rfl⟩
abbrev main_v124 : Ref sig .tc := ⟨.hbm, 253, rfl⟩
abbrev main_c_124 : Ref sig .tc := ⟨.hbm, 254, rfl⟩
abbrev main_c_125 : Ref sig .tc := ⟨.hbm, 255, rfl⟩
abbrev main_c_126 : Ref sig .tc := ⟨.hbm, 256, rfl⟩
abbrev main_c_127 : Ref sig .tc := ⟨.hbm, 257, rfl⟩
abbrev main_v125 : Ref sig .tc := ⟨.hbm, 258, rfl⟩
abbrev main_v126 : Ref sig .tc := ⟨.hbm, 259, rfl⟩
abbrev main_v127 : Ref sig .tc := ⟨.hbm, 260, rfl⟩
abbrev main_cst_128 : Ref sig .tc := ⟨.hbm, 261, rfl⟩
abbrev main_v128 : Ref sig .tc := ⟨.hbm, 262, rfl⟩
abbrev main_v129 : Ref sig .tc := ⟨.hbm, 263, rfl⟩
abbrev main_c_129 : Ref sig .tc := ⟨.hbm, 264, rfl⟩
abbrev main_c_130 : Ref sig .tc := ⟨.hbm, 265, rfl⟩
abbrev main_c_131 : Ref sig .tc := ⟨.hbm, 266, rfl⟩
abbrev main_c_132 : Ref sig .tc := ⟨.hbm, 267, rfl⟩
abbrev main_v130 : Ref sig .tc := ⟨.hbm, 268, rfl⟩
abbrev main_v131 : Ref sig .tc := ⟨.hbm, 269, rfl⟩
abbrev main_v132 : Ref sig .tc := ⟨.hbm, 270, rfl⟩
abbrev main_cst_133 : Ref sig .tc := ⟨.hbm, 271, rfl⟩
abbrev main_v133 : Ref sig .tc := ⟨.hbm, 272, rfl⟩
abbrev main_v134 : Ref sig .tc := ⟨.hbm, 273, rfl⟩
abbrev main_c_134 : Ref sig .tc := ⟨.hbm, 274, rfl⟩
abbrev main_c_135 : Ref sig .tc := ⟨.hbm, 275, rfl⟩
abbrev main_c_136 : Ref sig .tc := ⟨.hbm, 276, rfl⟩
abbrev main_c_137 : Ref sig .tc := ⟨.hbm, 277, rfl⟩
abbrev main_v135 : Ref sig .tc := ⟨.hbm, 278, rfl⟩
abbrev main_v136 : Ref sig .tc := ⟨.hbm, 279, rfl⟩
abbrev main_v137 : Ref sig .tc := ⟨.hbm, 280, rfl⟩
abbrev main_cst_138 : Ref sig .tc := ⟨.hbm, 281, rfl⟩
abbrev main_v138 : Ref sig .tc := ⟨.hbm, 282, rfl⟩
abbrev main_v139 : Ref sig .tc := ⟨.hbm, 283, rfl⟩
abbrev main_c_139 : Ref sig .tc := ⟨.hbm, 284, rfl⟩
abbrev main_c_140 : Ref sig .tc := ⟨.hbm, 285, rfl⟩
abbrev main_c_141 : Ref sig .tc := ⟨.hbm, 286, rfl⟩
abbrev main_c_142 : Ref sig .tc := ⟨.hbm, 287, rfl⟩
abbrev main_v140 : Ref sig .tc := ⟨.hbm, 288, rfl⟩
abbrev main_v141 : Ref sig .tc := ⟨.hbm, 289, rfl⟩
abbrev main_v142 : Ref sig .tc := ⟨.hbm, 290, rfl⟩
abbrev main_cst_143 : Ref sig .tc := ⟨.hbm, 291, rfl⟩
abbrev main_v143 : Ref sig .tc := ⟨.hbm, 292, rfl⟩
abbrev main_v144 : Ref sig .tc := ⟨.hbm, 293, rfl⟩
abbrev main_c_144 : Ref sig .tc := ⟨.hbm, 294, rfl⟩
abbrev main_c_145 : Ref sig .tc := ⟨.hbm, 295, rfl⟩
abbrev main_c_146 : Ref sig .tc := ⟨.hbm, 296, rfl⟩
abbrev main_c_147 : Ref sig .tc := ⟨.hbm, 297, rfl⟩
abbrev main_v145 : Ref sig .tc := ⟨.hbm, 298, rfl⟩
abbrev main_v146 : Ref sig .tc := ⟨.hbm, 299, rfl⟩
abbrev main_v147 : Ref sig .tc := ⟨.hbm, 300, rfl⟩
abbrev main_cst_148 : Ref sig .tc := ⟨.hbm, 301, rfl⟩
abbrev main_v148 : Ref sig .tc := ⟨.hbm, 302, rfl⟩
abbrev main_v149 : Ref sig .tc := ⟨.hbm, 303, rfl⟩
abbrev main_c_149 : Ref sig .tc := ⟨.hbm, 304, rfl⟩
abbrev main_c_150 : Ref sig .tc := ⟨.hbm, 305, rfl⟩
abbrev main_c_151 : Ref sig .tc := ⟨.hbm, 306, rfl⟩
abbrev main_c_152 : Ref sig .tc := ⟨.hbm, 307, rfl⟩
abbrev main_v150 : Ref sig .tc := ⟨.hbm, 308, rfl⟩
abbrev main_v151 : Ref sig .tc := ⟨.hbm, 309, rfl⟩
abbrev main_v152 : Ref sig .tc := ⟨.hbm, 310, rfl⟩
abbrev main_cst_153 : Ref sig .tc := ⟨.hbm, 311, rfl⟩
abbrev main_v153 : Ref sig .tc := ⟨.hbm, 312, rfl⟩
abbrev main_v154 : Ref sig .tc := ⟨.hbm, 313, rfl⟩
abbrev main_c_154 : Ref sig .tc := ⟨.hbm, 314, rfl⟩
abbrev main_c_155 : Ref sig .tc := ⟨.hbm, 315, rfl⟩
abbrev main_c_156 : Ref sig .tc := ⟨.hbm, 316, rfl⟩
abbrev main_c_157 : Ref sig .tc := ⟨.hbm, 317, rfl⟩
abbrev main_v155 : Ref sig .tc := ⟨.hbm, 318, rfl⟩
abbrev main_v156 : Ref sig .tc := ⟨.hbm, 319, rfl⟩
abbrev main_v157 : Ref sig .tc := ⟨.hbm, 320, rfl⟩
abbrev main_cst_158 : Ref sig .tc := ⟨.hbm, 321, rfl⟩
abbrev main_v158 : Ref sig .tc := ⟨.hbm, 322, rfl⟩
abbrev main_v159 : Ref sig .tc := ⟨.hbm, 323, rfl⟩
abbrev main_c_159 : Ref sig .tc := ⟨.hbm, 324, rfl⟩
abbrev main_c_160 : Ref sig .tc := ⟨.hbm, 325, rfl⟩
abbrev main_c_161 : Ref sig .tc := ⟨.hbm, 326, rfl⟩
abbrev main_c_162 : Ref sig .tc := ⟨.hbm, 327, rfl⟩
abbrev main_v160 : Ref sig .tc := ⟨.hbm, 328, rfl⟩
abbrev main_v161 : Ref sig .tc := ⟨.hbm, 329, rfl⟩
abbrev main_v162 : Ref sig .tc := ⟨.hbm, 330, rfl⟩
abbrev main_cst_163 : Ref sig .tc := ⟨.hbm, 331, rfl⟩
abbrev main_v163 : Ref sig .tc := ⟨.hbm, 332, rfl⟩
abbrev main_v164 : Ref sig .tc := ⟨.hbm, 333, rfl⟩
abbrev main_c_164 : Ref sig .tc := ⟨.hbm, 334, rfl⟩
abbrev main_c_165 : Ref sig .tc := ⟨.hbm, 335, rfl⟩
abbrev main_c_166 : Ref sig .tc := ⟨.hbm, 336, rfl⟩
abbrev main_c_167 : Ref sig .tc := ⟨.hbm, 337, rfl⟩
abbrev main_v165 : Ref sig .tc := ⟨.hbm, 338, rfl⟩
abbrev main_v166 : Ref sig .tc := ⟨.hbm, 339, rfl⟩
abbrev main_v167 : Ref sig .tc := ⟨.hbm, 340, rfl⟩
abbrev main_cst_168 : Ref sig .tc := ⟨.hbm, 341, rfl⟩
abbrev main_v168 : Ref sig .tc := ⟨.hbm, 342, rfl⟩
abbrev main_v169 : Ref sig .tc := ⟨.hbm, 343, rfl⟩
abbrev main_c_169 : Ref sig .tc := ⟨.hbm, 344, rfl⟩
abbrev main_c_170 : Ref sig .tc := ⟨.hbm, 345, rfl⟩
abbrev main_c_171 : Ref sig .tc := ⟨.hbm, 346, rfl⟩
abbrev main_c_172 : Ref sig .tc := ⟨.hbm, 347, rfl⟩
abbrev main_v170 : Ref sig .tc := ⟨.hbm, 348, rfl⟩
abbrev main_v171 : Ref sig .tc := ⟨.hbm, 349, rfl⟩
abbrev main_v172 : Ref sig .tc := ⟨.hbm, 350, rfl⟩
abbrev main_cst_173 : Ref sig .tc := ⟨.hbm, 351, rfl⟩
abbrev main_v173 : Ref sig .tc := ⟨.hbm, 352, rfl⟩
abbrev main_v174 : Ref sig .tc := ⟨.hbm, 353, rfl⟩
abbrev main_c_174 : Ref sig .tc := ⟨.hbm, 354, rfl⟩
abbrev main_c_175 : Ref sig .tc := ⟨.hbm, 355, rfl⟩
abbrev main_c_176 : Ref sig .tc := ⟨.hbm, 356, rfl⟩
abbrev main_c_177 : Ref sig .tc := ⟨.hbm, 357, rfl⟩
abbrev main_v175 : Ref sig .tc := ⟨.hbm, 358, rfl⟩
abbrev main_v176 : Ref sig .tc := ⟨.hbm, 359, rfl⟩
abbrev main_v177 : Ref sig .tc := ⟨.hbm, 360, rfl⟩
abbrev main_cst_178 : Ref sig .tc := ⟨.hbm, 361, rfl⟩
abbrev main_v178 : Ref sig .tc := ⟨.hbm, 362, rfl⟩
abbrev main_v179 : Ref sig .tc := ⟨.hbm, 363, rfl⟩
abbrev main_c_179 : Ref sig .tc := ⟨.hbm, 364, rfl⟩
abbrev main_c_180 : Ref sig .tc := ⟨.hbm, 365, rfl⟩
abbrev main_c_181 : Ref sig .tc := ⟨.hbm, 366, rfl⟩
abbrev main_c_182 : Ref sig .tc := ⟨.hbm, 367, rfl⟩
abbrev main_v180 : Ref sig .tc := ⟨.hbm, 368, rfl⟩
abbrev main_v181 : Ref sig .tc := ⟨.hbm, 369, rfl⟩
abbrev main_v182 : Ref sig .tc := ⟨.hbm, 370, rfl⟩
abbrev main_cst_183 : Ref sig .tc := ⟨.hbm, 371, rfl⟩
abbrev main_v183 : Ref sig .tc := ⟨.hbm, 372, rfl⟩
abbrev main_v184 : Ref sig .tc := ⟨.hbm, 373, rfl⟩
abbrev main_c_184 : Ref sig .tc := ⟨.hbm, 374, rfl⟩
abbrev main_c_185 : Ref sig .tc := ⟨.hbm, 375, rfl⟩
abbrev main_c_186 : Ref sig .tc := ⟨.hbm, 376, rfl⟩
abbrev main_c_187 : Ref sig .tc := ⟨.hbm, 377, rfl⟩
abbrev main_v185 : Ref sig .tc := ⟨.hbm, 378, rfl⟩
abbrev main_v186 : Ref sig .tc := ⟨.hbm, 379, rfl⟩
abbrev main_v187 : Ref sig .tc := ⟨.hbm, 380, rfl⟩
abbrev main_cst_188 : Ref sig .tc := ⟨.hbm, 381, rfl⟩
abbrev main_v188 : Ref sig .tc := ⟨.hbm, 382, rfl⟩
abbrev main_v189 : Ref sig .tc := ⟨.hbm, 383, rfl⟩
abbrev main_c_189 : Ref sig .tc := ⟨.hbm, 384, rfl⟩
abbrev main_c_190 : Ref sig .tc := ⟨.hbm, 385, rfl⟩
abbrev main_c_191 : Ref sig .tc := ⟨.hbm, 386, rfl⟩
abbrev main_c_192 : Ref sig .tc := ⟨.hbm, 387, rfl⟩
abbrev main_v190 : Ref sig .tc := ⟨.hbm, 388, rfl⟩
abbrev main_v191 : Ref sig .tc := ⟨.hbm, 389, rfl⟩
abbrev main_v192 : Ref sig .tc := ⟨.hbm, 390, rfl⟩
abbrev main_cst_193 : Ref sig .tc := ⟨.hbm, 391, rfl⟩
abbrev main_v193 : Ref sig .tc := ⟨.hbm, 392, rfl⟩
abbrev main_v194 : Ref sig .tc := ⟨.hbm, 393, rfl⟩
abbrev main_c_194 : Ref sig .tc := ⟨.hbm, 394, rfl⟩
abbrev main_c_195 : Ref sig .tc := ⟨.hbm, 395, rfl⟩
abbrev main_c_196 : Ref sig .tc := ⟨.hbm, 396, rfl⟩
abbrev main_c_197 : Ref sig .tc := ⟨.hbm, 397, rfl⟩
abbrev main_v195 : Ref sig .tc := ⟨.hbm, 398, rfl⟩
abbrev main_v196 : Ref sig .tc := ⟨.hbm, 399, rfl⟩
abbrev main_v197 : Ref sig .tc := ⟨.hbm, 400, rfl⟩
abbrev main_cst_198 : Ref sig .tc := ⟨.hbm, 401, rfl⟩
abbrev main_v198 : Ref sig .tc := ⟨.hbm, 402, rfl⟩
abbrev main_v199 : Ref sig .tc := ⟨.hbm, 403, rfl⟩
abbrev main_c_199 : Ref sig .tc := ⟨.hbm, 404, rfl⟩
abbrev main_c_200 : Ref sig .tc := ⟨.hbm, 405, rfl⟩
abbrev main_c_201 : Ref sig .tc := ⟨.hbm, 406, rfl⟩
abbrev main_c_202 : Ref sig .tc := ⟨.hbm, 407, rfl⟩
abbrev main_v200 : Ref sig .tc := ⟨.hbm, 408, rfl⟩
abbrev main_v201 : Ref sig .tc := ⟨.hbm, 409, rfl⟩
abbrev main_v202 : Ref sig .tc := ⟨.hbm, 410, rfl⟩
abbrev main_cst_203 : Ref sig .tc := ⟨.hbm, 411, rfl⟩
abbrev main_v203 : Ref sig .tc := ⟨.hbm, 412, rfl⟩
abbrev main_v204 : Ref sig .tc := ⟨.hbm, 413, rfl⟩
abbrev main_c_204 : Ref sig .tc := ⟨.hbm, 414, rfl⟩
abbrev main_c_205 : Ref sig .tc := ⟨.hbm, 415, rfl⟩
abbrev main_c_206 : Ref sig .tc := ⟨.hbm, 416, rfl⟩
abbrev main_c_207 : Ref sig .tc := ⟨.hbm, 417, rfl⟩
abbrev main_v205 : Ref sig .tc := ⟨.hbm, 418, rfl⟩
abbrev main_v206 : Ref sig .tc := ⟨.hbm, 419, rfl⟩
abbrev main_v207 : Ref sig .tc := ⟨.hbm, 420, rfl⟩
abbrev main_cst_208 : Ref sig .tc := ⟨.hbm, 421, rfl⟩
abbrev main_v208 : Ref sig .tc := ⟨.hbm, 422, rfl⟩
abbrev main_v209 : Ref sig .tc := ⟨.hbm, 423, rfl⟩
abbrev main_c_209 : Ref sig .tc := ⟨.hbm, 424, rfl⟩
abbrev main_c_210 : Ref sig .tc := ⟨.hbm, 425, rfl⟩
abbrev main_c_211 : Ref sig .tc := ⟨.hbm, 426, rfl⟩
abbrev main_c_212 : Ref sig .tc := ⟨.hbm, 427, rfl⟩
abbrev main_v210 : Ref sig .tc := ⟨.hbm, 428, rfl⟩
abbrev main_v211 : Ref sig .tc := ⟨.hbm, 429, rfl⟩
abbrev main_v212 : Ref sig .tc := ⟨.hbm, 430, rfl⟩
abbrev main_cst_213 : Ref sig .tc := ⟨.hbm, 431, rfl⟩
abbrev main_v213 : Ref sig .tc := ⟨.hbm, 432, rfl⟩
abbrev main_v214 : Ref sig .tc := ⟨.hbm, 433, rfl⟩
abbrev main_c_214 : Ref sig .tc := ⟨.hbm, 434, rfl⟩
abbrev main_c_215 : Ref sig .tc := ⟨.hbm, 435, rfl⟩
abbrev main_c_216 : Ref sig .tc := ⟨.hbm, 436, rfl⟩
abbrev main_c_217 : Ref sig .tc := ⟨.hbm, 437, rfl⟩
abbrev main_v215 : Ref sig .tc := ⟨.hbm, 438, rfl⟩
abbrev main_v216 : Ref sig .tc := ⟨.hbm, 439, rfl⟩
abbrev main_v217 : Ref sig .tc := ⟨.hbm, 440, rfl⟩
abbrev main_cst_218 : Ref sig .tc := ⟨.hbm, 441, rfl⟩
abbrev main_v218 : Ref sig .tc := ⟨.hbm, 442, rfl⟩
abbrev main_v219 : Ref sig .tc := ⟨.hbm, 443, rfl⟩
abbrev main_c_219 : Ref sig .tc := ⟨.hbm, 444, rfl⟩
abbrev main_c_220 : Ref sig .tc := ⟨.hbm, 445, rfl⟩
abbrev main_c_221 : Ref sig .tc := ⟨.hbm, 446, rfl⟩
abbrev main_c_222 : Ref sig .tc := ⟨.hbm, 447, rfl⟩
abbrev main_v220 : Ref sig .tc := ⟨.hbm, 448, rfl⟩
abbrev main_v221 : Ref sig .tc := ⟨.hbm, 449, rfl⟩
abbrev main_v222 : Ref sig .tc := ⟨.hbm, 450, rfl⟩
abbrev main_cst_223 : Ref sig .tc := ⟨.hbm, 451, rfl⟩
abbrev main_v223 : Ref sig .tc := ⟨.hbm, 452, rfl⟩
abbrev main_v224 : Ref sig .tc := ⟨.hbm, 453, rfl⟩
abbrev main_c_224 : Ref sig .tc := ⟨.hbm, 454, rfl⟩
abbrev main_c_225 : Ref sig .tc := ⟨.hbm, 455, rfl⟩
abbrev main_c_226 : Ref sig .tc := ⟨.hbm, 456, rfl⟩
abbrev main_c_227 : Ref sig .tc := ⟨.hbm, 457, rfl⟩
abbrev main_v225 : Ref sig .tc := ⟨.hbm, 458, rfl⟩
abbrev main_v226 : Ref sig .tc := ⟨.hbm, 459, rfl⟩
abbrev main_v227 : Ref sig .tc := ⟨.hbm, 460, rfl⟩
abbrev main_cst_228 : Ref sig .tc := ⟨.hbm, 461, rfl⟩
abbrev main_v228 : Ref sig .tc := ⟨.hbm, 462, rfl⟩
abbrev main_v229 : Ref sig .tc := ⟨.hbm, 463, rfl⟩
abbrev main_c_229 : Ref sig .tc := ⟨.hbm, 464, rfl⟩
abbrev main_c_230 : Ref sig .tc := ⟨.hbm, 465, rfl⟩
abbrev main_c_231 : Ref sig .tc := ⟨.hbm, 466, rfl⟩
abbrev main_c_232 : Ref sig .tc := ⟨.hbm, 467, rfl⟩
abbrev main_v230 : Ref sig .tc := ⟨.hbm, 468, rfl⟩
abbrev main_v231 : Ref sig .tc := ⟨.hbm, 469, rfl⟩
abbrev main_v232 : Ref sig .tc := ⟨.hbm, 470, rfl⟩
abbrev main_cst_233 : Ref sig .tc := ⟨.hbm, 471, rfl⟩
abbrev main_v233 : Ref sig .tc := ⟨.hbm, 472, rfl⟩
abbrev main_v234 : Ref sig .tc := ⟨.hbm, 473, rfl⟩
abbrev main_c_234 : Ref sig .tc := ⟨.hbm, 474, rfl⟩
abbrev main_c_235 : Ref sig .tc := ⟨.hbm, 475, rfl⟩
abbrev main_c_236 : Ref sig .tc := ⟨.hbm, 476, rfl⟩
abbrev main_c_237 : Ref sig .tc := ⟨.hbm, 477, rfl⟩
abbrev main_v235 : Ref sig .tc := ⟨.hbm, 478, rfl⟩
abbrev main_v236 : Ref sig .tc := ⟨.hbm, 479, rfl⟩
abbrev main_v237 : Ref sig .tc := ⟨.hbm, 480, rfl⟩
abbrev main_cst_238 : Ref sig .tc := ⟨.hbm, 481, rfl⟩
abbrev main_v238 : Ref sig .tc := ⟨.hbm, 482, rfl⟩
abbrev main_v239 : Ref sig .tc := ⟨.hbm, 483, rfl⟩
abbrev main_c_239 : Ref sig .tc := ⟨.hbm, 484, rfl⟩
abbrev main_c_240 : Ref sig .tc := ⟨.hbm, 485, rfl⟩
abbrev main_c_241 : Ref sig .tc := ⟨.hbm, 486, rfl⟩
abbrev main_c_242 : Ref sig .tc := ⟨.hbm, 487, rfl⟩
abbrev main_v240 : Ref sig .tc := ⟨.hbm, 488, rfl⟩
abbrev main_v241 : Ref sig .tc := ⟨.hbm, 489, rfl⟩
abbrev main_v242 : Ref sig .tc := ⟨.hbm, 490, rfl⟩
abbrev main_cst_243 : Ref sig .tc := ⟨.hbm, 491, rfl⟩
abbrev main_v243 : Ref sig .tc := ⟨.hbm, 492, rfl⟩
abbrev main_v244 : Ref sig .tc := ⟨.hbm, 493, rfl⟩
abbrev main_c_244 : Ref sig .tc := ⟨.hbm, 494, rfl⟩
abbrev main_c_245 : Ref sig .tc := ⟨.hbm, 495, rfl⟩
abbrev main_c_246 : Ref sig .tc := ⟨.hbm, 496, rfl⟩
abbrev main_c_247 : Ref sig .tc := ⟨.hbm, 497, rfl⟩
abbrev main_v245 : Ref sig .tc := ⟨.hbm, 498, rfl⟩
abbrev main_v246 : Ref sig .tc := ⟨.hbm, 499, rfl⟩
abbrev main_v247 : Ref sig .tc := ⟨.hbm, 500, rfl⟩
abbrev main_cst_248 : Ref sig .tc := ⟨.hbm, 501, rfl⟩
abbrev main_v248 : Ref sig .tc := ⟨.hbm, 502, rfl⟩
abbrev main_v249 : Ref sig .tc := ⟨.hbm, 503, rfl⟩
abbrev main_c_249 : Ref sig .tc := ⟨.hbm, 504, rfl⟩
abbrev main_c_250 : Ref sig .tc := ⟨.hbm, 505, rfl⟩
abbrev main_c_251 : Ref sig .tc := ⟨.hbm, 506, rfl⟩
abbrev main_c_252 : Ref sig .tc := ⟨.hbm, 507, rfl⟩
abbrev main_v250 : Ref sig .tc := ⟨.hbm, 508, rfl⟩
abbrev main_v251 : Ref sig .tc := ⟨.hbm, 509, rfl⟩
abbrev main_v252 : Ref sig .tc := ⟨.hbm, 510, rfl⟩
abbrev main_cst_253 : Ref sig .tc := ⟨.hbm, 511, rfl⟩
abbrev main_v253 : Ref sig .tc := ⟨.hbm, 512, rfl⟩
abbrev main_v254 : Ref sig .tc := ⟨.hbm, 513, rfl⟩
abbrev main_c_254 : Ref sig .tc := ⟨.hbm, 514, rfl⟩
abbrev main_c_255 : Ref sig .tc := ⟨.hbm, 515, rfl⟩
abbrev main_c_256 : Ref sig .tc := ⟨.hbm, 516, rfl⟩
abbrev main_c_257 : Ref sig .tc := ⟨.hbm, 517, rfl⟩
abbrev main_v255 : Ref sig .tc := ⟨.hbm, 518, rfl⟩
abbrev main_v256 : Ref sig .tc := ⟨.hbm, 519, rfl⟩
abbrev main_v257 : Ref sig .tc := ⟨.hbm, 520, rfl⟩
abbrev main_cst_258 : Ref sig .tc := ⟨.hbm, 521, rfl⟩
abbrev main_v258 : Ref sig .tc := ⟨.hbm, 522, rfl⟩
abbrev main_v259 : Ref sig .tc := ⟨.hbm, 523, rfl⟩
abbrev main_c_259 : Ref sig .tc := ⟨.hbm, 524, rfl⟩
abbrev main_c_260 : Ref sig .tc := ⟨.hbm, 525, rfl⟩
abbrev main_c_261 : Ref sig .tc := ⟨.hbm, 526, rfl⟩
abbrev main_c_262 : Ref sig .tc := ⟨.hbm, 527, rfl⟩
abbrev main_v260 : Ref sig .tc := ⟨.hbm, 528, rfl⟩
abbrev main_v261 : Ref sig .tc := ⟨.hbm, 529, rfl⟩
abbrev main_v262 : Ref sig .tc := ⟨.hbm, 530, rfl⟩
abbrev main_cst_263 : Ref sig .tc := ⟨.hbm, 531, rfl⟩
abbrev main_v263 : Ref sig .tc := ⟨.hbm, 532, rfl⟩
abbrev main_v264 : Ref sig .tc := ⟨.hbm, 533, rfl⟩
abbrev main_c_264 : Ref sig .tc := ⟨.hbm, 534, rfl⟩
abbrev main_c_265 : Ref sig .tc := ⟨.hbm, 535, rfl⟩
abbrev main_c_266 : Ref sig .tc := ⟨.hbm, 536, rfl⟩
abbrev main_c_267 : Ref sig .tc := ⟨.hbm, 537, rfl⟩
abbrev main_v265 : Ref sig .tc := ⟨.hbm, 538, rfl⟩
abbrev main_v266 : Ref sig .tc := ⟨.hbm, 539, rfl⟩
abbrev main_v267 : Ref sig .tc := ⟨.hbm, 540, rfl⟩
abbrev main_cst_268 : Ref sig .tc := ⟨.hbm, 541, rfl⟩
abbrev main_v268 : Ref sig .tc := ⟨.hbm, 542, rfl⟩
abbrev main_v269 : Ref sig .tc := ⟨.hbm, 543, rfl⟩
abbrev main_c_269 : Ref sig .tc := ⟨.hbm, 544, rfl⟩
abbrev main_c_270 : Ref sig .tc := ⟨.hbm, 545, rfl⟩
abbrev main_c_271 : Ref sig .tc := ⟨.hbm, 546, rfl⟩
abbrev main_c_272 : Ref sig .tc := ⟨.hbm, 547, rfl⟩
abbrev main_v270 : Ref sig .tc := ⟨.hbm, 548, rfl⟩
abbrev main_v271 : Ref sig .tc := ⟨.hbm, 549, rfl⟩
abbrev main_v272 : Ref sig .tc := ⟨.hbm, 550, rfl⟩
abbrev main_cst_273 : Ref sig .tc := ⟨.hbm, 551, rfl⟩
abbrev main_v273 : Ref sig .tc := ⟨.hbm, 552, rfl⟩
abbrev main_v274 : Ref sig .tc := ⟨.hbm, 553, rfl⟩
abbrev main_c_274 : Ref sig .tc := ⟨.hbm, 554, rfl⟩
abbrev main_c_275 : Ref sig .tc := ⟨.hbm, 555, rfl⟩
abbrev main_c_276 : Ref sig .tc := ⟨.hbm, 556, rfl⟩
abbrev main_c_277 : Ref sig .tc := ⟨.hbm, 557, rfl⟩
abbrev main_v275 : Ref sig .tc := ⟨.hbm, 558, rfl⟩
abbrev main_v276 : Ref sig .tc := ⟨.hbm, 559, rfl⟩
abbrev main_v277 : Ref sig .tc := ⟨.hbm, 560, rfl⟩
abbrev main_cst_278 : Ref sig .tc := ⟨.hbm, 561, rfl⟩
abbrev main_v278 : Ref sig .tc := ⟨.hbm, 562, rfl⟩
abbrev main_v279 : Ref sig .tc := ⟨.hbm, 563, rfl⟩
abbrev main_c_279 : Ref sig .tc := ⟨.hbm, 564, rfl⟩
abbrev main_c_280 : Ref sig .tc := ⟨.hbm, 565, rfl⟩
abbrev main_c_281 : Ref sig .tc := ⟨.hbm, 566, rfl⟩
abbrev main_c_282 : Ref sig .tc := ⟨.hbm, 567, rfl⟩
abbrev main_v280 : Ref sig .tc := ⟨.hbm, 568, rfl⟩
abbrev main_v281 : Ref sig .tc := ⟨.hbm, 569, rfl⟩
abbrev main_v282 : Ref sig .tc := ⟨.hbm, 570, rfl⟩
abbrev main_cst_283 : Ref sig .tc := ⟨.hbm, 571, rfl⟩
abbrev main_v283 : Ref sig .tc := ⟨.hbm, 572, rfl⟩
abbrev main_v284 : Ref sig .tc := ⟨.hbm, 573, rfl⟩
abbrev main_c_284 : Ref sig .tc := ⟨.hbm, 574, rfl⟩
abbrev main_c_285 : Ref sig .tc := ⟨.hbm, 575, rfl⟩
abbrev main_c_286 : Ref sig .tc := ⟨.hbm, 576, rfl⟩
abbrev main_c_287 : Ref sig .tc := ⟨.hbm, 577, rfl⟩
abbrev main_v285 : Ref sig .tc := ⟨.hbm, 578, rfl⟩
abbrev main_v286 : Ref sig .tc := ⟨.hbm, 579, rfl⟩
abbrev main_v287 : Ref sig .tc := ⟨.hbm, 580, rfl⟩
abbrev main_cst_288 : Ref sig .tc := ⟨.hbm, 581, rfl⟩
abbrev main_v288 : Ref sig .tc := ⟨.hbm, 582, rfl⟩
abbrev main_v289 : Ref sig .tc := ⟨.hbm, 583, rfl⟩
abbrev main_c_289 : Ref sig .tc := ⟨.hbm, 584, rfl⟩
abbrev main_c_290 : Ref sig .tc := ⟨.hbm, 585, rfl⟩
abbrev main_c_291 : Ref sig .tc := ⟨.hbm, 586, rfl⟩
abbrev main_c_292 : Ref sig .tc := ⟨.hbm, 587, rfl⟩
abbrev main_v290 : Ref sig .tc := ⟨.hbm, 588, rfl⟩
abbrev main_v291 : Ref sig .tc := ⟨.hbm, 589, rfl⟩
abbrev main_v292 : Ref sig .tc := ⟨.hbm, 590, rfl⟩
abbrev main_cst_293 : Ref sig .tc := ⟨.hbm, 591, rfl⟩
abbrev main_v293 : Ref sig .tc := ⟨.hbm, 592, rfl⟩
abbrev main_v294 : Ref sig .tc := ⟨.hbm, 593, rfl⟩
abbrev main_c_294 : Ref sig .tc := ⟨.hbm, 594, rfl⟩
abbrev main_c_295 : Ref sig .tc := ⟨.hbm, 595, rfl⟩
abbrev main_c_296 : Ref sig .tc := ⟨.hbm, 596, rfl⟩
abbrev main_c_297 : Ref sig .tc := ⟨.hbm, 597, rfl⟩
abbrev main_v295 : Ref sig .tc := ⟨.hbm, 598, rfl⟩
abbrev main_v296 : Ref sig .tc := ⟨.hbm, 599, rfl⟩
abbrev main_v297 : Ref sig .tc := ⟨.hbm, 600, rfl⟩
abbrev main_cst_298 : Ref sig .tc := ⟨.hbm, 601, rfl⟩
abbrev main_v298 : Ref sig .tc := ⟨.hbm, 602, rfl⟩
abbrev main_v299 : Ref sig .tc := ⟨.hbm, 603, rfl⟩
abbrev main_c_299 : Ref sig .tc := ⟨.hbm, 604, rfl⟩
abbrev main_c_300 : Ref sig .tc := ⟨.hbm, 605, rfl⟩
abbrev main_c_301 : Ref sig .tc := ⟨.hbm, 606, rfl⟩
abbrev main_c_302 : Ref sig .tc := ⟨.hbm, 607, rfl⟩
abbrev main_v300 : Ref sig .tc := ⟨.hbm, 608, rfl⟩
abbrev main_v301 : Ref sig .tc := ⟨.hbm, 609, rfl⟩
abbrev main_v302 : Ref sig .tc := ⟨.hbm, 610, rfl⟩
abbrev main_cst_303 : Ref sig .tc := ⟨.hbm, 611, rfl⟩
abbrev main_v303 : Ref sig .tc := ⟨.hbm, 612, rfl⟩
abbrev main_v304 : Ref sig .tc := ⟨.hbm, 613, rfl⟩
abbrev main_c_304 : Ref sig .tc := ⟨.hbm, 614, rfl⟩
abbrev main_c_305 : Ref sig .tc := ⟨.hbm, 615, rfl⟩
abbrev main_c_306 : Ref sig .tc := ⟨.hbm, 616, rfl⟩
abbrev main_c_307 : Ref sig .tc := ⟨.hbm, 617, rfl⟩
abbrev main_v305 : Ref sig .tc := ⟨.hbm, 618, rfl⟩
abbrev main_v306 : Ref sig .tc := ⟨.hbm, 619, rfl⟩
abbrev main_v307 : Ref sig .tc := ⟨.hbm, 620, rfl⟩
abbrev main_cst_308 : Ref sig .tc := ⟨.hbm, 621, rfl⟩
abbrev main_v308 : Ref sig .tc := ⟨.hbm, 622, rfl⟩
abbrev main_v309 : Ref sig .tc := ⟨.hbm, 623, rfl⟩
abbrev main_c_309 : Ref sig .tc := ⟨.hbm, 624, rfl⟩
abbrev main_c_310 : Ref sig .tc := ⟨.hbm, 625, rfl⟩
abbrev main_c_311 : Ref sig .tc := ⟨.hbm, 626, rfl⟩
abbrev main_c_312 : Ref sig .tc := ⟨.hbm, 627, rfl⟩
abbrev main_v310 : Ref sig .tc := ⟨.hbm, 628, rfl⟩
abbrev main_v311 : Ref sig .tc := ⟨.hbm, 629, rfl⟩
abbrev main_v312 : Ref sig .tc := ⟨.hbm, 630, rfl⟩
abbrev main_cst_313 : Ref sig .tc := ⟨.hbm, 631, rfl⟩
abbrev main_v313 : Ref sig .tc := ⟨.hbm, 632, rfl⟩
abbrev main_v314 : Ref sig .tc := ⟨.hbm, 633, rfl⟩
abbrev main_c_314 : Ref sig .tc := ⟨.hbm, 634, rfl⟩
abbrev main_c_315 : Ref sig .tc := ⟨.hbm, 635, rfl⟩
abbrev main_c_316 : Ref sig .tc := ⟨.hbm, 636, rfl⟩
abbrev main_c_317 : Ref sig .tc := ⟨.hbm, 637, rfl⟩
abbrev main_v315 : Ref sig .tc := ⟨.hbm, 638, rfl⟩
abbrev main_v316 : Ref sig .tc := ⟨.hbm, 639, rfl⟩
abbrev main_v317 : Ref sig .tc := ⟨.hbm, 640, rfl⟩
abbrev main_cst_318 : Ref sig .tc := ⟨.hbm, 641, rfl⟩
abbrev main_v318 : Ref sig .tc := ⟨.hbm, 642, rfl⟩
abbrev main_v319 : Ref sig .tc := ⟨.hbm, 643, rfl⟩
abbrev main_c_319 : Ref sig .tc := ⟨.hbm, 644, rfl⟩
abbrev main_c_320 : Ref sig .tc := ⟨.hbm, 645, rfl⟩
abbrev main_c_321 : Ref sig .tc := ⟨.hbm, 646, rfl⟩
abbrev main_c_322 : Ref sig .tc := ⟨.hbm, 647, rfl⟩
abbrev main_v320 : Ref sig .tc := ⟨.hbm, 648, rfl⟩
abbrev main_v321 : Ref sig .tc := ⟨.hbm, 649, rfl⟩
abbrev main_v322 : Ref sig .tc := ⟨.hbm, 650, rfl⟩
abbrev main_cst_323 : Ref sig .tc := ⟨.hbm, 651, rfl⟩
abbrev main_v323 : Ref sig .tc := ⟨.hbm, 652, rfl⟩
abbrev main_v324 : Ref sig .tc := ⟨.hbm, 653, rfl⟩
abbrev main_c_324 : Ref sig .tc := ⟨.hbm, 654, rfl⟩
abbrev main_c_325 : Ref sig .tc := ⟨.hbm, 655, rfl⟩
abbrev main_c_326 : Ref sig .tc := ⟨.hbm, 656, rfl⟩
abbrev main_c_327 : Ref sig .tc := ⟨.hbm, 657, rfl⟩
abbrev main_v325 : Ref sig .tc := ⟨.hbm, 658, rfl⟩
abbrev main_v326 : Ref sig .tc := ⟨.hbm, 659, rfl⟩
abbrev main_v327 : Ref sig .tc := ⟨.hbm, 660, rfl⟩
abbrev main_cst_328 : Ref sig .tc := ⟨.hbm, 661, rfl⟩
abbrev main_v328 : Ref sig .tc := ⟨.hbm, 662, rfl⟩
abbrev main_v329 : Ref sig .tc := ⟨.hbm, 663, rfl⟩
abbrev main_c_329 : Ref sig .tc := ⟨.hbm, 664, rfl⟩
abbrev main_c_330 : Ref sig .tc := ⟨.hbm, 665, rfl⟩
abbrev main_c_331 : Ref sig .tc := ⟨.hbm, 666, rfl⟩
abbrev main_c_332 : Ref sig .tc := ⟨.hbm, 667, rfl⟩
abbrev main_v330 : Ref sig .tc := ⟨.hbm, 668, rfl⟩
abbrev main_v331 : Ref sig .tc := ⟨.hbm, 669, rfl⟩
abbrev main_v332 : Ref sig .tc := ⟨.hbm, 670, rfl⟩
abbrev main_cst_333 : Ref sig .tc := ⟨.hbm, 671, rfl⟩
abbrev main_v333 : Ref sig .tc := ⟨.hbm, 672, rfl⟩
abbrev main_v334 : Ref sig .tc := ⟨.hbm, 673, rfl⟩
abbrev main_c_334 : Ref sig .tc := ⟨.hbm, 674, rfl⟩
abbrev main_c_335 : Ref sig .tc := ⟨.hbm, 675, rfl⟩
abbrev main_c_336 : Ref sig .tc := ⟨.hbm, 676, rfl⟩
abbrev main_c_337 : Ref sig .tc := ⟨.hbm, 677, rfl⟩
abbrev main_v335 : Ref sig .tc := ⟨.hbm, 678, rfl⟩
abbrev main_v336 : Ref sig .tc := ⟨.hbm, 679, rfl⟩
abbrev main_v337 : Ref sig .tc := ⟨.hbm, 680, rfl⟩
abbrev main_cst_338 : Ref sig .tc := ⟨.hbm, 681, rfl⟩
abbrev main_v338 : Ref sig .tc := ⟨.hbm, 682, rfl⟩
abbrev main_v339 : Ref sig .tc := ⟨.hbm, 683, rfl⟩
abbrev main_c_339 : Ref sig .tc := ⟨.hbm, 684, rfl⟩
abbrev main_c_340 : Ref sig .tc := ⟨.hbm, 685, rfl⟩
abbrev main_c_341 : Ref sig .tc := ⟨.hbm, 686, rfl⟩
abbrev main_c_342 : Ref sig .tc := ⟨.hbm, 687, rfl⟩
abbrev main_v340 : Ref sig .tc := ⟨.hbm, 688, rfl⟩
abbrev main_v341 : Ref sig .tc := ⟨.hbm, 689, rfl⟩
abbrev main_v342 : Ref sig .tc := ⟨.hbm, 690, rfl⟩
abbrev main_cst_343 : Ref sig .tc := ⟨.hbm, 691, rfl⟩
abbrev main_v343 : Ref sig .tc := ⟨.hbm, 692, rfl⟩
abbrev main_v344 : Ref sig .tc := ⟨.hbm, 693, rfl⟩
abbrev main_c_344 : Ref sig .tc := ⟨.hbm, 694, rfl⟩
abbrev main_c_345 : Ref sig .tc := ⟨.hbm, 695, rfl⟩
abbrev main_c_346 : Ref sig .tc := ⟨.hbm, 696, rfl⟩
abbrev main_c_347 : Ref sig .tc := ⟨.hbm, 697, rfl⟩
abbrev main_v345 : Ref sig .tc := ⟨.hbm, 698, rfl⟩
abbrev main_v346 : Ref sig .tc := ⟨.hbm, 699, rfl⟩
abbrev main_v347 : Ref sig .tc := ⟨.hbm, 700, rfl⟩
abbrev main_cst_348 : Ref sig .tc := ⟨.hbm, 701, rfl⟩
abbrev main_v348 : Ref sig .tc := ⟨.hbm, 702, rfl⟩
abbrev main_v349 : Ref sig .tc := ⟨.hbm, 703, rfl⟩
abbrev main_c_349 : Ref sig .tc := ⟨.hbm, 704, rfl⟩
abbrev main_c_350 : Ref sig .tc := ⟨.hbm, 705, rfl⟩
abbrev main_c_351 : Ref sig .tc := ⟨.hbm, 706, rfl⟩
abbrev main_c_352 : Ref sig .tc := ⟨.hbm, 707, rfl⟩
abbrev main_v350 : Ref sig .tc := ⟨.hbm, 708, rfl⟩
abbrev main_v351 : Ref sig .tc := ⟨.hbm, 709, rfl⟩
abbrev main_v352 : Ref sig .tc := ⟨.hbm, 710, rfl⟩
abbrev main_cst_353 : Ref sig .tc := ⟨.hbm, 711, rfl⟩
abbrev main_v353 : Ref sig .tc := ⟨.hbm, 712, rfl⟩
abbrev main_v354 : Ref sig .tc := ⟨.hbm, 713, rfl⟩
abbrev main_c_354 : Ref sig .tc := ⟨.hbm, 714, rfl⟩
abbrev main_c_355 : Ref sig .tc := ⟨.hbm, 715, rfl⟩
abbrev main_c_356 : Ref sig .tc := ⟨.hbm, 716, rfl⟩
abbrev main_c_357 : Ref sig .tc := ⟨.hbm, 717, rfl⟩
abbrev main_v355 : Ref sig .tc := ⟨.hbm, 718, rfl⟩
abbrev main_v356 : Ref sig .tc := ⟨.hbm, 719, rfl⟩
abbrev main_v357 : Ref sig .tc := ⟨.hbm, 720, rfl⟩
abbrev main_cst_358 : Ref sig .tc := ⟨.hbm, 721, rfl⟩
abbrev main_v358 : Ref sig .tc := ⟨.hbm, 722, rfl⟩
abbrev main_v359 : Ref sig .tc := ⟨.hbm, 723, rfl⟩
abbrev main_c_359 : Ref sig .tc := ⟨.hbm, 724, rfl⟩
abbrev main_c_360 : Ref sig .tc := ⟨.hbm, 725, rfl⟩
abbrev main_c_361 : Ref sig .tc := ⟨.hbm, 726, rfl⟩
abbrev main_c_362 : Ref sig .tc := ⟨.hbm, 727, rfl⟩
abbrev main_v360 : Ref sig .tc := ⟨.hbm, 728, rfl⟩
abbrev main_v361 : Ref sig .tc := ⟨.hbm, 729, rfl⟩
abbrev main_v362 : Ref sig .tc := ⟨.hbm, 730, rfl⟩
abbrev main_cst_363 : Ref sig .tc := ⟨.hbm, 731, rfl⟩
abbrev main_v363 : Ref sig .tc := ⟨.hbm, 732, rfl⟩
abbrev main_v364 : Ref sig .tc := ⟨.hbm, 733, rfl⟩
abbrev main_c_364 : Ref sig .tc := ⟨.hbm, 734, rfl⟩
abbrev main_c_365 : Ref sig .tc := ⟨.hbm, 735, rfl⟩
abbrev main_c_366 : Ref sig .tc := ⟨.hbm, 736, rfl⟩
abbrev main_c_367 : Ref sig .tc := ⟨.hbm, 737, rfl⟩
abbrev main_v365 : Ref sig .tc := ⟨.hbm, 738, rfl⟩
abbrev main_v366 : Ref sig .tc := ⟨.hbm, 739, rfl⟩
abbrev main_v367 : Ref sig .tc := ⟨.hbm, 740, rfl⟩
abbrev main_cst_368 : Ref sig .tc := ⟨.hbm, 741, rfl⟩
abbrev main_v368 : Ref sig .tc := ⟨.hbm, 742, rfl⟩
abbrev main_v369 : Ref sig .tc := ⟨.hbm, 743, rfl⟩
abbrev main_c_369 : Ref sig .tc := ⟨.hbm, 744, rfl⟩
abbrev main_c_370 : Ref sig .tc := ⟨.hbm, 745, rfl⟩
abbrev main_c_371 : Ref sig .tc := ⟨.hbm, 746, rfl⟩
abbrev main_c_372 : Ref sig .tc := ⟨.hbm, 747, rfl⟩
abbrev main_v370 : Ref sig .tc := ⟨.hbm, 748, rfl⟩
abbrev main_v371 : Ref sig .tc := ⟨.hbm, 749, rfl⟩
abbrev main_v372 : Ref sig .tc := ⟨.hbm, 750, rfl⟩
abbrev main_cst_373 : Ref sig .tc := ⟨.hbm, 751, rfl⟩
abbrev main_v373 : Ref sig .tc := ⟨.hbm, 752, rfl⟩
abbrev main_v374 : Ref sig .tc := ⟨.hbm, 753, rfl⟩
abbrev main_c_374 : Ref sig .tc := ⟨.hbm, 754, rfl⟩
abbrev main_c_375 : Ref sig .tc := ⟨.hbm, 755, rfl⟩
abbrev main_c_376 : Ref sig .tc := ⟨.hbm, 756, rfl⟩
abbrev main_c_377 : Ref sig .tc := ⟨.hbm, 757, rfl⟩
abbrev main_v375 : Ref sig .tc := ⟨.hbm, 758, rfl⟩
abbrev main_v376 : Ref sig .tc := ⟨.hbm, 759, rfl⟩
abbrev main_v377 : Ref sig .tc := ⟨.hbm, 760, rfl⟩
abbrev main_cst_378 : Ref sig .tc := ⟨.hbm, 761, rfl⟩
abbrev main_v378 : Ref sig .tc := ⟨.hbm, 762, rfl⟩
abbrev main_v379 : Ref sig .tc := ⟨.hbm, 763, rfl⟩
abbrev main_c_379 : Ref sig .tc := ⟨.hbm, 764, rfl⟩
abbrev main_c_380 : Ref sig .tc := ⟨.hbm, 765, rfl⟩
abbrev main_c_381 : Ref sig .tc := ⟨.hbm, 766, rfl⟩
abbrev main_c_382 : Ref sig .tc := ⟨.hbm, 767, rfl⟩
abbrev main_v380 : Ref sig .tc := ⟨.hbm, 768, rfl⟩
abbrev main_v381 : Ref sig .tc := ⟨.hbm, 769, rfl⟩
abbrev main_v382 : Ref sig .tc := ⟨.hbm, 770, rfl⟩
abbrev main_cst_383 : Ref sig .tc := ⟨.hbm, 771, rfl⟩
abbrev main_v383 : Ref sig .tc := ⟨.hbm, 772, rfl⟩
abbrev main_v384 : Ref sig .tc := ⟨.hbm, 773, rfl⟩
abbrev main_c_384 : Ref sig .tc := ⟨.hbm, 774, rfl⟩
abbrev main_c_385 : Ref sig .tc := ⟨.hbm, 775, rfl⟩
abbrev main_c_386 : Ref sig .tc := ⟨.hbm, 776, rfl⟩
abbrev main_c_387 : Ref sig .tc := ⟨.hbm, 777, rfl⟩
abbrev main_v385 : Ref sig .tc := ⟨.hbm, 778, rfl⟩
abbrev main_v386 : Ref sig .tc := ⟨.hbm, 779, rfl⟩
abbrev main_v387 : Ref sig .tc := ⟨.hbm, 780, rfl⟩
abbrev main_cst_388 : Ref sig .tc := ⟨.hbm, 781, rfl⟩
abbrev main_v388 : Ref sig .tc := ⟨.hbm, 782, rfl⟩
abbrev main_v389 : Ref sig .tc := ⟨.hbm, 783, rfl⟩
abbrev main_c_389 : Ref sig .tc := ⟨.hbm, 784, rfl⟩
abbrev main_c_390 : Ref sig .tc := ⟨.hbm, 785, rfl⟩
abbrev main_c_391 : Ref sig .tc := ⟨.hbm, 786, rfl⟩
abbrev main_c_392 : Ref sig .tc := ⟨.hbm, 787, rfl⟩
abbrev main_v390 : Ref sig .tc := ⟨.hbm, 788, rfl⟩
abbrev main_v391 : Ref sig .tc := ⟨.hbm, 789, rfl⟩
abbrev main_v392 : Ref sig .tc := ⟨.hbm, 790, rfl⟩
abbrev main_cst_393 : Ref sig .tc := ⟨.hbm, 791, rfl⟩
abbrev main_v393 : Ref sig .tc := ⟨.hbm, 792, rfl⟩
abbrev main_v394 : Ref sig .tc := ⟨.hbm, 793, rfl⟩
abbrev main_c_394 : Ref sig .tc := ⟨.hbm, 794, rfl⟩
abbrev main_c_395 : Ref sig .tc := ⟨.hbm, 795, rfl⟩
abbrev main_c_396 : Ref sig .tc := ⟨.hbm, 796, rfl⟩
abbrev main_c_397 : Ref sig .tc := ⟨.hbm, 797, rfl⟩
abbrev main_v395 : Ref sig .tc := ⟨.hbm, 798, rfl⟩
abbrev main_v396 : Ref sig .tc := ⟨.hbm, 799, rfl⟩
abbrev main_v397 : Ref sig .tc := ⟨.hbm, 800, rfl⟩
abbrev main_cst_398 : Ref sig .tc := ⟨.hbm, 801, rfl⟩
abbrev main_v398 : Ref sig .tc := ⟨.hbm, 802, rfl⟩
abbrev main_v399 : Ref sig .tc := ⟨.hbm, 803, rfl⟩
abbrev main_c_399 : Ref sig .tc := ⟨.hbm, 804, rfl⟩
abbrev main_c_400 : Ref sig .tc := ⟨.hbm, 805, rfl⟩
abbrev main_c_401 : Ref sig .tc := ⟨.hbm, 806, rfl⟩
abbrev main_c_402 : Ref sig .tc := ⟨.hbm, 807, rfl⟩
abbrev main_v400 : Ref sig .tc := ⟨.hbm, 808, rfl⟩
abbrev main_v401 : Ref sig .tc := ⟨.hbm, 809, rfl⟩
abbrev main_v402 : Ref sig .tc := ⟨.hbm, 810, rfl⟩
abbrev main_cst_403 : Ref sig .tc := ⟨.hbm, 811, rfl⟩
abbrev main_v403 : Ref sig .tc := ⟨.hbm, 812, rfl⟩
abbrev main_v404 : Ref sig .tc := ⟨.hbm, 813, rfl⟩
abbrev main_v405 : Ref sig .tc := ⟨.hbm, 814, rfl⟩
abbrev main_v406 : Ref sig .tc := ⟨.hbm, 815, rfl⟩

abbrev nD : Nat := 1
abbrev τ : Topo := Topo.v7x

variable {F : FTy → Type} [FloatOps F]

class Facts₀ : Prop where
  pads_S4x3x256x512_S4x3x264x520_000_000_440_440 : S4x3x256x512.Pads (![0, 0, 4, 4] : Fin 4 → Nat) ![0, 0, 4, 4] ![0, 0, 0, 0] S4x3x264x520
  h_S_ : 0 < S_.numel
  sliceFits_S4x3x264x520_S4x3x256x512 : S4x3x264x520.Slices (fun _ => 0) S4x3x256x512
  reducesTo_S4x3x256x512_S4x256x512_d1 : S4x3x256x512.ReducesTo [1] S4x256x512
  shapeCasts_S4x256x512_S4x1x131072 : S4x256x512.ShapeCasts S4x1x131072

variable [Facts₀]

class Facts : Prop extends Facts₀ where

variable [Facts]
-- ==== Proof.RefOps.lean ====
/-
  The reference program's @main, window by window.

  The program prints its 814 host operations as fourteen consecutive windows (`main_part0` … `main_part13`); the call of
  the padding function stands as its two operations. Each window IS the sequence of the operations listed here in program
  order (`partK_eq`, by unfolding), every operation touches TensorCore buffers only, and none allocates. The lists are
  the printed program's own operations, re-cut at the windows' ends; nothing is proved about their values here.
-/
import proofs.«179037_j13692355740339_1_alg».proof.Proof.Gen.ReferenceIdeal
import Idealize.ShloMosaic.Lib.StableHlo.Run

set_option maxRecDepth 16384
set_option maxHeartbeats 4000000

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- Window 0: operations 1 to 61 of @main, in order. -/
def ops0 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S4x3x256x512, .f32⟩) main_arg1) (TRef.of (T := ⟨S_, .f32⟩) main_call0_v0) (TRef.of (T := ⟨S4x3x264x520, .f32⟩) main_v0) (fun x v => pad S4x3x264x520 ![0, 0, 4, 4] ![0, 0, 4, 4] ![0, 0, 0, 0] x v pads_S4x3x256x512_S4x3x264x520_000_000_440_440 h_S_),
    nullary main_c_0 (constantI S_ 32 0#32),
    nullary main_c_1 (constantI S_ 32 0#32),
    nullary main_c_2 (constantI S_ 32 0#32),
    nullary main_c_3 (constantI S_ 32 0#32),
    unaryIndexed main_v0 ![main_c_0, main_c_1, main_c_2, main_c_3] ⟨S_, .i32⟩ main_v1 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v1 main_v2 (subf : (⟨S4x3x256x512, .f32⟩ : BufTy).Contents (Elt F) → (⟨S4x3x256x512, .f32⟩ : BufTy).Contents (Elt F) → (⟨S4x3x256x512, .f32⟩ : BufTy).Contents (Elt F)),
    binary main_v2 main_v2 main_v3 (mulf : (⟨S4x3x256x512, .f32⟩ : BufTy).Contents (Elt F) → (⟨S4x3x256x512, .f32⟩ : BufTy).Contents (Elt F) → (⟨S4x3x256x512, .f32⟩ : BufTy).Contents (Elt F)),
    nullary main_cst (constant S_ .f32 0x00000000#32),
    binary main_v3 main_cst main_v4 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    nullary main_c_4 (constantI S_ 32 0#32),
    nullary main_c_5 (constantI S_ 32 0#32),
    nullary main_c_6 (constantI S_ 32 0#32),
    nullary main_c_7 (constantI S_ 32 1#32),
    unaryIndexed main_v0 ![main_c_4, main_c_5, main_c_6, main_c_7] ⟨S_, .i32⟩ main_v5 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v5 main_v6 (subf : (⟨S4x3x256x512, .f32⟩ : BufTy).Contents (Elt F) → (⟨S4x3x256x512, .f32⟩ : BufTy).Contents (Elt F) → (⟨S4x3x256x512, .f32⟩ : BufTy).Contents (Elt F)),
    binary main_v6 main_v6 main_v7 (mulf : (⟨S4x3x256x512, .f32⟩ : BufTy).Contents (Elt F) → (⟨S4x3x256x512, .f32⟩ : BufTy).Contents (Elt F) → (⟨S4x3x256x512, .f32⟩ : BufTy).Contents (Elt F)),
    nullary main_cst_8 (constant S_ .f32 0x00000000#32),
    binary main_v7 main_cst_8 main_v8 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v4 main_v8 main_v9 (minimumf : (⟨S4x256x512, .f32⟩ : BufTy).Contents (Elt F) → (⟨S4x256x512, .f32⟩ : BufTy).Contents (Elt F) → (⟨S4x256x512, .f32⟩ : BufTy).Contents (Elt F)),
    nullary main_c_9 (constantI S_ 32 0#32),
    nullary main_c_10 (constantI S_ 32 0#32),
    nullary main_c_11 (constantI S_ 32 0#32),
    nullary main_c_12 (constantI S_ 32 2#32),
    unaryIndexed main_v0 ![main_c_9, main_c_10, main_c_11, main_c_12] ⟨S_, .i32⟩ main_v10 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v10 main_v11 (subf : (⟨S4x3x256x512, .f32⟩ : BufTy).Contents (Elt F) → (⟨S4x3x256x512, .f32⟩ : BufTy).Contents (Elt F) → (⟨S4x3x256x512, .f32⟩ : BufTy).Contents (Elt F)),
    binary main_v11 main_v11 main_v12 (mulf : (⟨S4x3x256x512, .f32⟩ : BufTy).Contents (Elt F) → (⟨S4x3x256x512, .f32⟩ : BufTy).Contents (Elt F) → (⟨S4x3x256x512, .f32⟩ : BufTy).Contents (Elt F)),
    nullary main_cst_13 (constant S_ .f32 0x00000000#32),
    binary main_v12 main_cst_13 main_v13 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v9 main_v13 main_v14 (minimumf : (⟨S4x256x512, .f32⟩ : BufTy).Contents (Elt F) → (⟨S4x256x512, .f32⟩ : BufTy).Contents (Elt F) → (⟨S4x256x512, .f32⟩ : BufTy).Contents (Elt F)),
    nullary main_c_14 (constantI S_ 32 0#32),
    nullary main_c_15 (constantI S_ 32 0#32),
    nullary main_c_16 (constantI S_ 32 0#32),
    nullary main_c_17 (constantI S_ 32 3#32),
    unaryIndexed main_v0 ![main_c_14, main_c_15, main_c_16, main_c_17] ⟨S_, .i32⟩ main_v15 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v15 main_v16 (subf : (⟨S4x3x256x512, .f32⟩ : BufTy).Contents (Elt F) → (⟨S4x3x256x512, .f32⟩ : BufTy).Contents (Elt F) → (⟨S4x3x256x512, .f32⟩ : BufTy).Contents (Elt F)),
    binary main_v16 main_v16 main_v17 (mulf : (⟨S4x3x256x512, .f32⟩ : BufTy).Contents (Elt F) → (⟨S4x3x256x512, .f32⟩ : BufTy).Contents (Elt F) → (⟨S4x3x256x512, .f32⟩ : BufTy).Contents (Elt F)),
    nullary main_cst_18 (constant S_ .f32 0x00000000#32),
    binary main_v17 main_cst_18 main_v18 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v14 main_v18 main_v19 (minimumf : (⟨S4x256x512, .f32⟩ : BufTy).Contents (Elt F) → (⟨S4x256x512, .f32⟩ : BufTy).Contents (Elt F) → (⟨S4x256x512, .f32⟩ : BufTy).Contents (Elt F)),
    nullary main_c_19 (constantI S_ 32 0#32),
    nullary main_c_20 (constantI S_ 32 0#32),
    nullary main_c_21 (constantI S_ 32 0#32),
    nullary main_c_22 (constantI S_ 32 4#32),
    unaryIndexed main_v0 ![main_c_19, main_c_20, main_c_21, main_c_22] ⟨S_, .i32⟩ main_v20 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v20 main_v21 (subf : (⟨S4x3x256x512, .f32⟩ : BufTy).Contents (Elt F) → (⟨S4x3x256x512, .f32⟩ : BufTy).Contents (Elt F) → (⟨S4x3x256x512, .f32⟩ : BufTy).Contents (Elt F)),
    binary main_v21 main_v21 main_v22 (mulf : (⟨S4x3x256x512, .f32⟩ : BufTy).Contents (Elt F) → (⟨S4x3x256x512, .f32⟩ : BufTy).Contents (Elt F) → (⟨S4x3x256x512, .f32⟩ : BufTy).Contents (Elt F)),
    nullary main_cst_23 (constant S_ .f32 0x00000000#32),
    binary main_v22 main_cst_23 main_v23 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v19 main_v23 main_v24 (minimumf : (⟨S4x256x512, .f32⟩ : BufTy).Contents (Elt F) → (⟨S4x256x512, .f32⟩ : BufTy).Contents (Elt F) → (⟨S4x256x512, .f32⟩ : BufTy).Contents (Elt F)),
    nullary main_c_24 (constantI S_ 32 0#32),
    nullary main_c_25 (constantI S_ 32 0#32),
    nullary main_c_26 (constantI S_ 32 0#32),
    nullary main_c_27 (constantI S_ 32 5#32),
    unaryIndexed main_v0 ![main_c_24, main_c_25, main_c_26, main_c_27] ⟨S_, .i32⟩ main_v25 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v25 main_v26 (subf : (⟨S4x3x256x512, .f32⟩ : BufTy).Contents (Elt F) → (⟨S4x3x256x512, .f32⟩ : BufTy).Contents (Elt F) → (⟨S4x3x256x512, .f32⟩ : BufTy).Contents (Elt F)),
    binary main_v26 main_v26 main_v27 (mulf : (⟨S4x3x256x512, .f32⟩ : BufTy).Contents (Elt F) → (⟨S4x3x256x512, .f32⟩ : BufTy).Contents (Elt F) → (⟨S4x3x256x512, .f32⟩ : BufTy).Contents (Elt F)),
    nullary main_cst_28 (constant S_ .f32 0x00000000#32),
    binary main_v27 main_cst_28 main_v28 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part0_eq (c : Dev nD) : main_part0 (F := F) c = seq ops0 := rfl

/-- Each of its operations touches TensorCore references only. -/
theorem ops0_sub : (ops0 : List (HloOp τ sig (Elt F))).Forall fun op => op.bufs ⊆ tcRefs τ sig := by
  simp only [ops0, List.Forall, nullary_bufs_sub, unary_bufs_sub, binary_bufs_sub, reshape_bufs_sub, unaryIndexed_bufs_sub, and_self]

/-- None of them allocates a buffer. -/
theorem ops0_fresh : ∀ op ∈ (ops0 : List (HloOp τ sig (Elt F))), op.fresh = ∅ := by
  intro op h; (repeat (cases h with | head => rfl | tail _ h => ?_)); exact nomatch h

/-- Window 1: operations 62 to 121 of @main, in order. -/
def ops1 : List (HloOp τ sig (Elt F)) :=
  [ binary main_v24 main_v28 main_v29 (minimumf : (⟨S4x256x512, .f32⟩ : BufTy).Contents (Elt F) → (⟨S4x256x512, .f32⟩ : BufTy).Contents (Elt F) → (⟨S4x256x512, .f32⟩ : BufTy).Contents (Elt F)),
    nullary main_c_29 (constantI S_ 32 0#32),
    nullary main_c_30 (constantI S_ 32 0#32),
    nullary main_c_31 (constantI S_ 32 0#32),
    nullary main_c_32 (constantI S_ 32 6#32),
    unaryIndexed main_v0 ![main_c_29, main_c_30, main_c_31, main_c_32] ⟨S_, .i32⟩ main_v30 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v30 main_v31 (subf : (⟨S4x3x256x512, .f32⟩ : BufTy).Contents (Elt F) → (⟨S4x3x256x512, .f32⟩ : BufTy).Contents (Elt F) → (⟨S4x3x256x512, .f32⟩ : BufTy).Contents (Elt F)),
    binary main_v31 main_v31 main_v32 (mulf : (⟨S4x3x256x512, .f32⟩ : BufTy).Contents (Elt F) → (⟨S4x3x256x512, .f32⟩ : BufTy).Contents (Elt F) → (⟨S4x3x256x512, .f32⟩ : BufTy).Contents (Elt F)),
    nullary main_cst_33 (constant S_ .f32 0x00000000#32),
    binary main_v32 main_cst_33 main_v33 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v29 main_v33 main_v34 (minimumf : (⟨S4x256x512, .f32⟩ : BufTy).Contents (Elt F) → (⟨S4x256x512, .f32⟩ : BufTy).Contents (Elt F) → (⟨S4x256x512, .f32⟩ : BufTy).Contents (Elt F)),
    nullary main_c_34 (constantI S_ 32 0#32),
    nullary main_c_35 (constantI S_ 32 0#32),
    nullary main_c_36 (constantI S_ 32 0#32),
    nullary main_c_37 (constantI S_ 32 7#32),
    unaryIndexed main_v0 ![main_c_34, main_c_35, main_c_36, main_c_37] ⟨S_, .i32⟩ main_v35 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v35 main_v36 (subf : (⟨S4x3x256x512, .f32⟩ : BufTy).Contents (Elt F) → (⟨S4x3x256x512, .f32⟩ : BufTy).Contents (Elt F) → (⟨S4x3x256x512, .f32⟩ : BufTy).Contents (Elt F)),
    binary main_v36 main_v36 main_v37 (mulf : (⟨S4x3x256x512, .f32⟩ : BufTy).Contents (Elt F) → (⟨S4x3x256x512, .f32⟩ : BufTy).Contents (Elt F) → (⟨S4x3x256x512, .f32⟩ : BufTy).Contents (Elt F)),
    nullary main_cst_38 (constant S_ .f32 0x00000000#32),
    binary main_v37 main_cst_38 main_v38 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v34 main_v38 main_v39 (minimumf : (⟨S4x256x512, .f32⟩ : BufTy).Contents (Elt F) → (⟨S4x256x512, .f32⟩ : BufTy).Contents (Elt F) → (⟨S4x256x512, .f32⟩ : BufTy).Contents (Elt F)),
    nullary main_c_39 (constantI S_ 32 0#32),
    nullary main_c_40 (constantI S_ 32 0#32),
    nullary main_c_41 (constantI S_ 32 0#32),
    nullary main_c_42 (constantI S_ 32 8#32),
    unaryIndexed main_v0 ![main_c_39, main_c_40, main_c_41, main_c_42] ⟨S_, .i32⟩ main_v40 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v40 main_v41 (subf : (⟨S4x3x256x512, .f32⟩ : BufTy).Contents (Elt F) → (⟨S4x3x256x512, .f32⟩ : BufTy).Contents (Elt F) → (⟨S4x3x256x512, .f32⟩ : BufTy).Contents (Elt F)),
    binary main_v41 main_v41 main_v42 (mulf : (⟨S4x3x256x512, .f32⟩ : BufTy).Contents (Elt F) → (⟨S4x3x256x512, .f32⟩ : BufTy).Contents (Elt F) → (⟨S4x3x256x512, .f32⟩ : BufTy).Contents (Elt F)),
    nullary main_cst_43 (constant S_ .f32 0x00000000#32),
    binary main_v42 main_cst_43 main_v43 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v39 main_v43 main_v44 (minimumf : (⟨S4x256x512, .f32⟩ : BufTy).Contents (Elt F) → (⟨S4x256x512, .f32⟩ : BufTy).Contents (Elt F) → (⟨S4x256x512, .f32⟩ : BufTy).Contents (Elt F)),
    nullary main_c_44 (constantI S_ 32 0#32),
    nullary main_c_45 (constantI S_ 32 0#32),
    nullary main_c_46 (constantI S_ 32 1#32),
    nullary main_c_47 (constantI S_ 32 0#32),
    unaryIndexed main_v0 ![main_c_44, main_c_45, main_c_46, main_c_47] ⟨S_, .i32⟩ main_v45 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v45 main_v46 (subf : (⟨S4x3x256x512, .f32⟩ : BufTy).Contents (Elt F) → (⟨S4x3x256x512, .f32⟩ : BufTy).Contents (Elt F) → (⟨S4x3x256x512, .f32⟩ : BufTy).Contents (Elt F)),
    binary main_v46 main_v46 main_v47 (mulf : (⟨S4x3x256x512, .f32⟩ : BufTy).Contents (Elt F) → (⟨S4x3x256x512, .f32⟩ : BufTy).Contents (Elt F) → (⟨S4x3x256x512, .f32⟩ : BufTy).Contents (Elt F)),
    nullary main_cst_48 (constant S_ .f32 0x00000000#32),
    binary main_v47 main_cst_48 main_v48 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v44 main_v48 main_v49 (minimumf : (⟨S4x256x512, .f32⟩ : BufTy).Contents (Elt F) → (⟨S4x256x512, .f32⟩ : BufTy).Contents (Elt F) → (⟨S4x256x512, .f32⟩ : BufTy).Contents (Elt F)),
    nullary main_c_49 (constantI S_ 32 0#32),
    nullary main_c_50 (constantI S_ 32 0#32),
    nullary main_c_51 (constantI S_ 32 1#32),
    nullary main_c_52 (constantI S_ 32 1#32),
    unaryIndexed main_v0 ![main_c_49, main_c_50, main_c_51, main_c_52] ⟨S_, .i32⟩ main_v50 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v50 main_v51 (subf : (⟨S4x3x256x512, .f32⟩ : BufTy).Contents (Elt F) → (⟨S4x3x256x512, .f32⟩ : BufTy).Contents (Elt F) → (⟨S4x3x256x512, .f32⟩ : BufTy).Contents (Elt F)),
    binary main_v51 main_v51 main_v52 (mulf : (⟨S4x3x256x512, .f32⟩ : BufTy).Contents (Elt F) → (⟨S4x3x256x512, .f32⟩ : BufTy).Contents (Elt F) → (⟨S4x3x256x512, .f32⟩ : BufTy).Contents (Elt F)),
    nullary main_cst_53 (constant S_ .f32 0x00000000#32),
    binary main_v52 main_cst_53 main_v53 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v49 main_v53 main_v54 (minimumf : (⟨S4x256x512, .f32⟩ : BufTy).Contents (Elt F) → (⟨S4x256x512, .f32⟩ : BufTy).Contents (Elt F) → (⟨S4x256x512, .f32⟩ : BufTy).Contents (Elt F)),
    nullary main_c_54 (constantI S_ 32 0#32),
    nullary main_c_55 (constantI S_ 32 0#32),
    nullary main_c_56 (constantI S_ 32 1#32),
    nullary main_c_57 (constantI S_ 32 2#32),
    unaryIndexed main_v0 ![main_c_54, main_c_55, main_c_56, main_c_57] ⟨S_, .i32⟩ main_v55 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v55 main_v56 (subf : (⟨S4x3x256x512, .f32⟩ : BufTy).Contents (Elt F) → (⟨S4x3x256x512, .f32⟩ : BufTy).Contents (Elt F) → (⟨S4x3x256x512, .f32⟩ : BufTy).Contents (Elt F)),
    binary main_v56 main_v56 main_v57 (mulf : (⟨S4x3x256x512, .f32⟩ : BufTy).Contents (Elt F) → (⟨S4x3x256x512, .f32⟩ : BufTy).Contents (Elt F) → (⟨S4x3x256x512, .f32⟩ : BufTy).Contents (Elt F)),
    nullary main_cst_58 (constant S_ .f32 0x00000000#32),
    binary main_v57 main_cst_58 main_v58 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part1_eq (c : Dev nD) : main_part1 (F := F) c = seq ops1 := rfl

/-- Each of its operations touches TensorCore references only. -/
theorem ops1_sub : (ops1 : List (HloOp τ sig (Elt F))).Forall fun op => op.bufs ⊆ tcRefs τ sig := by
  simp only [ops1, List.Forall, nullary_bufs_sub, unary_bufs_sub, binary_bufs_sub, reshape_bufs_sub, unaryIndexed_bufs_sub, and_self]

/-- None of them allocates a buffer. -/
theorem ops1_fresh : ∀ op ∈ (ops1 : List (HloOp τ sig (Elt F))), op.fresh = ∅ := by
  intro op h; (repeat (cases h with | head => rfl | tail _ h => ?_)); exact nomatch h

/-- Window 2: operations 122 to 181 of @main, in order. -/
def ops2 : List (HloOp τ sig (Elt F)) :=
  [ binary main_v54 main_v58 main_v59 (minimumf : (⟨S4x256x512, .f32⟩ : BufTy).Contents (Elt F) → (⟨S4x256x512, .f32⟩ : BufTy).Contents (Elt F) → (⟨S4x256x512, .f32⟩ : BufTy).Contents (Elt F)),
    nullary main_c_59 (constantI S_ 32 0#32),
    nullary main_c_60 (constantI S_ 32 0#32),
    nullary main_c_61 (constantI S_ 32 1#32),
    nullary main_c_62 (constantI S_ 32 3#32),
    unaryIndexed main_v0 ![main_c_59, main_c_60, main_c_61, main_c_62] ⟨S_, .i32⟩ main_v60 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v60 main_v61 (subf : (⟨S4x3x256x512, .f32⟩ : BufTy).Contents (Elt F) → (⟨S4x3x256x512, .f32⟩ : BufTy).Contents (Elt F) → (⟨S4x3x256x512, .f32⟩ : BufTy).Contents (Elt F)),
    binary main_v61 main_v61 main_v62 (mulf : (⟨S4x3x256x512, .f32⟩ : BufTy).Contents (Elt F) → (⟨S4x3x256x512, .f32⟩ : BufTy).Contents (Elt F) → (⟨S4x3x256x512, .f32⟩ : BufTy).Contents (Elt F)),
    nullary main_cst_63 (constant S_ .f32 0x00000000#32),
    binary main_v62 main_cst_63 main_v63 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v59 main_v63 main_v64 (minimumf : (⟨S4x256x512, .f32⟩ : BufTy).Contents (Elt F) → (⟨S4x256x512, .f32⟩ : BufTy).Contents (Elt F) → (⟨S4x256x512, .f32⟩ : BufTy).Contents (Elt F)),
    nullary main_c_64 (constantI S_ 32 0#32),
    nullary main_c_65 (constantI S_ 32 0#32),
    nullary main_c_66 (constantI S_ 32 1#32),
    nullary main_c_67 (constantI S_ 32 4#32),
    unaryIndexed main_v0 ![main_c_64, main_c_65, main_c_66, main_c_67] ⟨S_, .i32⟩ main_v65 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v65 main_v66 (subf : (⟨S4x3x256x512, .f32⟩ : BufTy).Contents (Elt F) → (⟨S4x3x256x512, .f32⟩ : BufTy).Contents (Elt F) → (⟨S4x3x256x512, .f32⟩ : BufTy).Contents (Elt F)),
    binary main_v66 main_v66 main_v67 (mulf : (⟨S4x3x256x512, .f32⟩ : BufTy).Contents (Elt F) → (⟨S4x3x256x512, .f32⟩ : BufTy).Contents (Elt F) → (⟨S4x3x256x512, .f32⟩ : BufTy).Contents (Elt F)),
    nullary main_cst_68 (constant S_ .f32 0x00000000#32),
    binary main_v67 main_cst_68 main_v68 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v64 main_v68 main_v69 (minimumf : (⟨S4x256x512, .f32⟩ : BufTy).Contents (Elt F) → (⟨S4x256x512, .f32⟩ : BufTy).Contents (Elt F) → (⟨S4x256x512, .f32⟩ : BufTy).Contents (Elt F)),
    nullary main_c_69 (constantI S_ 32 0#32),
    nullary main_c_70 (constantI S_ 32 0#32),
    nullary main_c_71 (constantI S_ 32 1#32),
    nullary main_c_72 (constantI S_ 32 5#32),
    unaryIndexed main_v0 ![main_c_69, main_c_70, main_c_71, main_c_72] ⟨S_, .i32⟩ main_v70 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v70 main_v71 (subf : (⟨S4x3x256x512, .f32⟩ : BufTy).Contents (Elt F) → (⟨S4x3x256x512, .f32⟩ : BufTy).Contents (Elt F) → (⟨S4x3x256x512, .f32⟩ : BufTy).Contents (Elt F)),
    binary main_v71 main_v71 main_v72 (mulf : (⟨S4x3x256x512, .f32⟩ : BufTy).Contents (Elt F) → (⟨S4x3x256x512, .f32⟩ : BufTy).Contents (Elt F) → (⟨S4x3x256x512, .f32⟩ : BufTy).Contents (Elt F)),
    nullary main_cst_73 (constant S_ .f32 0x00000000#32),
    binary main_v72 main_cst_73 main_v73 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v69 main_v73 main_v74 (minimumf : (⟨S4x256x512, .f32⟩ : BufTy).Contents (Elt F) → (⟨S4x256x512, .f32⟩ : BufTy).Contents (Elt F) → (⟨S4x256x512, .f32⟩ : BufTy).Contents (Elt F)),
    nullary main_c_74 (constantI S_ 32 0#32),
    nullary main_c_75 (constantI S_ 32 0#32),
    nullary main_c_76 (constantI S_ 32 1#32),
    nullary main_c_77 (constantI S_ 32 6#32),
    unaryIndexed main_v0 ![main_c_74, main_c_75, main_c_76, main_c_77] ⟨S_, .i32⟩ main_v75 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v75 main_v76 (subf : (⟨S4x3x256x512, .f32⟩ : BufTy).Contents (Elt F) → (⟨S4x3x256x512, .f32⟩ : BufTy).Contents (Elt F) → (⟨S4x3x256x512, .f32⟩ : BufTy).Contents (Elt F)),
    binary main_v76 main_v76 main_v77 (mulf : (⟨S4x3x256x512, .f32⟩ : BufTy).Contents (Elt F) → (⟨S4x3x256x512, .f32⟩ : BufTy).Contents (Elt F) → (⟨S4x3x256x512, .f32⟩ : BufTy).Contents (Elt F)),
    nullary main_cst_78 (constant S_ .f32 0x00000000#32),
    binary main_v77 main_cst_78 main_v78 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v74 main_v78 main_v79 (minimumf : (⟨S4x256x512, .f32⟩ : BufTy).Contents (Elt F) → (⟨S4x256x512, .f32⟩ : BufTy).Contents (Elt F) → (⟨S4x256x512, .f32⟩ : BufTy).Contents (Elt F)),
    nullary main_c_79 (constantI S_ 32 0#32),
    nullary main_c_80 (constantI S_ 32 0#32),
    nullary main_c_81 (constantI S_ 32 1#32),
    nullary main_c_82 (constantI S_ 32 7#32),
    unaryIndexed main_v0 ![main_c_79, main_c_80, main_c_81, main_c_82] ⟨S_, .i32⟩ main_v80 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v80 main_v81 (subf : (⟨S4x3x256x512, .f32⟩ : BufTy).Contents (Elt F) → (⟨S4x3x256x512, .f32⟩ : BufTy).Contents (Elt F) → (⟨S4x3x256x512, .f32⟩ : BufTy).Contents (Elt F)),
    binary main_v81 main_v81 main_v82 (mulf : (⟨S4x3x256x512, .f32⟩ : BufTy).Contents (Elt F) → (⟨S4x3x256x512, .f32⟩ : BufTy).Contents (Elt F) → (⟨S4x3x256x512, .f32⟩ : BufTy).Contents (Elt F)),
    nullary main_cst_83 (constant S_ .f32 0x00000000#32),
    binary main_v82 main_cst_83 main_v83 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v79 main_v83 main_v84 (minimumf : (⟨S4x256x512, .f32⟩ : BufTy).Contents (Elt F) → (⟨S4x256x512, .f32⟩ : BufTy).Contents (Elt F) → (⟨S4x256x512, .f32⟩ : BufTy).Contents (Elt F)),
    nullary main_c_84 (constantI S_ 32 0#32),
    nullary main_c_85 (constantI S_ 32 0#32),
    nullary main_c_86 (constantI S_ 32 1#32),
    nullary main_c_87 (constantI S_ 32 8#32),
    unaryIndexed main_v0 ![main_c_84, main_c_85, main_c_86, main_c_87] ⟨S_, .i32⟩ main_v85 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v85 main_v86 (subf : (⟨S4x3x256x512, .f32⟩ : BufTy).Contents (Elt F) → (⟨S4x3x256x512, .f32⟩ : BufTy).Contents (Elt F) → (⟨S4x3x256x512, .f32⟩ : BufTy).Contents (Elt F)),
    binary main_v86 main_v86 main_v87 (mulf : (⟨S4x3x256x512, .f32⟩ : BufTy).Contents (Elt F) → (⟨S4x3x256x512, .f32⟩ : BufTy).Contents (Elt F) → (⟨S4x3x256x512, .f32⟩ : BufTy).Contents (Elt F)),
    nullary main_cst_88 (constant S_ .f32 0x00000000#32),
    binary main_v87 main_cst_88 main_v88 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part2_eq (c : Dev nD) : main_part2 (F := F) c = seq ops2 := rfl

/-- Each of its operations touches TensorCore references only. -/
theorem ops2_sub : (ops2 : List (HloOp τ sig (Elt F))).Forall fun op => op.bufs ⊆ tcRefs τ sig := by
  simp only [ops2, List.Forall, nullary_bufs_sub, unary_bufs_sub, binary_bufs_sub, reshape_bufs_sub, unaryIndexed_bufs_sub, and_self]

/-- None of them allocates a buffer. -/
theorem ops2_fresh : ∀ op ∈ (ops2 : List (HloOp τ sig (Elt F))), op.fresh = ∅ := by
  intro op h; (repeat (cases h with | head => rfl | tail _ h => ?_)); exact nomatch h

/-- Window 3: operations 182 to 241 of @main, in order. -/
def ops3 : List (HloOp τ sig (Elt F)) :=
  [ binary main_v84 main_v88 main_v89 (minimumf : (⟨S4x256x512, .f32⟩ : BufTy).Contents (Elt F) → (⟨S4x256x512, .f32⟩ : BufTy).Contents (Elt F) → (⟨S4x256x512, .f32⟩ : BufTy).Contents (Elt F)),
    nullary main_c_89 (constantI S_ 32 0#32),
    nullary main_c_90 (constantI S_ 32 0#32),
    nullary main_c_91 (constantI S_ 32 2#32),
    nullary main_c_92 (constantI S_ 32 0#32),
    unaryIndexed main_v0 ![main_c_89, main_c_90, main_c_91, main_c_92] ⟨S_, .i32⟩ main_v90 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v90 main_v91 (subf : (⟨S4x3x256x512, .f32⟩ : BufTy).Contents (Elt F) → (⟨S4x3x256x512, .f32⟩ : BufTy).Contents (Elt F) → (⟨S4x3x256x512, .f32⟩ : BufTy).Contents (Elt F)),
    binary main_v91 main_v91 main_v92 (mulf : (⟨S4x3x256x512, .f32⟩ : BufTy).Contents (Elt F) → (⟨S4x3x256x512, .f32⟩ : BufTy).Contents (Elt F) → (⟨S4x3x256x512, .f32⟩ : BufTy).Contents (Elt F)),
    nullary main_cst_93 (constant S_ .f32 0x00000000#32),
    binary main_v92 main_cst_93 main_v93 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v89 main_v93 main_v94 (minimumf : (⟨S4x256x512, .f32⟩ : BufTy).Contents (Elt F) → (⟨S4x256x512, .f32⟩ : BufTy).Contents (Elt F) → (⟨S4x256x512, .f32⟩ : BufTy).Contents (Elt F)),
    nullary main_c_94 (constantI S_ 32 0#32),
    nullary main_c_95 (constantI S_ 32 0#32),
    nullary main_c_96 (constantI S_ 32 2#32),
    nullary main_c_97 (constantI S_ 32 1#32),
    unaryIndexed main_v0 ![main_c_94, main_c_95, main_c_96, main_c_97] ⟨S_, .i32⟩ main_v95 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v95 main_v96 (subf : (⟨S4x3x256x512, .f32⟩ : BufTy).Contents (Elt F) → (⟨S4x3x256x512, .f32⟩ : BufTy).Contents (Elt F) → (⟨S4x3x256x512, .f32⟩ : BufTy).Contents (Elt F)),
    binary main_v96 main_v96 main_v97 (mulf : (⟨S4x3x256x512, .f32⟩ : BufTy).Contents (Elt F) → (⟨S4x3x256x512, .f32⟩ : BufTy).Contents (Elt F) → (⟨S4x3x256x512, .f32⟩ : BufTy).Contents (Elt F)),
    nullary main_cst_98 (constant S_ .f32 0x00000000#32),
    binary main_v97 main_cst_98 main_v98 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v94 main_v98 main_v99 (minimumf : (⟨S4x256x512, .f32⟩ : BufTy).Contents (Elt F) → (⟨S4x256x512, .f32⟩ : BufTy).Contents (Elt F) → (⟨S4x256x512, .f32⟩ : BufTy).Contents (Elt F)),
    nullary main_c_99 (constantI S_ 32 0#32),
    nullary main_c_100 (constantI S_ 32 0#32),
    nullary main_c_101 (constantI S_ 32 2#32),
    nullary main_c_102 (constantI S_ 32 2#32),
    unaryIndexed main_v0 ![main_c_99, main_c_100, main_c_101, main_c_102] ⟨S_, .i32⟩ main_v100 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v100 main_v101 (subf : (⟨S4x3x256x512, .f32⟩ : BufTy).Contents (Elt F) → (⟨S4x3x256x512, .f32⟩ : BufTy).Contents (Elt F) → (⟨S4x3x256x512, .f32⟩ : BufTy).Contents (Elt F)),
    binary main_v101 main_v101 main_v102 (mulf : (⟨S4x3x256x512, .f32⟩ : BufTy).Contents (Elt F) → (⟨S4x3x256x512, .f32⟩ : BufTy).Contents (Elt F) → (⟨S4x3x256x512, .f32⟩ : BufTy).Contents (Elt F)),
    nullary main_cst_103 (constant S_ .f32 0x00000000#32),
    binary main_v102 main_cst_103 main_v103 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v99 main_v103 main_v104 (minimumf : (⟨S4x256x512, .f32⟩ : BufTy).Contents (Elt F) → (⟨S4x256x512, .f32⟩ : BufTy).Contents (Elt F) → (⟨S4x256x512, .f32⟩ : BufTy).Contents (Elt F)),
    nullary main_c_104 (constantI S_ 32 0#32),
    nullary main_c_105 (constantI S_ 32 0#32),
    nullary main_c_106 (constantI S_ 32 2#32),
    nullary main_c_107 (constantI S_ 32 3#32),
    unaryIndexed main_v0 ![main_c_104, main_c_105, main_c_106, main_c_107] ⟨S_, .i32⟩ main_v105 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v105 main_v106 (subf : (⟨S4x3x256x512, .f32⟩ : BufTy).Contents (Elt F) → (⟨S4x3x256x512, .f32⟩ : BufTy).Contents (Elt F) → (⟨S4x3x256x512, .f32⟩ : BufTy).Contents (Elt F)),
    binary main_v106 main_v106 main_v107 (mulf : (⟨S4x3x256x512, .f32⟩ : BufTy).Contents (Elt F) → (⟨S4x3x256x512, .f32⟩ : BufTy).Contents (Elt F) → (⟨S4x3x256x512, .f32⟩ : BufTy).Contents (Elt F)),
    nullary main_cst_108 (constant S_ .f32 0x00000000#32),
    binary main_v107 main_cst_108 main_v108 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v104 main_v108 main_v109 (minimumf : (⟨S4x256x512, .f32⟩ : BufTy).Contents (Elt F) → (⟨S4x256x512, .f32⟩ : BufTy).Contents (Elt F) → (⟨S4x256x512, .f32⟩ : BufTy).Contents (Elt F)),
    nullary main_c_109 (constantI S_ 32 0#32),
    nullary main_c_110 (constantI S_ 32 0#32),
    nullary main_c_111 (constantI S_ 32 2#32),
    nullary main_c_112 (constantI S_ 32 4#32),
    unaryIndexed main_v0 ![main_c_109, main_c_110, main_c_111, main_c_112] ⟨S_, .i32⟩ main_v110 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v110 main_v111 (subf : (⟨S4x3x256x512, .f32⟩ : BufTy).Contents (Elt F) → (⟨S4x3x256x512, .f32⟩ : BufTy).Contents (Elt F) → (⟨S4x3x256x512, .f32⟩ : BufTy).Contents (Elt F)),
    binary main_v111 main_v111 main_v112 (mulf : (⟨S4x3x256x512, .f32⟩ : BufTy).Contents (Elt F) → (⟨S4x3x256x512, .f32⟩ : BufTy).Contents (Elt F) → (⟨S4x3x256x512, .f32⟩ : BufTy).Contents (Elt F)),
    nullary main_cst_113 (constant S_ .f32 0x00000000#32),
    binary main_v112 main_cst_113 main_v113 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v109 main_v113 main_v114 (minimumf : (⟨S4x256x512, .f32⟩ : BufTy).Contents (Elt F) → (⟨S4x256x512, .f32⟩ : BufTy).Contents (Elt F) → (⟨S4x256x512, .f32⟩ : BufTy).Contents (Elt F)),
    nullary main_c_114 (constantI S_ 32 0#32),
    nullary main_c_115 (constantI S_ 32 0#32),
    nullary main_c_116 (constantI S_ 32 2#32),
    nullary main_c_117 (constantI S_ 32 5#32),
    unaryIndexed main_v0 ![main_c_114, main_c_115, main_c_116, main_c_117] ⟨S_, .i32⟩ main_v115 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v115 main_v116 (subf : (⟨S4x3x256x512, .f32⟩ : BufTy).Contents (Elt F) → (⟨S4x3x256x512, .f32⟩ : BufTy).Contents (Elt F) → (⟨S4x3x256x512, .f32⟩ : BufTy).Contents (Elt F)),
    binary main_v116 main_v116 main_v117 (mulf : (⟨S4x3x256x512, .f32⟩ : BufTy).Contents (Elt F) → (⟨S4x3x256x512, .f32⟩ : BufTy).Contents (Elt F) → (⟨S4x3x256x512, .f32⟩ : BufTy).Contents (Elt F)),
    nullary main_cst_118 (constant S_ .f32 0x00000000#32),
    binary main_v117 main_cst_118 main_v118 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part3_eq (c : Dev nD) : main_part3 (F := F) c = seq ops3 := rfl

/-- Each of its operations touches TensorCore references only. -/
theorem ops3_sub : (ops3 : List (HloOp τ sig (Elt F))).Forall fun op => op.bufs ⊆ tcRefs τ sig := by
  simp only [ops3, List.Forall, nullary_bufs_sub, unary_bufs_sub, binary_bufs_sub, reshape_bufs_sub, unaryIndexed_bufs_sub, and_self]

/-- None of them allocates a buffer. -/
theorem ops3_fresh : ∀ op ∈ (ops3 : List (HloOp τ sig (Elt F))), op.fresh = ∅ := by
  intro op h; (repeat (cases h with | head => rfl | tail _ h => ?_)); exact nomatch h

/-- Window 4: operations 242 to 301 of @main, in order. -/
def ops4 : List (HloOp τ sig (Elt F)) :=
  [ binary main_v114 main_v118 main_v119 (minimumf : (⟨S4x256x512, .f32⟩ : BufTy).Contents (Elt F) → (⟨S4x256x512, .f32⟩ : BufTy).Contents (Elt F) → (⟨S4x256x512, .f32⟩ : BufTy).Contents (Elt F)),
    nullary main_c_119 (constantI S_ 32 0#32),
    nullary main_c_120 (constantI S_ 32 0#32),
    nullary main_c_121 (constantI S_ 32 2#32),
    nullary main_c_122 (constantI S_ 32 6#32),
    unaryIndexed main_v0 ![main_c_119, main_c_120, main_c_121, main_c_122] ⟨S_, .i32⟩ main_v120 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v120 main_v121 (subf : (⟨S4x3x256x512, .f32⟩ : BufTy).Contents (Elt F) → (⟨S4x3x256x512, .f32⟩ : BufTy).Contents (Elt F) → (⟨S4x3x256x512, .f32⟩ : BufTy).Contents (Elt F)),
    binary main_v121 main_v121 main_v122 (mulf : (⟨S4x3x256x512, .f32⟩ : BufTy).Contents (Elt F) → (⟨S4x3x256x512, .f32⟩ : BufTy).Contents (Elt F) → (⟨S4x3x256x512, .f32⟩ : BufTy).Contents (Elt F)),
    nullary main_cst_123 (constant S_ .f32 0x00000000#32),
    binary main_v122 main_cst_123 main_v123 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v119 main_v123 main_v124 (minimumf : (⟨S4x256x512, .f32⟩ : BufTy).Contents (Elt F) → (⟨S4x256x512, .f32⟩ : BufTy).Contents (Elt F) → (⟨S4x256x512, .f32⟩ : BufTy).Contents (Elt F)),
    nullary main_c_124 (constantI S_ 32 0#32),
    nullary main_c_125 (constantI S_ 32 0#32),
    nullary main_c_126 (constantI S_ 32 2#32),
    nullary main_c_127 (constantI S_ 32 7#32),
    unaryIndexed main_v0 ![main_c_124, main_c_125, main_c_126, main_c_127] ⟨S_, .i32⟩ main_v125 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v125 main_v126 (subf : (⟨S4x3x256x512, .f32⟩ : BufTy).Contents (Elt F) → (⟨S4x3x256x512, .f32⟩ : BufTy).Contents (Elt F) → (⟨S4x3x256x512, .f32⟩ : BufTy).Contents (Elt F)),
    binary main_v126 main_v126 main_v127 (mulf : (⟨S4x3x256x512, .f32⟩ : BufTy).Contents (Elt F) → (⟨S4x3x256x512, .f32⟩ : BufTy).Contents (Elt F) → (⟨S4x3x256x512, .f32⟩ : BufTy).Contents (Elt F)),
    nullary main_cst_128 (constant S_ .f32 0x00000000#32),
    binary main_v127 main_cst_128 main_v128 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v124 main_v128 main_v129 (minimumf : (⟨S4x256x512, .f32⟩ : BufTy).Contents (Elt F) → (⟨S4x256x512, .f32⟩ : BufTy).Contents (Elt F) → (⟨S4x256x512, .f32⟩ : BufTy).Contents (Elt F)),
    nullary main_c_129 (constantI S_ 32 0#32),
    nullary main_c_130 (constantI S_ 32 0#32),
    nullary main_c_131 (constantI S_ 32 2#32),
    nullary main_c_132 (constantI S_ 32 8#32),
    unaryIndexed main_v0 ![main_c_129, main_c_130, main_c_131, main_c_132] ⟨S_, .i32⟩ main_v130 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v130 main_v131 (subf : (⟨S4x3x256x512, .f32⟩ : BufTy).Contents (Elt F) → (⟨S4x3x256x512, .f32⟩ : BufTy).Contents (Elt F) → (⟨S4x3x256x512, .f32⟩ : BufTy).Contents (Elt F)),
    binary main_v131 main_v131 main_v132 (mulf : (⟨S4x3x256x512, .f32⟩ : BufTy).Contents (Elt F) → (⟨S4x3x256x512, .f32⟩ : BufTy).Contents (Elt F) → (⟨S4x3x256x512, .f32⟩ : BufTy).Contents (Elt F)),
    nullary main_cst_133 (constant S_ .f32 0x00000000#32),
    binary main_v132 main_cst_133 main_v133 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v129 main_v133 main_v134 (minimumf : (⟨S4x256x512, .f32⟩ : BufTy).Contents (Elt F) → (⟨S4x256x512, .f32⟩ : BufTy).Contents (Elt F) → (⟨S4x256x512, .f32⟩ : BufTy).Contents (Elt F)),
    nullary main_c_134 (constantI S_ 32 0#32),
    nullary main_c_135 (constantI S_ 32 0#32),
    nullary main_c_136 (constantI S_ 32 3#32),
    nullary main_c_137 (constantI S_ 32 0#32),
    unaryIndexed main_v0 ![main_c_134, main_c_135, main_c_136, main_c_137] ⟨S_, .i32⟩ main_v135 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v135 main_v136 (subf : (⟨S4x3x256x512, .f32⟩ : BufTy).Contents (Elt F) → (⟨S4x3x256x512, .f32⟩ : BufTy).Contents (Elt F) → (⟨S4x3x256x512, .f32⟩ : BufTy).Contents (Elt F)),
    binary main_v136 main_v136 main_v137 (mulf : (⟨S4x3x256x512, .f32⟩ : BufTy).Contents (Elt F) → (⟨S4x3x256x512, .f32⟩ : BufTy).Contents (Elt F) → (⟨S4x3x256x512, .f32⟩ : BufTy).Contents (Elt F)),
    nullary main_cst_138 (constant S_ .f32 0x00000000#32),
    binary main_v137 main_cst_138 main_v138 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v134 main_v138 main_v139 (minimumf : (⟨S4x256x512, .f32⟩ : BufTy).Contents (Elt F) → (⟨S4x256x512, .f32⟩ : BufTy).Contents (Elt F) → (⟨S4x256x512, .f32⟩ : BufTy).Contents (Elt F)),
    nullary main_c_139 (constantI S_ 32 0#32),
    nullary main_c_140 (constantI S_ 32 0#32),
    nullary main_c_141 (constantI S_ 32 3#32),
    nullary main_c_142 (constantI S_ 32 1#32),
    unaryIndexed main_v0 ![main_c_139, main_c_140, main_c_141, main_c_142] ⟨S_, .i32⟩ main_v140 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v140 main_v141 (subf : (⟨S4x3x256x512, .f32⟩ : BufTy).Contents (Elt F) → (⟨S4x3x256x512, .f32⟩ : BufTy).Contents (Elt F) → (⟨S4x3x256x512, .f32⟩ : BufTy).Contents (Elt F)),
    binary main_v141 main_v141 main_v142 (mulf : (⟨S4x3x256x512, .f32⟩ : BufTy).Contents (Elt F) → (⟨S4x3x256x512, .f32⟩ : BufTy).Contents (Elt F) → (⟨S4x3x256x512, .f32⟩ : BufTy).Contents (Elt F)),
    nullary main_cst_143 (constant S_ .f32 0x00000000#32),
    binary main_v142 main_cst_143 main_v143 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v139 main_v143 main_v144 (minimumf : (⟨S4x256x512, .f32⟩ : BufTy).Contents (Elt F) → (⟨S4x256x512, .f32⟩ : BufTy).Contents (Elt F) → (⟨S4x256x512, .f32⟩ : BufTy).Contents (Elt F)),
    nullary main_c_144 (constantI S_ 32 0#32),
    nullary main_c_145 (constantI S_ 32 0#32),
    nullary main_c_146 (constantI S_ 32 3#32),
    nullary main_c_147 (constantI S_ 32 2#32),
    unaryIndexed main_v0 ![main_c_144, main_c_145, main_c_146, main_c_147] ⟨S_, .i32⟩ main_v145 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v145 main_v146 (subf : (⟨S4x3x256x512, .f32⟩ : BufTy).Contents (Elt F) → (⟨S4x3x256x512, .f32⟩ : BufTy).Contents (Elt F) → (⟨S4x3x256x512, .f32⟩ : BufTy).Contents (Elt F)),
    binary main_v146 main_v146 main_v147 (mulf : (⟨S4x3x256x512, .f32⟩ : BufTy).Contents (Elt F) → (⟨S4x3x256x512, .f32⟩ : BufTy).Contents (Elt F) → (⟨S4x3x256x512, .f32⟩ : BufTy).Contents (Elt F)),
    nullary main_cst_148 (constant S_ .f32 0x00000000#32),
    binary main_v147 main_cst_148 main_v148 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part4_eq (c : Dev nD) : main_part4 (F := F) c = seq ops4 := rfl

/-- Each of its operations touches TensorCore references only. -/
theorem ops4_sub : (ops4 : List (HloOp τ sig (Elt F))).Forall fun op => op.bufs ⊆ tcRefs τ sig := by
  simp only [ops4, List.Forall, nullary_bufs_sub, unary_bufs_sub, binary_bufs_sub, reshape_bufs_sub, unaryIndexed_bufs_sub, and_self]

/-- None of them allocates a buffer. -/
theorem ops4_fresh : ∀ op ∈ (ops4 : List (HloOp τ sig (Elt F))), op.fresh = ∅ := by
  intro op h; (repeat (cases h with | head => rfl | tail _ h => ?_)); exact nomatch h

/-- Window 5: operations 302 to 361 of @main, in order. -/
def ops5 : List (HloOp τ sig (Elt F)) :=
  [ binary main_v144 main_v148 main_v149 (minimumf : (⟨S4x256x512, .f32⟩ : BufTy).Contents (Elt F) → (⟨S4x256x512, .f32⟩ : BufTy).Contents (Elt F) → (⟨S4x256x512, .f32⟩ : BufTy).Contents (Elt F)),
    nullary main_c_149 (constantI S_ 32 0#32),
    nullary main_c_150 (constantI S_ 32 0#32),
    nullary main_c_151 (constantI S_ 32 3#32),
    nullary main_c_152 (constantI S_ 32 3#32),
    unaryIndexed main_v0 ![main_c_149, main_c_150, main_c_151, main_c_152] ⟨S_, .i32⟩ main_v150 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v150 main_v151 (subf : (⟨S4x3x256x512, .f32⟩ : BufTy).Contents (Elt F) → (⟨S4x3x256x512, .f32⟩ : BufTy).Contents (Elt F) → (⟨S4x3x256x512, .f32⟩ : BufTy).Contents (Elt F)),
    binary main_v151 main_v151 main_v152 (mulf : (⟨S4x3x256x512, .f32⟩ : BufTy).Contents (Elt F) → (⟨S4x3x256x512, .f32⟩ : BufTy).Contents (Elt F) → (⟨S4x3x256x512, .f32⟩ : BufTy).Contents (Elt F)),
    nullary main_cst_153 (constant S_ .f32 0x00000000#32),
    binary main_v152 main_cst_153 main_v153 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v149 main_v153 main_v154 (minimumf : (⟨S4x256x512, .f32⟩ : BufTy).Contents (Elt F) → (⟨S4x256x512, .f32⟩ : BufTy).Contents (Elt F) → (⟨S4x256x512, .f32⟩ : BufTy).Contents (Elt F)),
    nullary main_c_154 (constantI S_ 32 0#32),
    nullary main_c_155 (constantI S_ 32 0#32),
    nullary main_c_156 (constantI S_ 32 3#32),
    nullary main_c_157 (constantI S_ 32 4#32),
    unaryIndexed main_v0 ![main_c_154, main_c_155, main_c_156, main_c_157] ⟨S_, .i32⟩ main_v155 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v155 main_v156 (subf : (⟨S4x3x256x512, .f32⟩ : BufTy).Contents (Elt F) → (⟨S4x3x256x512, .f32⟩ : BufTy).Contents (Elt F) → (⟨S4x3x256x512, .f32⟩ : BufTy).Contents (Elt F)),
    binary main_v156 main_v156 main_v157 (mulf : (⟨S4x3x256x512, .f32⟩ : BufTy).Contents (Elt F) → (⟨S4x3x256x512, .f32⟩ : BufTy).Contents (Elt F) → (⟨S4x3x256x512, .f32⟩ : BufTy).Contents (Elt F)),
    nullary main_cst_158 (constant S_ .f32 0x00000000#32),
    binary main_v157 main_cst_158 main_v158 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v154 main_v158 main_v159 (minimumf : (⟨S4x256x512, .f32⟩ : BufTy).Contents (Elt F) → (⟨S4x256x512, .f32⟩ : BufTy).Contents (Elt F) → (⟨S4x256x512, .f32⟩ : BufTy).Contents (Elt F)),
    nullary main_c_159 (constantI S_ 32 0#32),
    nullary main_c_160 (constantI S_ 32 0#32),
    nullary main_c_161 (constantI S_ 32 3#32),
    nullary main_c_162 (constantI S_ 32 5#32),
    unaryIndexed main_v0 ![main_c_159, main_c_160, main_c_161, main_c_162] ⟨S_, .i32⟩ main_v160 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v160 main_v161 (subf : (⟨S4x3x256x512, .f32⟩ : BufTy).Contents (Elt F) → (⟨S4x3x256x512, .f32⟩ : BufTy).Contents (Elt F) → (⟨S4x3x256x512, .f32⟩ : BufTy).Contents (Elt F)),
    binary main_v161 main_v161 main_v162 (mulf : (⟨S4x3x256x512, .f32⟩ : BufTy).Contents (Elt F) → (⟨S4x3x256x512, .f32⟩ : BufTy).Contents (Elt F) → (⟨S4x3x256x512, .f32⟩ : BufTy).Contents (Elt F)),
    nullary main_cst_163 (constant S_ .f32 0x00000000#32),
    binary main_v162 main_cst_163 main_v163 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v159 main_v163 main_v164 (minimumf : (⟨S4x256x512, .f32⟩ : BufTy).Contents (Elt F) → (⟨S4x256x512, .f32⟩ : BufTy).Contents (Elt F) → (⟨S4x256x512, .f32⟩ : BufTy).Contents (Elt F)),
    nullary main_c_164 (constantI S_ 32 0#32),
    nullary main_c_165 (constantI S_ 32 0#32),
    nullary main_c_166 (constantI S_ 32 3#32),
    nullary main_c_167 (constantI S_ 32 6#32),
    unaryIndexed main_v0 ![main_c_164, main_c_165, main_c_166, main_c_167] ⟨S_, .i32⟩ main_v165 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v165 main_v166 (subf : (⟨S4x3x256x512, .f32⟩ : BufTy).Contents (Elt F) → (⟨S4x3x256x512, .f32⟩ : BufTy).Contents (Elt F) → (⟨S4x3x256x512, .f32⟩ : BufTy).Contents (Elt F)),
    binary main_v166 main_v166 main_v167 (mulf : (⟨S4x3x256x512, .f32⟩ : BufTy).Contents (Elt F) → (⟨S4x3x256x512, .f32⟩ : BufTy).Contents (Elt F) → (⟨S4x3x256x512, .f32⟩ : BufTy).Contents (Elt F)),
    nullary main_cst_168 (constant S_ .f32 0x00000000#32),
    binary main_v167 main_cst_168 main_v168 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v164 main_v168 main_v169 (minimumf : (⟨S4x256x512, .f32⟩ : BufTy).Contents (Elt F) → (⟨S4x256x512, .f32⟩ : BufTy).Contents (Elt F) → (⟨S4x256x512, .f32⟩ : BufTy).Contents (Elt F)),
    nullary main_c_169 (constantI S_ 32 0#32),
    nullary main_c_170 (constantI S_ 32 0#32),
    nullary main_c_171 (constantI S_ 32 3#32),
    nullary main_c_172 (constantI S_ 32 7#32),
    unaryIndexed main_v0 ![main_c_169, main_c_170, main_c_171, main_c_172] ⟨S_, .i32⟩ main_v170 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v170 main_v171 (subf : (⟨S4x3x256x512, .f32⟩ : BufTy).Contents (Elt F) → (⟨S4x3x256x512, .f32⟩ : BufTy).Contents (Elt F) → (⟨S4x3x256x512, .f32⟩ : BufTy).Contents (Elt F)),
    binary main_v171 main_v171 main_v172 (mulf : (⟨S4x3x256x512, .f32⟩ : BufTy).Contents (Elt F) → (⟨S4x3x256x512, .f32⟩ : BufTy).Contents (Elt F) → (⟨S4x3x256x512, .f32⟩ : BufTy).Contents (Elt F)),
    nullary main_cst_173 (constant S_ .f32 0x00000000#32),
    binary main_v172 main_cst_173 main_v173 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v169 main_v173 main_v174 (minimumf : (⟨S4x256x512, .f32⟩ : BufTy).Contents (Elt F) → (⟨S4x256x512, .f32⟩ : BufTy).Contents (Elt F) → (⟨S4x256x512, .f32⟩ : BufTy).Contents (Elt F)),
    nullary main_c_174 (constantI S_ 32 0#32),
    nullary main_c_175 (constantI S_ 32 0#32),
    nullary main_c_176 (constantI S_ 32 3#32),
    nullary main_c_177 (constantI S_ 32 8#32),
    unaryIndexed main_v0 ![main_c_174, main_c_175, main_c_176, main_c_177] ⟨S_, .i32⟩ main_v175 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v175 main_v176 (subf : (⟨S4x3x256x512, .f32⟩ : BufTy).Contents (Elt F) → (⟨S4x3x256x512, .f32⟩ : BufTy).Contents (Elt F) → (⟨S4x3x256x512, .f32⟩ : BufTy).Contents (Elt F)),
    binary main_v176 main_v176 main_v177 (mulf : (⟨S4x3x256x512, .f32⟩ : BufTy).Contents (Elt F) → (⟨S4x3x256x512, .f32⟩ : BufTy).Contents (Elt F) → (⟨S4x3x256x512, .f32⟩ : BufTy).Contents (Elt F)),
    nullary main_cst_178 (constant S_ .f32 0x00000000#32),
    binary main_v177 main_cst_178 main_v178 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part5_eq (c : Dev nD) : main_part5 (F := F) c = seq ops5 := rfl

/-- Each of its operations touches TensorCore references only. -/
theorem ops5_sub : (ops5 : List (HloOp τ sig (Elt F))).Forall fun op => op.bufs ⊆ tcRefs τ sig := by
  simp only [ops5, List.Forall, nullary_bufs_sub, unary_bufs_sub, binary_bufs_sub, reshape_bufs_sub, unaryIndexed_bufs_sub, and_self]

/-- None of them allocates a buffer. -/
theorem ops5_fresh : ∀ op ∈ (ops5 : List (HloOp τ sig (Elt F))), op.fresh = ∅ := by
  intro op h; (repeat (cases h with | head => rfl | tail _ h => ?_)); exact nomatch h

/-- Window 6: operations 362 to 421 of @main, in order. -/
def ops6 : List (HloOp τ sig (Elt F)) :=
  [ binary main_v174 main_v178 main_v179 (minimumf : (⟨S4x256x512, .f32⟩ : BufTy).Contents (Elt F) → (⟨S4x256x512, .f32⟩ : BufTy).Contents (Elt F) → (⟨S4x256x512, .f32⟩ : BufTy).Contents (Elt F)),
    nullary main_c_179 (constantI S_ 32 0#32),
    nullary main_c_180 (constantI S_ 32 0#32),
    nullary main_c_181 (constantI S_ 32 4#32),
    nullary main_c_182 (constantI S_ 32 0#32),
    unaryIndexed main_v0 ![main_c_179, main_c_180, main_c_181, main_c_182] ⟨S_, .i32⟩ main_v180 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v180 main_v181 (subf : (⟨S4x3x256x512, .f32⟩ : BufTy).Contents (Elt F) → (⟨S4x3x256x512, .f32⟩ : BufTy).Contents (Elt F) → (⟨S4x3x256x512, .f32⟩ : BufTy).Contents (Elt F)),
    binary main_v181 main_v181 main_v182 (mulf : (⟨S4x3x256x512, .f32⟩ : BufTy).Contents (Elt F) → (⟨S4x3x256x512, .f32⟩ : BufTy).Contents (Elt F) → (⟨S4x3x256x512, .f32⟩ : BufTy).Contents (Elt F)),
    nullary main_cst_183 (constant S_ .f32 0x00000000#32),
    binary main_v182 main_cst_183 main_v183 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v179 main_v183 main_v184 (minimumf : (⟨S4x256x512, .f32⟩ : BufTy).Contents (Elt F) → (⟨S4x256x512, .f32⟩ : BufTy).Contents (Elt F) → (⟨S4x256x512, .f32⟩ : BufTy).Contents (Elt F)),
    nullary main_c_184 (constantI S_ 32 0#32),
    nullary main_c_185 (constantI S_ 32 0#32),
    nullary main_c_186 (constantI S_ 32 4#32),
    nullary main_c_187 (constantI S_ 32 1#32),
    unaryIndexed main_v0 ![main_c_184, main_c_185, main_c_186, main_c_187] ⟨S_, .i32⟩ main_v185 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v185 main_v186 (subf : (⟨S4x3x256x512, .f32⟩ : BufTy).Contents (Elt F) → (⟨S4x3x256x512, .f32⟩ : BufTy).Contents (Elt F) → (⟨S4x3x256x512, .f32⟩ : BufTy).Contents (Elt F)),
    binary main_v186 main_v186 main_v187 (mulf : (⟨S4x3x256x512, .f32⟩ : BufTy).Contents (Elt F) → (⟨S4x3x256x512, .f32⟩ : BufTy).Contents (Elt F) → (⟨S4x3x256x512, .f32⟩ : BufTy).Contents (Elt F)),
    nullary main_cst_188 (constant S_ .f32 0x00000000#32),
    binary main_v187 main_cst_188 main_v188 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v184 main_v188 main_v189 (minimumf : (⟨S4x256x512, .f32⟩ : BufTy).Contents (Elt F) → (⟨S4x256x512, .f32⟩ : BufTy).Contents (Elt F) → (⟨S4x256x512, .f32⟩ : BufTy).Contents (Elt F)),
    nullary main_c_189 (constantI S_ 32 0#32),
    nullary main_c_190 (constantI S_ 32 0#32),
    nullary main_c_191 (constantI S_ 32 4#32),
    nullary main_c_192 (constantI S_ 32 2#32),
    unaryIndexed main_v0 ![main_c_189, main_c_190, main_c_191, main_c_192] ⟨S_, .i32⟩ main_v190 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v190 main_v191 (subf : (⟨S4x3x256x512, .f32⟩ : BufTy).Contents (Elt F) → (⟨S4x3x256x512, .f32⟩ : BufTy).Contents (Elt F) → (⟨S4x3x256x512, .f32⟩ : BufTy).Contents (Elt F)),
    binary main_v191 main_v191 main_v192 (mulf : (⟨S4x3x256x512, .f32⟩ : BufTy).Contents (Elt F) → (⟨S4x3x256x512, .f32⟩ : BufTy).Contents (Elt F) → (⟨S4x3x256x512, .f32⟩ : BufTy).Contents (Elt F)),
    nullary main_cst_193 (constant S_ .f32 0x00000000#32),
    binary main_v192 main_cst_193 main_v193 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v189 main_v193 main_v194 (minimumf : (⟨S4x256x512, .f32⟩ : BufTy).Contents (Elt F) → (⟨S4x256x512, .f32⟩ : BufTy).Contents (Elt F) → (⟨S4x256x512, .f32⟩ : BufTy).Contents (Elt F)),
    nullary main_c_194 (constantI S_ 32 0#32),
    nullary main_c_195 (constantI S_ 32 0#32),
    nullary main_c_196 (constantI S_ 32 4#32),
    nullary main_c_197 (constantI S_ 32 3#32),
    unaryIndexed main_v0 ![main_c_194, main_c_195, main_c_196, main_c_197] ⟨S_, .i32⟩ main_v195 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v195 main_v196 (subf : (⟨S4x3x256x512, .f32⟩ : BufTy).Contents (Elt F) → (⟨S4x3x256x512, .f32⟩ : BufTy).Contents (Elt F) → (⟨S4x3x256x512, .f32⟩ : BufTy).Contents (Elt F)),
    binary main_v196 main_v196 main_v197 (mulf : (⟨S4x3x256x512, .f32⟩ : BufTy).Contents (Elt F) → (⟨S4x3x256x512, .f32⟩ : BufTy).Contents (Elt F) → (⟨S4x3x256x512, .f32⟩ : BufTy).Contents (Elt F)),
    nullary main_cst_198 (constant S_ .f32 0x00000000#32),
    binary main_v197 main_cst_198 main_v198 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v194 main_v198 main_v199 (minimumf : (⟨S4x256x512, .f32⟩ : BufTy).Contents (Elt F) → (⟨S4x256x512, .f32⟩ : BufTy).Contents (Elt F) → (⟨S4x256x512, .f32⟩ : BufTy).Contents (Elt F)),
    nullary main_c_199 (constantI S_ 32 0#32),
    nullary main_c_200 (constantI S_ 32 0#32),
    nullary main_c_201 (constantI S_ 32 4#32),
    nullary main_c_202 (constantI S_ 32 4#32),
    unaryIndexed main_v0 ![main_c_199, main_c_200, main_c_201, main_c_202] ⟨S_, .i32⟩ main_v200 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v200 main_v201 (subf : (⟨S4x3x256x512, .f32⟩ : BufTy).Contents (Elt F) → (⟨S4x3x256x512, .f32⟩ : BufTy).Contents (Elt F) → (⟨S4x3x256x512, .f32⟩ : BufTy).Contents (Elt F)),
    binary main_v201 main_v201 main_v202 (mulf : (⟨S4x3x256x512, .f32⟩ : BufTy).Contents (Elt F) → (⟨S4x3x256x512, .f32⟩ : BufTy).Contents (Elt F) → (⟨S4x3x256x512, .f32⟩ : BufTy).Contents (Elt F)),
    nullary main_cst_203 (constant S_ .f32 0x00000000#32),
    binary main_v202 main_cst_203 main_v203 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v199 main_v203 main_v204 (minimumf : (⟨S4x256x512, .f32⟩ : BufTy).Contents (Elt F) → (⟨S4x256x512, .f32⟩ : BufTy).Contents (Elt F) → (⟨S4x256x512, .f32⟩ : BufTy).Contents (Elt F)),
    nullary main_c_204 (constantI S_ 32 0#32),
    nullary main_c_205 (constantI S_ 32 0#32),
    nullary main_c_206 (constantI S_ 32 4#32),
    nullary main_c_207 (constantI S_ 32 5#32),
    unaryIndexed main_v0 ![main_c_204, main_c_205, main_c_206, main_c_207] ⟨S_, .i32⟩ main_v205 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v205 main_v206 (subf : (⟨S4x3x256x512, .f32⟩ : BufTy).Contents (Elt F) → (⟨S4x3x256x512, .f32⟩ : BufTy).Contents (Elt F) → (⟨S4x3x256x512, .f32⟩ : BufTy).Contents (Elt F)),
    binary main_v206 main_v206 main_v207 (mulf : (⟨S4x3x256x512, .f32⟩ : BufTy).Contents (Elt F) → (⟨S4x3x256x512, .f32⟩ : BufTy).Contents (Elt F) → (⟨S4x3x256x512, .f32⟩ : BufTy).Contents (Elt F)),
    nullary main_cst_208 (constant S_ .f32 0x00000000#32),
    binary main_v207 main_cst_208 main_v208 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part6_eq (c : Dev nD) : main_part6 (F := F) c = seq ops6 := rfl

/-- Each of its operations touches TensorCore references only. -/
theorem ops6_sub : (ops6 : List (HloOp τ sig (Elt F))).Forall fun op => op.bufs ⊆ tcRefs τ sig := by
  simp only [ops6, List.Forall, nullary_bufs_sub, unary_bufs_sub, binary_bufs_sub, reshape_bufs_sub, unaryIndexed_bufs_sub, and_self]

/-- None of them allocates a buffer. -/
theorem ops6_fresh : ∀ op ∈ (ops6 : List (HloOp τ sig (Elt F))), op.fresh = ∅ := by
  intro op h; (repeat (cases h with | head => rfl | tail _ h => ?_)); exact nomatch h

/-- Window 7: operations 422 to 481 of @main, in order. -/
def ops7 : List (HloOp τ sig (Elt F)) :=
  [ binary main_v204 main_v208 main_v209 (minimumf : (⟨S4x256x512, .f32⟩ : BufTy).Contents (Elt F) → (⟨S4x256x512, .f32⟩ : BufTy).Contents (Elt F) → (⟨S4x256x512, .f32⟩ : BufTy).Contents (Elt F)),
    nullary main_c_209 (constantI S_ 32 0#32),
    nullary main_c_210 (constantI S_ 32 0#32),
    nullary main_c_211 (constantI S_ 32 4#32),
    nullary main_c_212 (constantI S_ 32 6#32),
    unaryIndexed main_v0 ![main_c_209, main_c_210, main_c_211, main_c_212] ⟨S_, .i32⟩ main_v210 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v210 main_v211 (subf : (⟨S4x3x256x512, .f32⟩ : BufTy).Contents (Elt F) → (⟨S4x3x256x512, .f32⟩ : BufTy).Contents (Elt F) → (⟨S4x3x256x512, .f32⟩ : BufTy).Contents (Elt F)),
    binary main_v211 main_v211 main_v212 (mulf : (⟨S4x3x256x512, .f32⟩ : BufTy).Contents (Elt F) → (⟨S4x3x256x512, .f32⟩ : BufTy).Contents (Elt F) → (⟨S4x3x256x512, .f32⟩ : BufTy).Contents (Elt F)),
    nullary main_cst_213 (constant S_ .f32 0x00000000#32),
    binary main_v212 main_cst_213 main_v213 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v209 main_v213 main_v214 (minimumf : (⟨S4x256x512, .f32⟩ : BufTy).Contents (Elt F) → (⟨S4x256x512, .f32⟩ : BufTy).Contents (Elt F) → (⟨S4x256x512, .f32⟩ : BufTy).Contents (Elt F)),
    nullary main_c_214 (constantI S_ 32 0#32),
    nullary main_c_215 (constantI S_ 32 0#32),
    nullary main_c_216 (constantI S_ 32 4#32),
    nullary main_c_217 (constantI S_ 32 7#32),
    unaryIndexed main_v0 ![main_c_214, main_c_215, main_c_216, main_c_217] ⟨S_, .i32⟩ main_v215 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v215 main_v216 (subf : (⟨S4x3x256x512, .f32⟩ : BufTy).Contents (Elt F) → (⟨S4x3x256x512, .f32⟩ : BufTy).Contents (Elt F) → (⟨S4x3x256x512, .f32⟩ : BufTy).Contents (Elt F)),
    binary main_v216 main_v216 main_v217 (mulf : (⟨S4x3x256x512, .f32⟩ : BufTy).Contents (Elt F) → (⟨S4x3x256x512, .f32⟩ : BufTy).Contents (Elt F) → (⟨S4x3x256x512, .f32⟩ : BufTy).Contents (Elt F)),
    nullary main_cst_218 (constant S_ .f32 0x00000000#32),
    binary main_v217 main_cst_218 main_v218 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v214 main_v218 main_v219 (minimumf : (⟨S4x256x512, .f32⟩ : BufTy).Contents (Elt F) → (⟨S4x256x512, .f32⟩ : BufTy).Contents (Elt F) → (⟨S4x256x512, .f32⟩ : BufTy).Contents (Elt F)),
    nullary main_c_219 (constantI S_ 32 0#32),
    nullary main_c_220 (constantI S_ 32 0#32),
    nullary main_c_221 (constantI S_ 32 4#32),
    nullary main_c_222 (constantI S_ 32 8#32),
    unaryIndexed main_v0 ![main_c_219, main_c_220, main_c_221, main_c_222] ⟨S_, .i32⟩ main_v220 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v220 main_v221 (subf : (⟨S4x3x256x512, .f32⟩ : BufTy).Contents (Elt F) → (⟨S4x3x256x512, .f32⟩ : BufTy).Contents (Elt F) → (⟨S4x3x256x512, .f32⟩ : BufTy).Contents (Elt F)),
    binary main_v221 main_v221 main_v222 (mulf : (⟨S4x3x256x512, .f32⟩ : BufTy).Contents (Elt F) → (⟨S4x3x256x512, .f32⟩ : BufTy).Contents (Elt F) → (⟨S4x3x256x512, .f32⟩ : BufTy).Contents (Elt F)),
    nullary main_cst_223 (constant S_ .f32 0x00000000#32),
    binary main_v222 main_cst_223 main_v223 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v219 main_v223 main_v224 (minimumf : (⟨S4x256x512, .f32⟩ : BufTy).Contents (Elt F) → (⟨S4x256x512, .f32⟩ : BufTy).Contents (Elt F) → (⟨S4x256x512, .f32⟩ : BufTy).Contents (Elt F)),
    nullary main_c_224 (constantI S_ 32 0#32),
    nullary main_c_225 (constantI S_ 32 0#32),
    nullary main_c_226 (constantI S_ 32 5#32),
    nullary main_c_227 (constantI S_ 32 0#32),
    unaryIndexed main_v0 ![main_c_224, main_c_225, main_c_226, main_c_227] ⟨S_, .i32⟩ main_v225 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v225 main_v226 (subf : (⟨S4x3x256x512, .f32⟩ : BufTy).Contents (Elt F) → (⟨S4x3x256x512, .f32⟩ : BufTy).Contents (Elt F) → (⟨S4x3x256x512, .f32⟩ : BufTy).Contents (Elt F)),
    binary main_v226 main_v226 main_v227 (mulf : (⟨S4x3x256x512, .f32⟩ : BufTy).Contents (Elt F) → (⟨S4x3x256x512, .f32⟩ : BufTy).Contents (Elt F) → (⟨S4x3x256x512, .f32⟩ : BufTy).Contents (Elt F)),
    nullary main_cst_228 (constant S_ .f32 0x00000000#32),
    binary main_v227 main_cst_228 main_v228 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v224 main_v228 main_v229 (minimumf : (⟨S4x256x512, .f32⟩ : BufTy).Contents (Elt F) → (⟨S4x256x512, .f32⟩ : BufTy).Contents (Elt F) → (⟨S4x256x512, .f32⟩ : BufTy).Contents (Elt F)),
    nullary main_c_229 (constantI S_ 32 0#32),
    nullary main_c_230 (constantI S_ 32 0#32),
    nullary main_c_231 (constantI S_ 32 5#32),
    nullary main_c_232 (constantI S_ 32 1#32),
    unaryIndexed main_v0 ![main_c_229, main_c_230, main_c_231, main_c_232] ⟨S_, .i32⟩ main_v230 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v230 main_v231 (subf : (⟨S4x3x256x512, .f32⟩ : BufTy).Contents (Elt F) → (⟨S4x3x256x512, .f32⟩ : BufTy).Contents (Elt F) → (⟨S4x3x256x512, .f32⟩ : BufTy).Contents (Elt F)),
    binary main_v231 main_v231 main_v232 (mulf : (⟨S4x3x256x512, .f32⟩ : BufTy).Contents (Elt F) → (⟨S4x3x256x512, .f32⟩ : BufTy).Contents (Elt F) → (⟨S4x3x256x512, .f32⟩ : BufTy).Contents (Elt F)),
    nullary main_cst_233 (constant S_ .f32 0x00000000#32),
    binary main_v232 main_cst_233 main_v233 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v229 main_v233 main_v234 (minimumf : (⟨S4x256x512, .f32⟩ : BufTy).Contents (Elt F) → (⟨S4x256x512, .f32⟩ : BufTy).Contents (Elt F) → (⟨S4x256x512, .f32⟩ : BufTy).Contents (Elt F)),
    nullary main_c_234 (constantI S_ 32 0#32),
    nullary main_c_235 (constantI S_ 32 0#32),
    nullary main_c_236 (constantI S_ 32 5#32),
    nullary main_c_237 (constantI S_ 32 2#32),
    unaryIndexed main_v0 ![main_c_234, main_c_235, main_c_236, main_c_237] ⟨S_, .i32⟩ main_v235 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v235 main_v236 (subf : (⟨S4x3x256x512, .f32⟩ : BufTy).Contents (Elt F) → (⟨S4x3x256x512, .f32⟩ : BufTy).Contents (Elt F) → (⟨S4x3x256x512, .f32⟩ : BufTy).Contents (Elt F)),
    binary main_v236 main_v236 main_v237 (mulf : (⟨S4x3x256x512, .f32⟩ : BufTy).Contents (Elt F) → (⟨S4x3x256x512, .f32⟩ : BufTy).Contents (Elt F) → (⟨S4x3x256x512, .f32⟩ : BufTy).Contents (Elt F)),
    nullary main_cst_238 (constant S_ .f32 0x00000000#32),
    binary main_v237 main_cst_238 main_v238 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part7_eq (c : Dev nD) : main_part7 (F := F) c = seq ops7 := rfl

/-- Each of its operations touches TensorCore references only. -/
theorem ops7_sub : (ops7 : List (HloOp τ sig (Elt F))).Forall fun op => op.bufs ⊆ tcRefs τ sig := by
  simp only [ops7, List.Forall, nullary_bufs_sub, unary_bufs_sub, binary_bufs_sub, reshape_bufs_sub, unaryIndexed_bufs_sub, and_self]

/-- None of them allocates a buffer. -/
theorem ops7_fresh : ∀ op ∈ (ops7 : List (HloOp τ sig (Elt F))), op.fresh = ∅ := by
  intro op h; (repeat (cases h with | head => rfl | tail _ h => ?_)); exact nomatch h

/-- Window 8: operations 482 to 541 of @main, in order. -/
def ops8 : List (HloOp τ sig (Elt F)) :=
  [ binary main_v234 main_v238 main_v239 (minimumf : (⟨S4x256x512, .f32⟩ : BufTy).Contents (Elt F) → (⟨S4x256x512, .f32⟩ : BufTy).Contents (Elt F) → (⟨S4x256x512, .f32⟩ : BufTy).Contents (Elt F)),
    nullary main_c_239 (constantI S_ 32 0#32),
    nullary main_c_240 (constantI S_ 32 0#32),
    nullary main_c_241 (constantI S_ 32 5#32),
    nullary main_c_242 (constantI S_ 32 3#32),
    unaryIndexed main_v0 ![main_c_239, main_c_240, main_c_241, main_c_242] ⟨S_, .i32⟩ main_v240 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v240 main_v241 (subf : (⟨S4x3x256x512, .f32⟩ : BufTy).Contents (Elt F) → (⟨S4x3x256x512, .f32⟩ : BufTy).Contents (Elt F) → (⟨S4x3x256x512, .f32⟩ : BufTy).Contents (Elt F)),
    binary main_v241 main_v241 main_v242 (mulf : (⟨S4x3x256x512, .f32⟩ : BufTy).Contents (Elt F) → (⟨S4x3x256x512, .f32⟩ : BufTy).Contents (Elt F) → (⟨S4x3x256x512, .f32⟩ : BufTy).Contents (Elt F)),
    nullary main_cst_243 (constant S_ .f32 0x00000000#32),
    binary main_v242 main_cst_243 main_v243 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v239 main_v243 main_v244 (minimumf : (⟨S4x256x512, .f32⟩ : BufTy).Contents (Elt F) → (⟨S4x256x512, .f32⟩ : BufTy).Contents (Elt F) → (⟨S4x256x512, .f32⟩ : BufTy).Contents (Elt F)),
    nullary main_c_244 (constantI S_ 32 0#32),
    nullary main_c_245 (constantI S_ 32 0#32),
    nullary main_c_246 (constantI S_ 32 5#32),
    nullary main_c_247 (constantI S_ 32 4#32),
    unaryIndexed main_v0 ![main_c_244, main_c_245, main_c_246, main_c_247] ⟨S_, .i32⟩ main_v245 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v245 main_v246 (subf : (⟨S4x3x256x512, .f32⟩ : BufTy).Contents (Elt F) → (⟨S4x3x256x512, .f32⟩ : BufTy).Contents (Elt F) → (⟨S4x3x256x512, .f32⟩ : BufTy).Contents (Elt F)),
    binary main_v246 main_v246 main_v247 (mulf : (⟨S4x3x256x512, .f32⟩ : BufTy).Contents (Elt F) → (⟨S4x3x256x512, .f32⟩ : BufTy).Contents (Elt F) → (⟨S4x3x256x512, .f32⟩ : BufTy).Contents (Elt F)),
    nullary main_cst_248 (constant S_ .f32 0x00000000#32),
    binary main_v247 main_cst_248 main_v248 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v244 main_v248 main_v249 (minimumf : (⟨S4x256x512, .f32⟩ : BufTy).Contents (Elt F) → (⟨S4x256x512, .f32⟩ : BufTy).Contents (Elt F) → (⟨S4x256x512, .f32⟩ : BufTy).Contents (Elt F)),
    nullary main_c_249 (constantI S_ 32 0#32),
    nullary main_c_250 (constantI S_ 32 0#32),
    nullary main_c_251 (constantI S_ 32 5#32),
    nullary main_c_252 (constantI S_ 32 5#32),
    unaryIndexed main_v0 ![main_c_249, main_c_250, main_c_251, main_c_252] ⟨S_, .i32⟩ main_v250 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v250 main_v251 (subf : (⟨S4x3x256x512, .f32⟩ : BufTy).Contents (Elt F) → (⟨S4x3x256x512, .f32⟩ : BufTy).Contents (Elt F) → (⟨S4x3x256x512, .f32⟩ : BufTy).Contents (Elt F)),
    binary main_v251 main_v251 main_v252 (mulf : (⟨S4x3x256x512, .f32⟩ : BufTy).Contents (Elt F) → (⟨S4x3x256x512, .f32⟩ : BufTy).Contents (Elt F) → (⟨S4x3x256x512, .f32⟩ : BufTy).Contents (Elt F)),
    nullary main_cst_253 (constant S_ .f32 0x00000000#32),
    binary main_v252 main_cst_253 main_v253 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v249 main_v253 main_v254 (minimumf : (⟨S4x256x512, .f32⟩ : BufTy).Contents (Elt F) → (⟨S4x256x512, .f32⟩ : BufTy).Contents (Elt F) → (⟨S4x256x512, .f32⟩ : BufTy).Contents (Elt F)),
    nullary main_c_254 (constantI S_ 32 0#32),
    nullary main_c_255 (constantI S_ 32 0#32),
    nullary main_c_256 (constantI S_ 32 5#32),
    nullary main_c_257 (constantI S_ 32 6#32),
    unaryIndexed main_v0 ![main_c_254, main_c_255, main_c_256, main_c_257] ⟨S_, .i32⟩ main_v255 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v255 main_v256 (subf : (⟨S4x3x256x512, .f32⟩ : BufTy).Contents (Elt F) → (⟨S4x3x256x512, .f32⟩ : BufTy).Contents (Elt F) → (⟨S4x3x256x512, .f32⟩ : BufTy).Contents (Elt F)),
    binary main_v256 main_v256 main_v257 (mulf : (⟨S4x3x256x512, .f32⟩ : BufTy).Contents (Elt F) → (⟨S4x3x256x512, .f32⟩ : BufTy).Contents (Elt F) → (⟨S4x3x256x512, .f32⟩ : BufTy).Contents (Elt F)),
    nullary main_cst_258 (constant S_ .f32 0x00000000#32),
    binary main_v257 main_cst_258 main_v258 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v254 main_v258 main_v259 (minimumf : (⟨S4x256x512, .f32⟩ : BufTy).Contents (Elt F) → (⟨S4x256x512, .f32⟩ : BufTy).Contents (Elt F) → (⟨S4x256x512, .f32⟩ : BufTy).Contents (Elt F)),
    nullary main_c_259 (constantI S_ 32 0#32),
    nullary main_c_260 (constantI S_ 32 0#32),
    nullary main_c_261 (constantI S_ 32 5#32),
    nullary main_c_262 (constantI S_ 32 7#32),
    unaryIndexed main_v0 ![main_c_259, main_c_260, main_c_261, main_c_262] ⟨S_, .i32⟩ main_v260 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v260 main_v261 (subf : (⟨S4x3x256x512, .f32⟩ : BufTy).Contents (Elt F) → (⟨S4x3x256x512, .f32⟩ : BufTy).Contents (Elt F) → (⟨S4x3x256x512, .f32⟩ : BufTy).Contents (Elt F)),
    binary main_v261 main_v261 main_v262 (mulf : (⟨S4x3x256x512, .f32⟩ : BufTy).Contents (Elt F) → (⟨S4x3x256x512, .f32⟩ : BufTy).Contents (Elt F) → (⟨S4x3x256x512, .f32⟩ : BufTy).Contents (Elt F)),
    nullary main_cst_263 (constant S_ .f32 0x00000000#32),
    binary main_v262 main_cst_263 main_v263 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v259 main_v263 main_v264 (minimumf : (⟨S4x256x512, .f32⟩ : BufTy).Contents (Elt F) → (⟨S4x256x512, .f32⟩ : BufTy).Contents (Elt F) → (⟨S4x256x512, .f32⟩ : BufTy).Contents (Elt F)),
    nullary main_c_264 (constantI S_ 32 0#32),
    nullary main_c_265 (constantI S_ 32 0#32),
    nullary main_c_266 (constantI S_ 32 5#32),
    nullary main_c_267 (constantI S_ 32 8#32),
    unaryIndexed main_v0 ![main_c_264, main_c_265, main_c_266, main_c_267] ⟨S_, .i32⟩ main_v265 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v265 main_v266 (subf : (⟨S4x3x256x512, .f32⟩ : BufTy).Contents (Elt F) → (⟨S4x3x256x512, .f32⟩ : BufTy).Contents (Elt F) → (⟨S4x3x256x512, .f32⟩ : BufTy).Contents (Elt F)),
    binary main_v266 main_v266 main_v267 (mulf : (⟨S4x3x256x512, .f32⟩ : BufTy).Contents (Elt F) → (⟨S4x3x256x512, .f32⟩ : BufTy).Contents (Elt F) → (⟨S4x3x256x512, .f32⟩ : BufTy).Contents (Elt F)),
    nullary main_cst_268 (constant S_ .f32 0x00000000#32),
    binary main_v267 main_cst_268 main_v268 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part8_eq (c : Dev nD) : main_part8 (F := F) c = seq ops8 := rfl

/-- Each of its operations touches TensorCore references only. -/
theorem ops8_sub : (ops8 : List (HloOp τ sig (Elt F))).Forall fun op => op.bufs ⊆ tcRefs τ sig := by
  simp only [ops8, List.Forall, nullary_bufs_sub, unary_bufs_sub, binary_bufs_sub, reshape_bufs_sub, unaryIndexed_bufs_sub, and_self]

/-- None of them allocates a buffer. -/
theorem ops8_fresh : ∀ op ∈ (ops8 : List (HloOp τ sig (Elt F))), op.fresh = ∅ := by
  intro op h; (repeat (cases h with | head => rfl | tail _ h => ?_)); exact nomatch h

/-- Window 9: operations 542 to 601 of @main, in order. -/
def ops9 : List (HloOp τ sig (Elt F)) :=
  [ binary main_v264 main_v268 main_v269 (minimumf : (⟨S4x256x512, .f32⟩ : BufTy).Contents (Elt F) → (⟨S4x256x512, .f32⟩ : BufTy).Contents (Elt F) → (⟨S4x256x512, .f32⟩ : BufTy).Contents (Elt F)),
    nullary main_c_269 (constantI S_ 32 0#32),
    nullary main_c_270 (constantI S_ 32 0#32),
    nullary main_c_271 (constantI S_ 32 6#32),
    nullary main_c_272 (constantI S_ 32 0#32),
    unaryIndexed main_v0 ![main_c_269, main_c_270, main_c_271, main_c_272] ⟨S_, .i32⟩ main_v270 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v270 main_v271 (subf : (⟨S4x3x256x512, .f32⟩ : BufTy).Contents (Elt F) → (⟨S4x3x256x512, .f32⟩ : BufTy).Contents (Elt F) → (⟨S4x3x256x512, .f32⟩ : BufTy).Contents (Elt F)),
    binary main_v271 main_v271 main_v272 (mulf : (⟨S4x3x256x512, .f32⟩ : BufTy).Contents (Elt F) → (⟨S4x3x256x512, .f32⟩ : BufTy).Contents (Elt F) → (⟨S4x3x256x512, .f32⟩ : BufTy).Contents (Elt F)),
    nullary main_cst_273 (constant S_ .f32 0x00000000#32),
    binary main_v272 main_cst_273 main_v273 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v269 main_v273 main_v274 (minimumf : (⟨S4x256x512, .f32⟩ : BufTy).Contents (Elt F) → (⟨S4x256x512, .f32⟩ : BufTy).Contents (Elt F) → (⟨S4x256x512, .f32⟩ : BufTy).Contents (Elt F)),
    nullary main_c_274 (constantI S_ 32 0#32),
    nullary main_c_275 (constantI S_ 32 0#32),
    nullary main_c_276 (constantI S_ 32 6#32),
    nullary main_c_277 (constantI S_ 32 1#32),
    unaryIndexed main_v0 ![main_c_274, main_c_275, main_c_276, main_c_277] ⟨S_, .i32⟩ main_v275 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v275 main_v276 (subf : (⟨S4x3x256x512, .f32⟩ : BufTy).Contents (Elt F) → (⟨S4x3x256x512, .f32⟩ : BufTy).Contents (Elt F) → (⟨S4x3x256x512, .f32⟩ : BufTy).Contents (Elt F)),
    binary main_v276 main_v276 main_v277 (mulf : (⟨S4x3x256x512, .f32⟩ : BufTy).Contents (Elt F) → (⟨S4x3x256x512, .f32⟩ : BufTy).Contents (Elt F) → (⟨S4x3x256x512, .f32⟩ : BufTy).Contents (Elt F)),
    nullary main_cst_278 (constant S_ .f32 0x00000000#32),
    binary main_v277 main_cst_278 main_v278 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v274 main_v278 main_v279 (minimumf : (⟨S4x256x512, .f32⟩ : BufTy).Contents (Elt F) → (⟨S4x256x512, .f32⟩ : BufTy).Contents (Elt F) → (⟨S4x256x512, .f32⟩ : BufTy).Contents (Elt F)),
    nullary main_c_279 (constantI S_ 32 0#32),
    nullary main_c_280 (constantI S_ 32 0#32),
    nullary main_c_281 (constantI S_ 32 6#32),
    nullary main_c_282 (constantI S_ 32 2#32),
    unaryIndexed main_v0 ![main_c_279, main_c_280, main_c_281, main_c_282] ⟨S_, .i32⟩ main_v280 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v280 main_v281 (subf : (⟨S4x3x256x512, .f32⟩ : BufTy).Contents (Elt F) → (⟨S4x3x256x512, .f32⟩ : BufTy).Contents (Elt F) → (⟨S4x3x256x512, .f32⟩ : BufTy).Contents (Elt F)),
    binary main_v281 main_v281 main_v282 (mulf : (⟨S4x3x256x512, .f32⟩ : BufTy).Contents (Elt F) → (⟨S4x3x256x512, .f32⟩ : BufTy).Contents (Elt F) → (⟨S4x3x256x512, .f32⟩ : BufTy).Contents (Elt F)),
    nullary main_cst_283 (constant S_ .f32 0x00000000#32),
    binary main_v282 main_cst_283 main_v283 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v279 main_v283 main_v284 (minimumf : (⟨S4x256x512, .f32⟩ : BufTy).Contents (Elt F) → (⟨S4x256x512, .f32⟩ : BufTy).Contents (Elt F) → (⟨S4x256x512, .f32⟩ : BufTy).Contents (Elt F)),
    nullary main_c_284 (constantI S_ 32 0#32),
    nullary main_c_285 (constantI S_ 32 0#32),
    nullary main_c_286 (constantI S_ 32 6#32),
    nullary main_c_287 (constantI S_ 32 3#32),
    unaryIndexed main_v0 ![main_c_284, main_c_285, main_c_286, main_c_287] ⟨S_, .i32⟩ main_v285 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v285 main_v286 (subf : (⟨S4x3x256x512, .f32⟩ : BufTy).Contents (Elt F) → (⟨S4x3x256x512, .f32⟩ : BufTy).Contents (Elt F) → (⟨S4x3x256x512, .f32⟩ : BufTy).Contents (Elt F)),
    binary main_v286 main_v286 main_v287 (mulf : (⟨S4x3x256x512, .f32⟩ : BufTy).Contents (Elt F) → (⟨S4x3x256x512, .f32⟩ : BufTy).Contents (Elt F) → (⟨S4x3x256x512, .f32⟩ : BufTy).Contents (Elt F)),
    nullary main_cst_288 (constant S_ .f32 0x00000000#32),
    binary main_v287 main_cst_288 main_v288 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v284 main_v288 main_v289 (minimumf : (⟨S4x256x512, .f32⟩ : BufTy).Contents (Elt F) → (⟨S4x256x512, .f32⟩ : BufTy).Contents (Elt F) → (⟨S4x256x512, .f32⟩ : BufTy).Contents (Elt F)),
    nullary main_c_289 (constantI S_ 32 0#32),
    nullary main_c_290 (constantI S_ 32 0#32),
    nullary main_c_291 (constantI S_ 32 6#32),
    nullary main_c_292 (constantI S_ 32 4#32),
    unaryIndexed main_v0 ![main_c_289, main_c_290, main_c_291, main_c_292] ⟨S_, .i32⟩ main_v290 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v290 main_v291 (subf : (⟨S4x3x256x512, .f32⟩ : BufTy).Contents (Elt F) → (⟨S4x3x256x512, .f32⟩ : BufTy).Contents (Elt F) → (⟨S4x3x256x512, .f32⟩ : BufTy).Contents (Elt F)),
    binary main_v291 main_v291 main_v292 (mulf : (⟨S4x3x256x512, .f32⟩ : BufTy).Contents (Elt F) → (⟨S4x3x256x512, .f32⟩ : BufTy).Contents (Elt F) → (⟨S4x3x256x512, .f32⟩ : BufTy).Contents (Elt F)),
    nullary main_cst_293 (constant S_ .f32 0x00000000#32),
    binary main_v292 main_cst_293 main_v293 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v289 main_v293 main_v294 (minimumf : (⟨S4x256x512, .f32⟩ : BufTy).Contents (Elt F) → (⟨S4x256x512, .f32⟩ : BufTy).Contents (Elt F) → (⟨S4x256x512, .f32⟩ : BufTy).Contents (Elt F)),
    nullary main_c_294 (constantI S_ 32 0#32),
    nullary main_c_295 (constantI S_ 32 0#32),
    nullary main_c_296 (constantI S_ 32 6#32),
    nullary main_c_297 (constantI S_ 32 5#32),
    unaryIndexed main_v0 ![main_c_294, main_c_295, main_c_296, main_c_297] ⟨S_, .i32⟩ main_v295 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v295 main_v296 (subf : (⟨S4x3x256x512, .f32⟩ : BufTy).Contents (Elt F) → (⟨S4x3x256x512, .f32⟩ : BufTy).Contents (Elt F) → (⟨S4x3x256x512, .f32⟩ : BufTy).Contents (Elt F)),
    binary main_v296 main_v296 main_v297 (mulf : (⟨S4x3x256x512, .f32⟩ : BufTy).Contents (Elt F) → (⟨S4x3x256x512, .f32⟩ : BufTy).Contents (Elt F) → (⟨S4x3x256x512, .f32⟩ : BufTy).Contents (Elt F)),
    nullary main_cst_298 (constant S_ .f32 0x00000000#32),
    binary main_v297 main_cst_298 main_v298 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part9_eq (c : Dev nD) : main_part9 (F := F) c = seq ops9 := rfl

/-- Each of its operations touches TensorCore references only. -/
theorem ops9_sub : (ops9 : List (HloOp τ sig (Elt F))).Forall fun op => op.bufs ⊆ tcRefs τ sig := by
  simp only [ops9, List.Forall, nullary_bufs_sub, unary_bufs_sub, binary_bufs_sub, reshape_bufs_sub, unaryIndexed_bufs_sub, and_self]

/-- None of them allocates a buffer. -/
theorem ops9_fresh : ∀ op ∈ (ops9 : List (HloOp τ sig (Elt F))), op.fresh = ∅ := by
  intro op h; (repeat (cases h with | head => rfl | tail _ h => ?_)); exact nomatch h

/-- Window 10: operations 602 to 661 of @main, in order. -/
def ops10 : List (HloOp τ sig (Elt F)) :=
  [ binary main_v294 main_v298 main_v299 (minimumf : (⟨S4x256x512, .f32⟩ : BufTy).Contents (Elt F) → (⟨S4x256x512, .f32⟩ : BufTy).Contents (Elt F) → (⟨S4x256x512, .f32⟩ : BufTy).Contents (Elt F)),
    nullary main_c_299 (constantI S_ 32 0#32),
    nullary main_c_300 (constantI S_ 32 0#32),
    nullary main_c_301 (constantI S_ 32 6#32),
    nullary main_c_302 (constantI S_ 32 6#32),
    unaryIndexed main_v0 ![main_c_299, main_c_300, main_c_301, main_c_302] ⟨S_, .i32⟩ main_v300 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v300 main_v301 (subf : (⟨S4x3x256x512, .f32⟩ : BufTy).Contents (Elt F) → (⟨S4x3x256x512, .f32⟩ : BufTy).Contents (Elt F) → (⟨S4x3x256x512, .f32⟩ : BufTy).Contents (Elt F)),
    binary main_v301 main_v301 main_v302 (mulf : (⟨S4x3x256x512, .f32⟩ : BufTy).Contents (Elt F) → (⟨S4x3x256x512, .f32⟩ : BufTy).Contents (Elt F) → (⟨S4x3x256x512, .f32⟩ : BufTy).Contents (Elt F)),
    nullary main_cst_303 (constant S_ .f32 0x00000000#32),
    binary main_v302 main_cst_303 main_v303 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v299 main_v303 main_v304 (minimumf : (⟨S4x256x512, .f32⟩ : BufTy).Contents (Elt F) → (⟨S4x256x512, .f32⟩ : BufTy).Contents (Elt F) → (⟨S4x256x512, .f32⟩ : BufTy).Contents (Elt F)),
    nullary main_c_304 (constantI S_ 32 0#32),
    nullary main_c_305 (constantI S_ 32 0#32),
    nullary main_c_306 (constantI S_ 32 6#32),
    nullary main_c_307 (constantI S_ 32 7#32),
    unaryIndexed main_v0 ![main_c_304, main_c_305, main_c_306, main_c_307] ⟨S_, .i32⟩ main_v305 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v305 main_v306 (subf : (⟨S4x3x256x512, .f32⟩ : BufTy).Contents (Elt F) → (⟨S4x3x256x512, .f32⟩ : BufTy).Contents (Elt F) → (⟨S4x3x256x512, .f32⟩ : BufTy).Contents (Elt F)),
    binary main_v306 main_v306 main_v307 (mulf : (⟨S4x3x256x512, .f32⟩ : BufTy).Contents (Elt F) → (⟨S4x3x256x512, .f32⟩ : BufTy).Contents (Elt F) → (⟨S4x3x256x512, .f32⟩ : BufTy).Contents (Elt F)),
    nullary main_cst_308 (constant S_ .f32 0x00000000#32),
    binary main_v307 main_cst_308 main_v308 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v304 main_v308 main_v309 (minimumf : (⟨S4x256x512, .f32⟩ : BufTy).Contents (Elt F) → (⟨S4x256x512, .f32⟩ : BufTy).Contents (Elt F) → (⟨S4x256x512, .f32⟩ : BufTy).Contents (Elt F)),
    nullary main_c_309 (constantI S_ 32 0#32),
    nullary main_c_310 (constantI S_ 32 0#32),
    nullary main_c_311 (constantI S_ 32 6#32),
    nullary main_c_312 (constantI S_ 32 8#32),
    unaryIndexed main_v0 ![main_c_309, main_c_310, main_c_311, main_c_312] ⟨S_, .i32⟩ main_v310 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v310 main_v311 (subf : (⟨S4x3x256x512, .f32⟩ : BufTy).Contents (Elt F) → (⟨S4x3x256x512, .f32⟩ : BufTy).Contents (Elt F) → (⟨S4x3x256x512, .f32⟩ : BufTy).Contents (Elt F)),
    binary main_v311 main_v311 main_v312 (mulf : (⟨S4x3x256x512, .f32⟩ : BufTy).Contents (Elt F) → (⟨S4x3x256x512, .f32⟩ : BufTy).Contents (Elt F) → (⟨S4x3x256x512, .f32⟩ : BufTy).Contents (Elt F)),
    nullary main_cst_313 (constant S_ .f32 0x00000000#32),
    binary main_v312 main_cst_313 main_v313 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v309 main_v313 main_v314 (minimumf : (⟨S4x256x512, .f32⟩ : BufTy).Contents (Elt F) → (⟨S4x256x512, .f32⟩ : BufTy).Contents (Elt F) → (⟨S4x256x512, .f32⟩ : BufTy).Contents (Elt F)),
    nullary main_c_314 (constantI S_ 32 0#32),
    nullary main_c_315 (constantI S_ 32 0#32),
    nullary main_c_316 (constantI S_ 32 7#32),
    nullary main_c_317 (constantI S_ 32 0#32),
    unaryIndexed main_v0 ![main_c_314, main_c_315, main_c_316, main_c_317] ⟨S_, .i32⟩ main_v315 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v315 main_v316 (subf : (⟨S4x3x256x512, .f32⟩ : BufTy).Contents (Elt F) → (⟨S4x3x256x512, .f32⟩ : BufTy).Contents (Elt F) → (⟨S4x3x256x512, .f32⟩ : BufTy).Contents (Elt F)),
    binary main_v316 main_v316 main_v317 (mulf : (⟨S4x3x256x512, .f32⟩ : BufTy).Contents (Elt F) → (⟨S4x3x256x512, .f32⟩ : BufTy).Contents (Elt F) → (⟨S4x3x256x512, .f32⟩ : BufTy).Contents (Elt F)),
    nullary main_cst_318 (constant S_ .f32 0x00000000#32),
    binary main_v317 main_cst_318 main_v318 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v314 main_v318 main_v319 (minimumf : (⟨S4x256x512, .f32⟩ : BufTy).Contents (Elt F) → (⟨S4x256x512, .f32⟩ : BufTy).Contents (Elt F) → (⟨S4x256x512, .f32⟩ : BufTy).Contents (Elt F)),
    nullary main_c_319 (constantI S_ 32 0#32),
    nullary main_c_320 (constantI S_ 32 0#32),
    nullary main_c_321 (constantI S_ 32 7#32),
    nullary main_c_322 (constantI S_ 32 1#32),
    unaryIndexed main_v0 ![main_c_319, main_c_320, main_c_321, main_c_322] ⟨S_, .i32⟩ main_v320 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v320 main_v321 (subf : (⟨S4x3x256x512, .f32⟩ : BufTy).Contents (Elt F) → (⟨S4x3x256x512, .f32⟩ : BufTy).Contents (Elt F) → (⟨S4x3x256x512, .f32⟩ : BufTy).Contents (Elt F)),
    binary main_v321 main_v321 main_v322 (mulf : (⟨S4x3x256x512, .f32⟩ : BufTy).Contents (Elt F) → (⟨S4x3x256x512, .f32⟩ : BufTy).Contents (Elt F) → (⟨S4x3x256x512, .f32⟩ : BufTy).Contents (Elt F)),
    nullary main_cst_323 (constant S_ .f32 0x00000000#32),
    binary main_v322 main_cst_323 main_v323 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v319 main_v323 main_v324 (minimumf : (⟨S4x256x512, .f32⟩ : BufTy).Contents (Elt F) → (⟨S4x256x512, .f32⟩ : BufTy).Contents (Elt F) → (⟨S4x256x512, .f32⟩ : BufTy).Contents (Elt F)),
    nullary main_c_324 (constantI S_ 32 0#32),
    nullary main_c_325 (constantI S_ 32 0#32),
    nullary main_c_326 (constantI S_ 32 7#32),
    nullary main_c_327 (constantI S_ 32 2#32),
    unaryIndexed main_v0 ![main_c_324, main_c_325, main_c_326, main_c_327] ⟨S_, .i32⟩ main_v325 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v325 main_v326 (subf : (⟨S4x3x256x512, .f32⟩ : BufTy).Contents (Elt F) → (⟨S4x3x256x512, .f32⟩ : BufTy).Contents (Elt F) → (⟨S4x3x256x512, .f32⟩ : BufTy).Contents (Elt F)),
    binary main_v326 main_v326 main_v327 (mulf : (⟨S4x3x256x512, .f32⟩ : BufTy).Contents (Elt F) → (⟨S4x3x256x512, .f32⟩ : BufTy).Contents (Elt F) → (⟨S4x3x256x512, .f32⟩ : BufTy).Contents (Elt F)),
    nullary main_cst_328 (constant S_ .f32 0x00000000#32),
    binary main_v327 main_cst_328 main_v328 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part10_eq (c : Dev nD) : main_part10 (F := F) c = seq ops10 := rfl

/-- Each of its operations touches TensorCore references only. -/
theorem ops10_sub : (ops10 : List (HloOp τ sig (Elt F))).Forall fun op => op.bufs ⊆ tcRefs τ sig := by
  simp only [ops10, List.Forall, nullary_bufs_sub, unary_bufs_sub, binary_bufs_sub, reshape_bufs_sub, unaryIndexed_bufs_sub, and_self]

/-- None of them allocates a buffer. -/
theorem ops10_fresh : ∀ op ∈ (ops10 : List (HloOp τ sig (Elt F))), op.fresh = ∅ := by
  intro op h; (repeat (cases h with | head => rfl | tail _ h => ?_)); exact nomatch h

/-- Window 11: operations 662 to 721 of @main, in order. -/
def ops11 : List (HloOp τ sig (Elt F)) :=
  [ binary main_v324 main_v328 main_v329 (minimumf : (⟨S4x256x512, .f32⟩ : BufTy).Contents (Elt F) → (⟨S4x256x512, .f32⟩ : BufTy).Contents (Elt F) → (⟨S4x256x512, .f32⟩ : BufTy).Contents (Elt F)),
    nullary main_c_329 (constantI S_ 32 0#32),
    nullary main_c_330 (constantI S_ 32 0#32),
    nullary main_c_331 (constantI S_ 32 7#32),
    nullary main_c_332 (constantI S_ 32 3#32),
    unaryIndexed main_v0 ![main_c_329, main_c_330, main_c_331, main_c_332] ⟨S_, .i32⟩ main_v330 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v330 main_v331 (subf : (⟨S4x3x256x512, .f32⟩ : BufTy).Contents (Elt F) → (⟨S4x3x256x512, .f32⟩ : BufTy).Contents (Elt F) → (⟨S4x3x256x512, .f32⟩ : BufTy).Contents (Elt F)),
    binary main_v331 main_v331 main_v332 (mulf : (⟨S4x3x256x512, .f32⟩ : BufTy).Contents (Elt F) → (⟨S4x3x256x512, .f32⟩ : BufTy).Contents (Elt F) → (⟨S4x3x256x512, .f32⟩ : BufTy).Contents (Elt F)),
    nullary main_cst_333 (constant S_ .f32 0x00000000#32),
    binary main_v332 main_cst_333 main_v333 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v329 main_v333 main_v334 (minimumf : (⟨S4x256x512, .f32⟩ : BufTy).Contents (Elt F) → (⟨S4x256x512, .f32⟩ : BufTy).Contents (Elt F) → (⟨S4x256x512, .f32⟩ : BufTy).Contents (Elt F)),
    nullary main_c_334 (constantI S_ 32 0#32),
    nullary main_c_335 (constantI S_ 32 0#32),
    nullary main_c_336 (constantI S_ 32 7#32),
    nullary main_c_337 (constantI S_ 32 4#32),
    unaryIndexed main_v0 ![main_c_334, main_c_335, main_c_336, main_c_337] ⟨S_, .i32⟩ main_v335 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v335 main_v336 (subf : (⟨S4x3x256x512, .f32⟩ : BufTy).Contents (Elt F) → (⟨S4x3x256x512, .f32⟩ : BufTy).Contents (Elt F) → (⟨S4x3x256x512, .f32⟩ : BufTy).Contents (Elt F)),
    binary main_v336 main_v336 main_v337 (mulf : (⟨S4x3x256x512, .f32⟩ : BufTy).Contents (Elt F) → (⟨S4x3x256x512, .f32⟩ : BufTy).Contents (Elt F) → (⟨S4x3x256x512, .f32⟩ : BufTy).Contents (Elt F)),
    nullary main_cst_338 (constant S_ .f32 0x00000000#32),
    binary main_v337 main_cst_338 main_v338 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v334 main_v338 main_v339 (minimumf : (⟨S4x256x512, .f32⟩ : BufTy).Contents (Elt F) → (⟨S4x256x512, .f32⟩ : BufTy).Contents (Elt F) → (⟨S4x256x512, .f32⟩ : BufTy).Contents (Elt F)),
    nullary main_c_339 (constantI S_ 32 0#32),
    nullary main_c_340 (constantI S_ 32 0#32),
    nullary main_c_341 (constantI S_ 32 7#32),
    nullary main_c_342 (constantI S_ 32 5#32),
    unaryIndexed main_v0 ![main_c_339, main_c_340, main_c_341, main_c_342] ⟨S_, .i32⟩ main_v340 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v340 main_v341 (subf : (⟨S4x3x256x512, .f32⟩ : BufTy).Contents (Elt F) → (⟨S4x3x256x512, .f32⟩ : BufTy).Contents (Elt F) → (⟨S4x3x256x512, .f32⟩ : BufTy).Contents (Elt F)),
    binary main_v341 main_v341 main_v342 (mulf : (⟨S4x3x256x512, .f32⟩ : BufTy).Contents (Elt F) → (⟨S4x3x256x512, .f32⟩ : BufTy).Contents (Elt F) → (⟨S4x3x256x512, .f32⟩ : BufTy).Contents (Elt F)),
    nullary main_cst_343 (constant S_ .f32 0x00000000#32),
    binary main_v342 main_cst_343 main_v343 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v339 main_v343 main_v344 (minimumf : (⟨S4x256x512, .f32⟩ : BufTy).Contents (Elt F) → (⟨S4x256x512, .f32⟩ : BufTy).Contents (Elt F) → (⟨S4x256x512, .f32⟩ : BufTy).Contents (Elt F)),
    nullary main_c_344 (constantI S_ 32 0#32),
    nullary main_c_345 (constantI S_ 32 0#32),
    nullary main_c_346 (constantI S_ 32 7#32),
    nullary main_c_347 (constantI S_ 32 6#32),
    unaryIndexed main_v0 ![main_c_344, main_c_345, main_c_346, main_c_347] ⟨S_, .i32⟩ main_v345 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v345 main_v346 (subf : (⟨S4x3x256x512, .f32⟩ : BufTy).Contents (Elt F) → (⟨S4x3x256x512, .f32⟩ : BufTy).Contents (Elt F) → (⟨S4x3x256x512, .f32⟩ : BufTy).Contents (Elt F)),
    binary main_v346 main_v346 main_v347 (mulf : (⟨S4x3x256x512, .f32⟩ : BufTy).Contents (Elt F) → (⟨S4x3x256x512, .f32⟩ : BufTy).Contents (Elt F) → (⟨S4x3x256x512, .f32⟩ : BufTy).Contents (Elt F)),
    nullary main_cst_348 (constant S_ .f32 0x00000000#32),
    binary main_v347 main_cst_348 main_v348 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v344 main_v348 main_v349 (minimumf : (⟨S4x256x512, .f32⟩ : BufTy).Contents (Elt F) → (⟨S4x256x512, .f32⟩ : BufTy).Contents (Elt F) → (⟨S4x256x512, .f32⟩ : BufTy).Contents (Elt F)),
    nullary main_c_349 (constantI S_ 32 0#32),
    nullary main_c_350 (constantI S_ 32 0#32),
    nullary main_c_351 (constantI S_ 32 7#32),
    nullary main_c_352 (constantI S_ 32 7#32),
    unaryIndexed main_v0 ![main_c_349, main_c_350, main_c_351, main_c_352] ⟨S_, .i32⟩ main_v350 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v350 main_v351 (subf : (⟨S4x3x256x512, .f32⟩ : BufTy).Contents (Elt F) → (⟨S4x3x256x512, .f32⟩ : BufTy).Contents (Elt F) → (⟨S4x3x256x512, .f32⟩ : BufTy).Contents (Elt F)),
    binary main_v351 main_v351 main_v352 (mulf : (⟨S4x3x256x512, .f32⟩ : BufTy).Contents (Elt F) → (⟨S4x3x256x512, .f32⟩ : BufTy).Contents (Elt F) → (⟨S4x3x256x512, .f32⟩ : BufTy).Contents (Elt F)),
    nullary main_cst_353 (constant S_ .f32 0x00000000#32),
    binary main_v352 main_cst_353 main_v353 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v349 main_v353 main_v354 (minimumf : (⟨S4x256x512, .f32⟩ : BufTy).Contents (Elt F) → (⟨S4x256x512, .f32⟩ : BufTy).Contents (Elt F) → (⟨S4x256x512, .f32⟩ : BufTy).Contents (Elt F)),
    nullary main_c_354 (constantI S_ 32 0#32),
    nullary main_c_355 (constantI S_ 32 0#32),
    nullary main_c_356 (constantI S_ 32 7#32),
    nullary main_c_357 (constantI S_ 32 8#32),
    unaryIndexed main_v0 ![main_c_354, main_c_355, main_c_356, main_c_357] ⟨S_, .i32⟩ main_v355 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v355 main_v356 (subf : (⟨S4x3x256x512, .f32⟩ : BufTy).Contents (Elt F) → (⟨S4x3x256x512, .f32⟩ : BufTy).Contents (Elt F) → (⟨S4x3x256x512, .f32⟩ : BufTy).Contents (Elt F)),
    binary main_v356 main_v356 main_v357 (mulf : (⟨S4x3x256x512, .f32⟩ : BufTy).Contents (Elt F) → (⟨S4x3x256x512, .f32⟩ : BufTy).Contents (Elt F) → (⟨S4x3x256x512, .f32⟩ : BufTy).Contents (Elt F)),
    nullary main_cst_358 (constant S_ .f32 0x00000000#32),
    binary main_v357 main_cst_358 main_v358 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part11_eq (c : Dev nD) : main_part11 (F := F) c = seq ops11 := rfl

/-- Each of its operations touches TensorCore references only. -/
theorem ops11_sub : (ops11 : List (HloOp τ sig (Elt F))).Forall fun op => op.bufs ⊆ tcRefs τ sig := by
  simp only [ops11, List.Forall, nullary_bufs_sub, unary_bufs_sub, binary_bufs_sub, reshape_bufs_sub, unaryIndexed_bufs_sub, and_self]

/-- None of them allocates a buffer. -/
theorem ops11_fresh : ∀ op ∈ (ops11 : List (HloOp τ sig (Elt F))), op.fresh = ∅ := by
  intro op h; (repeat (cases h with | head => rfl | tail _ h => ?_)); exact nomatch h

/-- Window 12: operations 722 to 781 of @main, in order. -/
def ops12 : List (HloOp τ sig (Elt F)) :=
  [ binary main_v354 main_v358 main_v359 (minimumf : (⟨S4x256x512, .f32⟩ : BufTy).Contents (Elt F) → (⟨S4x256x512, .f32⟩ : BufTy).Contents (Elt F) → (⟨S4x256x512, .f32⟩ : BufTy).Contents (Elt F)),
    nullary main_c_359 (constantI S_ 32 0#32),
    nullary main_c_360 (constantI S_ 32 0#32),
    nullary main_c_361 (constantI S_ 32 8#32),
    nullary main_c_362 (constantI S_ 32 0#32),
    unaryIndexed main_v0 ![main_c_359, main_c_360, main_c_361, main_c_362] ⟨S_, .i32⟩ main_v360 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v360 main_v361 (subf : (⟨S4x3x256x512, .f32⟩ : BufTy).Contents (Elt F) → (⟨S4x3x256x512, .f32⟩ : BufTy).Contents (Elt F) → (⟨S4x3x256x512, .f32⟩ : BufTy).Contents (Elt F)),
    binary main_v361 main_v361 main_v362 (mulf : (⟨S4x3x256x512, .f32⟩ : BufTy).Contents (Elt F) → (⟨S4x3x256x512, .f32⟩ : BufTy).Contents (Elt F) → (⟨S4x3x256x512, .f32⟩ : BufTy).Contents (Elt F)),
    nullary main_cst_363 (constant S_ .f32 0x00000000#32),
    binary main_v362 main_cst_363 main_v363 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v359 main_v363 main_v364 (minimumf : (⟨S4x256x512, .f32⟩ : BufTy).Contents (Elt F) → (⟨S4x256x512, .f32⟩ : BufTy).Contents (Elt F) → (⟨S4x256x512, .f32⟩ : BufTy).Contents (Elt F)),
    nullary main_c_364 (constantI S_ 32 0#32),
    nullary main_c_365 (constantI S_ 32 0#32),
    nullary main_c_366 (constantI S_ 32 8#32),
    nullary main_c_367 (constantI S_ 32 1#32),
    unaryIndexed main_v0 ![main_c_364, main_c_365, main_c_366, main_c_367] ⟨S_, .i32⟩ main_v365 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v365 main_v366 (subf : (⟨S4x3x256x512, .f32⟩ : BufTy).Contents (Elt F) → (⟨S4x3x256x512, .f32⟩ : BufTy).Contents (Elt F) → (⟨S4x3x256x512, .f32⟩ : BufTy).Contents (Elt F)),
    binary main_v366 main_v366 main_v367 (mulf : (⟨S4x3x256x512, .f32⟩ : BufTy).Contents (Elt F) → (⟨S4x3x256x512, .f32⟩ : BufTy).Contents (Elt F) → (⟨S4x3x256x512, .f32⟩ : BufTy).Contents (Elt F)),
    nullary main_cst_368 (constant S_ .f32 0x00000000#32),
    binary main_v367 main_cst_368 main_v368 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v364 main_v368 main_v369 (minimumf : (⟨S4x256x512, .f32⟩ : BufTy).Contents (Elt F) → (⟨S4x256x512, .f32⟩ : BufTy).Contents (Elt F) → (⟨S4x256x512, .f32⟩ : BufTy).Contents (Elt F)),
    nullary main_c_369 (constantI S_ 32 0#32),
    nullary main_c_370 (constantI S_ 32 0#32),
    nullary main_c_371 (constantI S_ 32 8#32),
    nullary main_c_372 (constantI S_ 32 2#32),
    unaryIndexed main_v0 ![main_c_369, main_c_370, main_c_371, main_c_372] ⟨S_, .i32⟩ main_v370 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v370 main_v371 (subf : (⟨S4x3x256x512, .f32⟩ : BufTy).Contents (Elt F) → (⟨S4x3x256x512, .f32⟩ : BufTy).Contents (Elt F) → (⟨S4x3x256x512, .f32⟩ : BufTy).Contents (Elt F)),
    binary main_v371 main_v371 main_v372 (mulf : (⟨S4x3x256x512, .f32⟩ : BufTy).Contents (Elt F) → (⟨S4x3x256x512, .f32⟩ : BufTy).Contents (Elt F) → (⟨S4x3x256x512, .f32⟩ : BufTy).Contents (Elt F)),
    nullary main_cst_373 (constant S_ .f32 0x00000000#32),
    binary main_v372 main_cst_373 main_v373 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v369 main_v373 main_v374 (minimumf : (⟨S4x256x512, .f32⟩ : BufTy).Contents (Elt F) → (⟨S4x256x512, .f32⟩ : BufTy).Contents (Elt F) → (⟨S4x256x512, .f32⟩ : BufTy).Contents (Elt F)),
    nullary main_c_374 (constantI S_ 32 0#32),
    nullary main_c_375 (constantI S_ 32 0#32),
    nullary main_c_376 (constantI S_ 32 8#32),
    nullary main_c_377 (constantI S_ 32 3#32),
    unaryIndexed main_v0 ![main_c_374, main_c_375, main_c_376, main_c_377] ⟨S_, .i32⟩ main_v375 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v375 main_v376 (subf : (⟨S4x3x256x512, .f32⟩ : BufTy).Contents (Elt F) → (⟨S4x3x256x512, .f32⟩ : BufTy).Contents (Elt F) → (⟨S4x3x256x512, .f32⟩ : BufTy).Contents (Elt F)),
    binary main_v376 main_v376 main_v377 (mulf : (⟨S4x3x256x512, .f32⟩ : BufTy).Contents (Elt F) → (⟨S4x3x256x512, .f32⟩ : BufTy).Contents (Elt F) → (⟨S4x3x256x512, .f32⟩ : BufTy).Contents (Elt F)),
    nullary main_cst_378 (constant S_ .f32 0x00000000#32),
    binary main_v377 main_cst_378 main_v378 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v374 main_v378 main_v379 (minimumf : (⟨S4x256x512, .f32⟩ : BufTy).Contents (Elt F) → (⟨S4x256x512, .f32⟩ : BufTy).Contents (Elt F) → (⟨S4x256x512, .f32⟩ : BufTy).Contents (Elt F)),
    nullary main_c_379 (constantI S_ 32 0#32),
    nullary main_c_380 (constantI S_ 32 0#32),
    nullary main_c_381 (constantI S_ 32 8#32),
    nullary main_c_382 (constantI S_ 32 4#32),
    unaryIndexed main_v0 ![main_c_379, main_c_380, main_c_381, main_c_382] ⟨S_, .i32⟩ main_v380 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v380 main_v381 (subf : (⟨S4x3x256x512, .f32⟩ : BufTy).Contents (Elt F) → (⟨S4x3x256x512, .f32⟩ : BufTy).Contents (Elt F) → (⟨S4x3x256x512, .f32⟩ : BufTy).Contents (Elt F)),
    binary main_v381 main_v381 main_v382 (mulf : (⟨S4x3x256x512, .f32⟩ : BufTy).Contents (Elt F) → (⟨S4x3x256x512, .f32⟩ : BufTy).Contents (Elt F) → (⟨S4x3x256x512, .f32⟩ : BufTy).Contents (Elt F)),
    nullary main_cst_383 (constant S_ .f32 0x00000000#32),
    binary main_v382 main_cst_383 main_v383 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v379 main_v383 main_v384 (minimumf : (⟨S4x256x512, .f32⟩ : BufTy).Contents (Elt F) → (⟨S4x256x512, .f32⟩ : BufTy).Contents (Elt F) → (⟨S4x256x512, .f32⟩ : BufTy).Contents (Elt F)),
    nullary main_c_384 (constantI S_ 32 0#32),
    nullary main_c_385 (constantI S_ 32 0#32),
    nullary main_c_386 (constantI S_ 32 8#32),
    nullary main_c_387 (constantI S_ 32 5#32),
    unaryIndexed main_v0 ![main_c_384, main_c_385, main_c_386, main_c_387] ⟨S_, .i32⟩ main_v385 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v385 main_v386 (subf : (⟨S4x3x256x512, .f32⟩ : BufTy).Contents (Elt F) → (⟨S4x3x256x512, .f32⟩ : BufTy).Contents (Elt F) → (⟨S4x3x256x512, .f32⟩ : BufTy).Contents (Elt F)),
    binary main_v386 main_v386 main_v387 (mulf : (⟨S4x3x256x512, .f32⟩ : BufTy).Contents (Elt F) → (⟨S4x3x256x512, .f32⟩ : BufTy).Contents (Elt F) → (⟨S4x3x256x512, .f32⟩ : BufTy).Contents (Elt F)),
    nullary main_cst_388 (constant S_ .f32 0x00000000#32),
    binary main_v387 main_cst_388 main_v388 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)) ]

/-- The printed window is the sequence of its operations. -/
theorem part12_eq (c : Dev nD) : main_part12 (F := F) c = seq ops12 := rfl

/-- Each of its operations touches TensorCore references only. -/
theorem ops12_sub : (ops12 : List (HloOp τ sig (Elt F))).Forall fun op => op.bufs ⊆ tcRefs τ sig := by
  simp only [ops12, List.Forall, nullary_bufs_sub, unary_bufs_sub, binary_bufs_sub, reshape_bufs_sub, unaryIndexed_bufs_sub, and_self]

/-- None of them allocates a buffer. -/
theorem ops12_fresh : ∀ op ∈ (ops12 : List (HloOp τ sig (Elt F))), op.fresh = ∅ := by
  intro op h; (repeat (cases h with | head => rfl | tail _ h => ?_)); exact nomatch h

/-- Window 13: operations 782 to 814 of @main, in order. -/
def ops13 : List (HloOp τ sig (Elt F)) :=
  [ binary main_v384 main_v388 main_v389 (minimumf : (⟨S4x256x512, .f32⟩ : BufTy).Contents (Elt F) → (⟨S4x256x512, .f32⟩ : BufTy).Contents (Elt F) → (⟨S4x256x512, .f32⟩ : BufTy).Contents (Elt F)),
    nullary main_c_389 (constantI S_ 32 0#32),
    nullary main_c_390 (constantI S_ 32 0#32),
    nullary main_c_391 (constantI S_ 32 8#32),
    nullary main_c_392 (constantI S_ 32 6#32),
    unaryIndexed main_v0 ![main_c_389, main_c_390, main_c_391, main_c_392] ⟨S_, .i32⟩ main_v390 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v390 main_v391 (subf : (⟨S4x3x256x512, .f32⟩ : BufTy).Contents (Elt F) → (⟨S4x3x256x512, .f32⟩ : BufTy).Contents (Elt F) → (⟨S4x3x256x512, .f32⟩ : BufTy).Contents (Elt F)),
    binary main_v391 main_v391 main_v392 (mulf : (⟨S4x3x256x512, .f32⟩ : BufTy).Contents (Elt F) → (⟨S4x3x256x512, .f32⟩ : BufTy).Contents (Elt F) → (⟨S4x3x256x512, .f32⟩ : BufTy).Contents (Elt F)),
    nullary main_cst_393 (constant S_ .f32 0x00000000#32),
    binary main_v392 main_cst_393 main_v393 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v389 main_v393 main_v394 (minimumf : (⟨S4x256x512, .f32⟩ : BufTy).Contents (Elt F) → (⟨S4x256x512, .f32⟩ : BufTy).Contents (Elt F) → (⟨S4x256x512, .f32⟩ : BufTy).Contents (Elt F)),
    nullary main_c_394 (constantI S_ 32 0#32),
    nullary main_c_395 (constantI S_ 32 0#32),
    nullary main_c_396 (constantI S_ 32 8#32),
    nullary main_c_397 (constantI S_ 32 7#32),
    unaryIndexed main_v0 ![main_c_394, main_c_395, main_c_396, main_c_397] ⟨S_, .i32⟩ main_v395 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v395 main_v396 (subf : (⟨S4x3x256x512, .f32⟩ : BufTy).Contents (Elt F) → (⟨S4x3x256x512, .f32⟩ : BufTy).Contents (Elt F) → (⟨S4x3x256x512, .f32⟩ : BufTy).Contents (Elt F)),
    binary main_v396 main_v396 main_v397 (mulf : (⟨S4x3x256x512, .f32⟩ : BufTy).Contents (Elt F) → (⟨S4x3x256x512, .f32⟩ : BufTy).Contents (Elt F) → (⟨S4x3x256x512, .f32⟩ : BufTy).Contents (Elt F)),
    nullary main_cst_398 (constant S_ .f32 0x00000000#32),
    binary main_v397 main_cst_398 main_v398 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v394 main_v398 main_v399 (minimumf : (⟨S4x256x512, .f32⟩ : BufTy).Contents (Elt F) → (⟨S4x256x512, .f32⟩ : BufTy).Contents (Elt F) → (⟨S4x256x512, .f32⟩ : BufTy).Contents (Elt F)),
    nullary main_c_399 (constantI S_ 32 0#32),
    nullary main_c_400 (constantI S_ 32 0#32),
    nullary main_c_401 (constantI S_ 32 8#32),
    nullary main_c_402 (constantI S_ 32 8#32),
    unaryIndexed main_v0 ![main_c_399, main_c_400, main_c_401, main_c_402] ⟨S_, .i32⟩ main_v400 ((fun x i => Host.dynamicSlice S4x3x256x512 x (fun k => (i k (Shape.Idx.first h_S_)).toInt) sliceFits_S4x3x264x520_S4x3x256x512) : (⟨S4x3x264x520, .f32⟩ : BufTy).Contents (Elt F) → (Fin 4 → (⟨S_, .i32⟩ : BufTy).Contents (Elt F)) → (⟨S4x3x256x512, .f32⟩ : BufTy).Contents (Elt F)),
    binary main_arg0 main_v400 main_v401 (subf : (⟨S4x3x256x512, .f32⟩ : BufTy).Contents (Elt F) → (⟨S4x3x256x512, .f32⟩ : BufTy).Contents (Elt F) → (⟨S4x3x256x512, .f32⟩ : BufTy).Contents (Elt F)),
    binary main_v401 main_v401 main_v402 (mulf : (⟨S4x3x256x512, .f32⟩ : BufTy).Contents (Elt F) → (⟨S4x3x256x512, .f32⟩ : BufTy).Contents (Elt F) → (⟨S4x3x256x512, .f32⟩ : BufTy).Contents (Elt F)),
    nullary main_cst_403 (constant S_ .f32 0x00000000#32),
    binary main_v402 main_cst_403 main_v403 ((fun x v => Host.reduceAdd x v reducesTo_S4x3x256x512_S4x256x512_d1 h_S_) : (⟨S4x3x256x512, .f32⟩ : BufTy).Contents (Elt F) → (⟨S_, .f32⟩ : BufTy).Contents (Elt F) → (⟨S4x256x512, .f32⟩ : BufTy).Contents (Elt F)),
    binary main_v399 main_v403 main_v404 (minimumf : (⟨S4x256x512, .f32⟩ : BufTy).Contents (Elt F) → (⟨S4x256x512, .f32⟩ : BufTy).Contents (Elt F) → (⟨S4x256x512, .f32⟩ : BufTy).Contents (Elt F)),
    unary main_v404 main_v405 (Host.sqrt : (⟨S4x256x512, .f32⟩ : BufTy).Contents (Elt F) → (⟨S4x256x512, .f32⟩ : BufTy).Contents (Elt F)),
    reshape main_v405 main_v406 rfl shapeCasts_S4x256x512_S4x1x131072 ]

/-- The printed window is the sequence of its operations. -/
theorem part13_eq (c : Dev nD) : main_part13 (F := F) c = seq ops13 := rfl

/-- Each of its operations touches TensorCore references only. -/
theorem ops13_sub : (ops13 : List (HloOp τ sig (Elt F))).Forall fun op => op.bufs ⊆ tcRefs τ sig := by
  simp only [ops13, List.Forall, nullary_bufs_sub, unary_bufs_sub, binary_bufs_sub, reshape_bufs_sub, unaryIndexed_bufs_sub, and_self]

/-- None of them allocates a buffer. -/
theorem ops13_fresh : ∀ op ∈ (ops13 : List (HloOp τ sig (Elt F))), op.fresh = ∅ := by
  intro op h; (repeat (cases h with | head => rfl | tail _ h => ?_)); exact nomatch h

end Cert.ReferenceIdeal.RunP

end
-- ==== Proof.RefKeeps.lean ====
/-
  What the reference's windows leave alone.

  No operation of @main writes either argument, and after the padding (in window 0) no operation writes the padded array.
  So the fold of a whole window's results leaves those buffers as it found them: one rewriting step per window, whatever
  the window's length.
-/
import proofs.«179037_j13692355740339_1_alg».proof.Proof.RefOps

set_option maxRecDepth 16384
set_option maxHeartbeats 4000000

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- No operation of window 0 writes an argument of @main. -/
theorem ops0_keeps {r : Ref sig .tc} (hr : r = main_arg0 ∨ r = main_arg1) :
    ∀ op ∈ (ops0 : List (HloOp τ sig (Elt F))), Proc.devRef .tc r ∉ op.writes := by
  intro op h
  rcases hr with rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep0_arg0 (W : Valuation τ sig (Elt F)) : after ops0 W (Proc.devRef .tc main_arg0) = W (Proc.devRef .tc main_arg0) :=
  after_of_forall_not_mem _ _ (ops0_keeps (.inl rfl))
theorem keep0_arg1 (W : Valuation τ sig (Elt F)) : after ops0 W (Proc.devRef .tc main_arg1) = W (Proc.devRef .tc main_arg1) :=
  after_of_forall_not_mem _ _ (ops0_keeps (.inr (rfl)))

/-- No operation of window 1 writes an argument of @main or the padded array. -/
theorem ops1_keeps {r : Ref sig .tc} (hr : r = main_arg0 ∨ r = main_arg1 ∨ r = main_v0) :
    ∀ op ∈ (ops1 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep1_arg0 (W : Valuation τ sig (Elt F)) : after ops1 W (Proc.devRef .tc main_arg0) = W (Proc.devRef .tc main_arg0) :=
  after_of_forall_not_mem _ _ (ops1_keeps (.inl rfl))
theorem keep1_arg1 (W : Valuation τ sig (Elt F)) : after ops1 W (Proc.devRef .tc main_arg1) = W (Proc.devRef .tc main_arg1) :=
  after_of_forall_not_mem _ _ (ops1_keeps (.inr (.inl rfl)))
theorem keep1_v0 (W : Valuation τ sig (Elt F)) : after ops1 W (Proc.devRef .tc main_v0) = W (Proc.devRef .tc main_v0) :=
  after_of_forall_not_mem _ _ (ops1_keeps (.inr (.inr rfl)))

/-- No operation of window 2 writes an argument of @main or the padded array. -/
theorem ops2_keeps {r : Ref sig .tc} (hr : r = main_arg0 ∨ r = main_arg1 ∨ r = main_v0) :
    ∀ op ∈ (ops2 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep2_arg0 (W : Valuation τ sig (Elt F)) : after ops2 W (Proc.devRef .tc main_arg0) = W (Proc.devRef .tc main_arg0) :=
  after_of_forall_not_mem _ _ (ops2_keeps (.inl rfl))
theorem keep2_arg1 (W : Valuation τ sig (Elt F)) : after ops2 W (Proc.devRef .tc main_arg1) = W (Proc.devRef .tc main_arg1) :=
  after_of_forall_not_mem _ _ (ops2_keeps (.inr (.inl rfl)))
theorem keep2_v0 (W : Valuation τ sig (Elt F)) : after ops2 W (Proc.devRef .tc main_v0) = W (Proc.devRef .tc main_v0) :=
  after_of_forall_not_mem _ _ (ops2_keeps (.inr (.inr rfl)))

/-- No operation of window 3 writes an argument of @main or the padded array. -/
theorem ops3_keeps {r : Ref sig .tc} (hr : r = main_arg0 ∨ r = main_arg1 ∨ r = main_v0) :
    ∀ op ∈ (ops3 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep3_arg0 (W : Valuation τ sig (Elt F)) : after ops3 W (Proc.devRef .tc main_arg0) = W (Proc.devRef .tc main_arg0) :=
  after_of_forall_not_mem _ _ (ops3_keeps (.inl rfl))
theorem keep3_arg1 (W : Valuation τ sig (Elt F)) : after ops3 W (Proc.devRef .tc main_arg1) = W (Proc.devRef .tc main_arg1) :=
  after_of_forall_not_mem _ _ (ops3_keeps (.inr (.inl rfl)))
theorem keep3_v0 (W : Valuation τ sig (Elt F)) : after ops3 W (Proc.devRef .tc main_v0) = W (Proc.devRef .tc main_v0) :=
  after_of_forall_not_mem _ _ (ops3_keeps (.inr (.inr rfl)))

/-- No operation of window 4 writes an argument of @main or the padded array. -/
theorem ops4_keeps {r : Ref sig .tc} (hr : r = main_arg0 ∨ r = main_arg1 ∨ r = main_v0) :
    ∀ op ∈ (ops4 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep4_arg0 (W : Valuation τ sig (Elt F)) : after ops4 W (Proc.devRef .tc main_arg0) = W (Proc.devRef .tc main_arg0) :=
  after_of_forall_not_mem _ _ (ops4_keeps (.inl rfl))
theorem keep4_arg1 (W : Valuation τ sig (Elt F)) : after ops4 W (Proc.devRef .tc main_arg1) = W (Proc.devRef .tc main_arg1) :=
  after_of_forall_not_mem _ _ (ops4_keeps (.inr (.inl rfl)))
theorem keep4_v0 (W : Valuation τ sig (Elt F)) : after ops4 W (Proc.devRef .tc main_v0) = W (Proc.devRef .tc main_v0) :=
  after_of_forall_not_mem _ _ (ops4_keeps (.inr (.inr rfl)))

/-- No operation of window 5 writes an argument of @main or the padded array. -/
theorem ops5_keeps {r : Ref sig .tc} (hr : r = main_arg0 ∨ r = main_arg1 ∨ r = main_v0) :
    ∀ op ∈ (ops5 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep5_arg0 (W : Valuation τ sig (Elt F)) : after ops5 W (Proc.devRef .tc main_arg0) = W (Proc.devRef .tc main_arg0) :=
  after_of_forall_not_mem _ _ (ops5_keeps (.inl rfl))
theorem keep5_arg1 (W : Valuation τ sig (Elt F)) : after ops5 W (Proc.devRef .tc main_arg1) = W (Proc.devRef .tc main_arg1) :=
  after_of_forall_not_mem _ _ (ops5_keeps (.inr (.inl rfl)))
theorem keep5_v0 (W : Valuation τ sig (Elt F)) : after ops5 W (Proc.devRef .tc main_v0) = W (Proc.devRef .tc main_v0) :=
  after_of_forall_not_mem _ _ (ops5_keeps (.inr (.inr rfl)))

/-- No operation of window 6 writes an argument of @main or the padded array. -/
theorem ops6_keeps {r : Ref sig .tc} (hr : r = main_arg0 ∨ r = main_arg1 ∨ r = main_v0) :
    ∀ op ∈ (ops6 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep6_arg0 (W : Valuation τ sig (Elt F)) : after ops6 W (Proc.devRef .tc main_arg0) = W (Proc.devRef .tc main_arg0) :=
  after_of_forall_not_mem _ _ (ops6_keeps (.inl rfl))
theorem keep6_arg1 (W : Valuation τ sig (Elt F)) : after ops6 W (Proc.devRef .tc main_arg1) = W (Proc.devRef .tc main_arg1) :=
  after_of_forall_not_mem _ _ (ops6_keeps (.inr (.inl rfl)))
theorem keep6_v0 (W : Valuation τ sig (Elt F)) : after ops6 W (Proc.devRef .tc main_v0) = W (Proc.devRef .tc main_v0) :=
  after_of_forall_not_mem _ _ (ops6_keeps (.inr (.inr rfl)))

/-- No operation of window 7 writes an argument of @main or the padded array. -/
theorem ops7_keeps {r : Ref sig .tc} (hr : r = main_arg0 ∨ r = main_arg1 ∨ r = main_v0) :
    ∀ op ∈ (ops7 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep7_arg0 (W : Valuation τ sig (Elt F)) : after ops7 W (Proc.devRef .tc main_arg0) = W (Proc.devRef .tc main_arg0) :=
  after_of_forall_not_mem _ _ (ops7_keeps (.inl rfl))
theorem keep7_arg1 (W : Valuation τ sig (Elt F)) : after ops7 W (Proc.devRef .tc main_arg1) = W (Proc.devRef .tc main_arg1) :=
  after_of_forall_not_mem _ _ (ops7_keeps (.inr (.inl rfl)))
theorem keep7_v0 (W : Valuation τ sig (Elt F)) : after ops7 W (Proc.devRef .tc main_v0) = W (Proc.devRef .tc main_v0) :=
  after_of_forall_not_mem _ _ (ops7_keeps (.inr (.inr rfl)))

/-- No operation of window 8 writes an argument of @main or the padded array. -/
theorem ops8_keeps {r : Ref sig .tc} (hr : r = main_arg0 ∨ r = main_arg1 ∨ r = main_v0) :
    ∀ op ∈ (ops8 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep8_arg0 (W : Valuation τ sig (Elt F)) : after ops8 W (Proc.devRef .tc main_arg0) = W (Proc.devRef .tc main_arg0) :=
  after_of_forall_not_mem _ _ (ops8_keeps (.inl rfl))
theorem keep8_arg1 (W : Valuation τ sig (Elt F)) : after ops8 W (Proc.devRef .tc main_arg1) = W (Proc.devRef .tc main_arg1) :=
  after_of_forall_not_mem _ _ (ops8_keeps (.inr (.inl rfl)))
theorem keep8_v0 (W : Valuation τ sig (Elt F)) : after ops8 W (Proc.devRef .tc main_v0) = W (Proc.devRef .tc main_v0) :=
  after_of_forall_not_mem _ _ (ops8_keeps (.inr (.inr rfl)))

/-- No operation of window 9 writes an argument of @main or the padded array. -/
theorem ops9_keeps {r : Ref sig .tc} (hr : r = main_arg0 ∨ r = main_arg1 ∨ r = main_v0) :
    ∀ op ∈ (ops9 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep9_arg0 (W : Valuation τ sig (Elt F)) : after ops9 W (Proc.devRef .tc main_arg0) = W (Proc.devRef .tc main_arg0) :=
  after_of_forall_not_mem _ _ (ops9_keeps (.inl rfl))
theorem keep9_arg1 (W : Valuation τ sig (Elt F)) : after ops9 W (Proc.devRef .tc main_arg1) = W (Proc.devRef .tc main_arg1) :=
  after_of_forall_not_mem _ _ (ops9_keeps (.inr (.inl rfl)))
theorem keep9_v0 (W : Valuation τ sig (Elt F)) : after ops9 W (Proc.devRef .tc main_v0) = W (Proc.devRef .tc main_v0) :=
  after_of_forall_not_mem _ _ (ops9_keeps (.inr (.inr rfl)))

/-- No operation of window 10 writes an argument of @main or the padded array. -/
theorem ops10_keeps {r : Ref sig .tc} (hr : r = main_arg0 ∨ r = main_arg1 ∨ r = main_v0) :
    ∀ op ∈ (ops10 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep10_arg0 (W : Valuation τ sig (Elt F)) : after ops10 W (Proc.devRef .tc main_arg0) = W (Proc.devRef .tc main_arg0) :=
  after_of_forall_not_mem _ _ (ops10_keeps (.inl rfl))
theorem keep10_arg1 (W : Valuation τ sig (Elt F)) : after ops10 W (Proc.devRef .tc main_arg1) = W (Proc.devRef .tc main_arg1) :=
  after_of_forall_not_mem _ _ (ops10_keeps (.inr (.inl rfl)))
theorem keep10_v0 (W : Valuation τ sig (Elt F)) : after ops10 W (Proc.devRef .tc main_v0) = W (Proc.devRef .tc main_v0) :=
  after_of_forall_not_mem _ _ (ops10_keeps (.inr (.inr rfl)))

/-- No operation of window 11 writes an argument of @main or the padded array. -/
theorem ops11_keeps {r : Ref sig .tc} (hr : r = main_arg0 ∨ r = main_arg1 ∨ r = main_v0) :
    ∀ op ∈ (ops11 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep11_arg0 (W : Valuation τ sig (Elt F)) : after ops11 W (Proc.devRef .tc main_arg0) = W (Proc.devRef .tc main_arg0) :=
  after_of_forall_not_mem _ _ (ops11_keeps (.inl rfl))
theorem keep11_arg1 (W : Valuation τ sig (Elt F)) : after ops11 W (Proc.devRef .tc main_arg1) = W (Proc.devRef .tc main_arg1) :=
  after_of_forall_not_mem _ _ (ops11_keeps (.inr (.inl rfl)))
theorem keep11_v0 (W : Valuation τ sig (Elt F)) : after ops11 W (Proc.devRef .tc main_v0) = W (Proc.devRef .tc main_v0) :=
  after_of_forall_not_mem _ _ (ops11_keeps (.inr (.inr rfl)))

/-- No operation of window 12 writes an argument of @main or the padded array. -/
theorem ops12_keeps {r : Ref sig .tc} (hr : r = main_arg0 ∨ r = main_arg1 ∨ r = main_v0) :
    ∀ op ∈ (ops12 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep12_arg0 (W : Valuation τ sig (Elt F)) : after ops12 W (Proc.devRef .tc main_arg0) = W (Proc.devRef .tc main_arg0) :=
  after_of_forall_not_mem _ _ (ops12_keeps (.inl rfl))
theorem keep12_arg1 (W : Valuation τ sig (Elt F)) : after ops12 W (Proc.devRef .tc main_arg1) = W (Proc.devRef .tc main_arg1) :=
  after_of_forall_not_mem _ _ (ops12_keeps (.inr (.inl rfl)))
theorem keep12_v0 (W : Valuation τ sig (Elt F)) : after ops12 W (Proc.devRef .tc main_v0) = W (Proc.devRef .tc main_v0) :=
  after_of_forall_not_mem _ _ (ops12_keeps (.inr (.inr rfl)))

/-- No operation of window 13 writes an argument of @main or the padded array. -/
theorem ops13_keeps {r : Ref sig .tc} (hr : r = main_arg0 ∨ r = main_arg1 ∨ r = main_v0) :
    ∀ op ∈ (ops13 : List (HloOp τ sig (Elt F))), Proc.devRef .tc r ∉ op.writes := by
  intro op h
  rcases hr with rfl | rfl | rfl
  all_goals
    (repeat (cases h with
      | head =>
        simp only [nullary_writes, unary_writes, binary_writes, reshape_writes, unaryIndexed_writes, Finset.mem_singleton]
        exact devRef_ne_of_ne (by decide)
      | tail _ h => ?_))
    exact nomatch h

theorem keep13_arg0 (W : Valuation τ sig (Elt F)) : after ops13 W (Proc.devRef .tc main_arg0) = W (Proc.devRef .tc main_arg0) :=
  after_of_forall_not_mem _ _ (ops13_keeps (.inl rfl))
theorem keep13_arg1 (W : Valuation τ sig (Elt F)) : after ops13 W (Proc.devRef .tc main_arg1) = W (Proc.devRef .tc main_arg1) :=
  after_of_forall_not_mem _ _ (ops13_keeps (.inr (.inl rfl)))
theorem keep13_v0 (W : Valuation τ sig (Elt F)) : after ops13 W (Proc.devRef .tc main_v0) = W (Proc.devRef .tc main_v0) :=
  after_of_forall_not_mem _ _ (ops13_keeps (.inr (.inr rfl)))

end Cert.ReferenceIdeal.RunP

end
-- ==== Proof.RefTerm.lean ====
/-
  The reference's result as one term of its two arguments.

  `res_main_v406 m c` composes the reference program's operations on the launch contents of its two arguments: the second
  argument padded by four zero pixels on each side of the two image axes; for each of the 9 × 9 displacements `(a, b)`, in
  row-major order, the padded array read through the window displaced by `(a, b)`, subtracted from the first argument,
  squared, and summed over the channel axis from `0`; the running minimum of those 81 arrays; its square root; and the
  reshape to [4, 1, 131072]. It is the term the program's run leaves in its result buffer (RefValue.lean proves that), and
  the term the kernel's array is compared with (Search.lean).
-/
import proofs.«179037_j13692355740339_1_alg».proof.Proof.Gen.ReferenceIdeal
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- The result buffer's composed term of the two arguments. -/
def res_main_v406 (m : (ℓ : Loc nD τ sig) → Buf (Elt F) ℓ) (c : Dev nD) : Buf (Elt F) ((c.tc : Thread nD τ).loc main_v406) :=
  shapeCast _ (Host.sqrt (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (minimumf (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 0#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 1#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 2#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 3#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 4#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 5#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 6#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 7#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 0#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 0#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 1#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 1#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 2#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 2#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 3#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 3#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 4#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 4#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 5#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 5#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 6#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 6#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 7#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 7#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_)) (Host.reduceAdd (mulf (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 8#32] : Fin 4 → (⟨S_, .i32⟩ : BufTy).Contents (Elt F))) k (Shape.Idx.first h_S_)).toInt) sliceFits_S4x3x264x520_S4x3x256x512)) (subf (m ((c.tc : Thread nD τ).loc main_arg0)) (Host.dynamicSlice S4x3x256x512 (pad S4x3x264x520 ![0, 0, 4, 4] ![0, 0, 4, 4] ![0, 0, 0, 0] (m ((c.tc : Thread nD τ).loc main_arg1)) (sitofp .f32 (constantI S_ 32 0#32)) pads_S4x3x256x512_S4x3x264x520_000_000_440_440 h_S_) (fun k => (((![constantI S_ 32 0#32, constantI S_ 32 0#32, constantI S_ 32 8#32, constantI S_ 32 8#32] : Fin 4 → (⟨S_, .i32⟩ : BufTy).Contents (Elt F))) k (Shape.Idx.first h_S_)).toInt) sliceFits_S4x3x264x520_S4x3x256x512))) (constant S_ .f32 0x00000000#32) reducesTo_S4x3x256x512_S4x256x512_d1 h_S_))) shapeCasts_S4x256x512_S4x1x131072

end Cert.ReferenceIdeal.RunP

end
-- ==== Proof.RefRun.lean ====
/-
  The reference program's @main as one line of operations.

  @main is its fourteen windows one after the other, so it is the sequence of the windows' operations appended
  (`main_eq`: a sequence of two appended lists is the first list's sequence continued by the second's). Every operation
  touches TensorCore buffers only and none allocates; no operation writes either argument, so the fold of all the results
  leaves the arguments as launched (`kept`). Two small facts for reading the fold: the fold of two appended lines is the
  second's over the first's, and the four start indices of a displaced window are four lookups.
-/
import proofs.«179037_j13692355740339_1_alg».proof.Proof.RefOps
import proofs.«179037_j13692355740339_1_alg».proof.Proof.RefKeeps
import proofs.«179037_j13692355740339_1_alg».proof.Proof.RefTerm

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's 814 operations, in order: the fourteen windows appended. -/
def ops : List (HloOp τ sig (Elt F)) := ops0 ++ (ops1 ++ (ops2 ++ (ops3 ++ (ops4 ++ (ops5 ++ (ops6 ++ (ops7 ++ (ops8 ++ (ops9 ++ (ops10 ++ (ops11 ++ (ops12 ++ (ops13)))))))))))))

/-- @main is the sequence of its operations. -/
theorem main_eq (c : Dev nD) : main (F := F) c = seq ops := by
  unfold main
  simp only [part0_eq, part1_eq, part2_eq, part3_eq, part4_eq, part5_eq, part6_eq, part7_eq, part8_eq, part9_eq, part10_eq, part11_eq, part12_eq, part13_eq, ops, seq_append]

theorem scopedRefs_eq : (Finset.univ.filter fun b : Ref sig .tc => b.isScoped) = ∅ := by decide
theorem scopedSems_eq : (Finset.univ.filter fun sm : SemLoc sig => sm.isScoped .tc) = ∅ := by decide

/-- An operation of @main is an operation of one of the windows. -/
theorem mem_ops {op : HloOp τ sig (Elt F)} (h : op ∈ (ops : List (HloOp τ sig (Elt F)))) :
    op ∈ (ops0 : List (HloOp τ sig (Elt F))) ∨ op ∈ (ops1 : List (HloOp τ sig (Elt F))) ∨ op ∈ (ops2 : List (HloOp τ sig (Elt F))) ∨ op ∈ (ops3 : List (HloOp τ sig (Elt F))) ∨ op ∈ (ops4 : List (HloOp τ sig (Elt F))) ∨ op ∈ (ops5 : List (HloOp τ sig (Elt F))) ∨ op ∈ (ops6 : List (HloOp τ sig (Elt F))) ∨ op ∈ (ops7 : List (HloOp τ sig (Elt F))) ∨ op ∈ (ops8 : List (HloOp τ sig (Elt F))) ∨ op ∈ (ops9 : List (HloOp τ sig (Elt F))) ∨ op ∈ (ops10 : List (HloOp τ sig (Elt F))) ∨ op ∈ (ops11 : List (HloOp τ sig (Elt F))) ∨ op ∈ (ops12 : List (HloOp τ sig (Elt F))) ∨ op ∈ (ops13 : List (HloOp τ sig (Elt F))) := by
  simpa only [ops, List.mem_append] using h

theorem ops_sub : (ops : List (HloOp τ sig (Elt F))).Forall fun op => op.bufs ⊆ tcRefs τ sig :=
  List.forall_iff_forall_mem.mpr fun op h => by
    rcases mem_ops h with h | h | h | h | h | h | h | h | h | h | h | h | h | h
    · exact List.forall_iff_forall_mem.mp ops0_sub op h
    · exact List.forall_iff_forall_mem.mp ops1_sub op h
    · exact List.forall_iff_forall_mem.mp ops2_sub op h
    · exact List.forall_iff_forall_mem.mp ops3_sub op h
    · exact List.forall_iff_forall_mem.mp ops4_sub op h
    · exact List.forall_iff_forall_mem.mp ops5_sub op h
    · exact List.forall_iff_forall_mem.mp ops6_sub op h
    · exact List.forall_iff_forall_mem.mp ops7_sub op h
    · exact List.forall_iff_forall_mem.mp ops8_sub op h
    · exact List.forall_iff_forall_mem.mp ops9_sub op h
    · exact List.forall_iff_forall_mem.mp ops10_sub op h
    · exact List.forall_iff_forall_mem.mp ops11_sub op h
    · exact List.forall_iff_forall_mem.mp ops12_sub op h
    · exact List.forall_iff_forall_mem.mp ops13_sub op h

theorem ops_fresh : ∀ op ∈ (ops : List (HloOp τ sig (Elt F))), op.fresh = ∅ := fun op h => by
  rcases mem_ops h with h | h | h | h | h | h | h | h | h | h | h | h | h | h
  · exact ops0_fresh op h
  · exact ops1_fresh op h
  · exact ops2_fresh op h
  · exact ops3_fresh op h
  · exact ops4_fresh op h
  · exact ops5_fresh op h
  · exact ops6_fresh op h
  · exact ops7_fresh op h
  · exact ops8_fresh op h
  · exact ops9_fresh op h
  · exact ops10_fresh op h
  · exact ops11_fresh op h
  · exact ops12_fresh op h
  · exact ops13_fresh op h

/-- The fold of two appended lines is the second's fold over the first's. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- The fold leaves the two arguments as launched: no operation writes them. -/
theorem kept {r : Ref sig .tc} (hr : r = main_arg0 ∨ r = main_arg1) (V : Valuation τ sig (Elt F)) :
    after (ops : List (HloOp τ sig (Elt F))) V (Proc.devRef .tc r) = V (Proc.devRef .tc r) :=
  after_of_forall_not_mem ops V fun op h => by
    rcases mem_ops h with h | h | h | h | h | h | h | h | h | h | h | h | h | h
    · exact ops0_keeps hr op h
    · exact ops1_keeps (hr.elim .inl fun e => .inr (.inl e)) op h
    · exact ops2_keeps (hr.elim .inl fun e => .inr (.inl e)) op h
    · exact ops3_keeps (hr.elim .inl fun e => .inr (.inl e)) op h
    · exact ops4_keeps (hr.elim .inl fun e => .inr (.inl e)) op h
    · exact ops5_keeps (hr.elim .inl fun e => .inr (.inl e)) op h
    · exact ops6_keeps (hr.elim .inl fun e => .inr (.inl e)) op h
    · exact ops7_keeps (hr.elim .inl fun e => .inr (.inl e)) op h
    · exact ops8_keeps (hr.elim .inl fun e => .inr (.inl e)) op h
    · exact ops9_keeps (hr.elim .inl fun e => .inr (.inl e)) op h
    · exact ops10_keeps (hr.elim .inl fun e => .inr (.inl e)) op h
    · exact ops11_keeps (hr.elim .inl fun e => .inr (.inl e)) op h
    · exact ops12_keeps (hr.elim .inl fun e => .inr (.inl e)) op h
    · exact ops13_keeps (hr.elim .inl fun e => .inr (.inl e)) op h

/-- The four start indices of a displaced window, read off the contents `F` one reference at a time: the function of the
    axis `k` that the indexed operation's result carries is the vector of the four lookups. -/
theorem idx4 {Val : EltTy → Type} (F : Valuation τ sig Val) (c0 c1 c2 c3 : Ref sig .tc) (T : BufTy)
    (hT : ∀ k, ((![c0, c1, c2, c3] : Fin 4 → Ref sig .tc) k).ty = T) :
    (fun k => cast (congrArg (fun U : BufTy => U.Contents Val) (hT k)) (F (Proc.devRef .tc ((![c0, c1, c2, c3] : Fin 4 → Ref sig .tc) k))))
      = (![cast (congrArg (fun U : BufTy => U.Contents Val) (hT 0)) (F (Proc.devRef .tc c0)),
          cast (congrArg (fun U : BufTy => U.Contents Val) (hT 1)) (F (Proc.devRef .tc c1)),
          cast (congrArg (fun U : BufTy => U.Contents Val) (hT 2)) (F (Proc.devRef .tc c2)),
          cast (congrArg (fun U : BufTy => U.Contents Val) (hT 3)) (F (Proc.devRef .tc c3))] : Fin 4 → T.Contents Val) := by
  funext k
  fin_cases k <;> rfl

end Cert.ReferenceIdeal.RunP

end
-- ==== Proof.RefValue.lean ====
/-
  The reference's run leaves its composed term in the result buffer.

  The fold of @main's 814 results is read from the last window inwards. In one window each operation rewrites its own
  result buffer and leaves every other buffer as it was; a whole earlier window leaves the two arguments and the padded
  array as it found them; the padded array after the first window is the host's zero padding of the second argument. After
  a window is read, the layers of the running minimum it has completed are the same on both sides — each finished squared
  distance IS the composed term's, displacement by displacement — and are set aside, so that the next window is read
  against what is left of the composed term. Last, the library's `run_seq`: a straight line of host operations runs to
  completion from any memory and leaves every buffer at the fold over the launch contents.
-/
import proofs.«179037_j13692355740339_1_alg».proof.Proof.RefRun
import proofs.«179037_j13692355740339_1_alg».proof.Proof.RefKeeps
import proofs.«179037_j13692355740339_1_alg».proof.Proof.RefTerm

set_option maxRecDepth 16384

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The result of an operation indexed by FOUR references: its function at the operand's contents and at the vector of the
    four index buffers' contents (the function of the axis that the general lemma carries, read at each of the four axes). -/
theorem unaryIndexed4_result' {Val : EltTy → Type} (a y c0 c1 c2 c3 : Ref sig .tc) (T : BufTy)
    (f : a.ty.Contents Val → (Fin 4 → T.Contents Val) → y.ty.Contents Val) (hT ha hix hy) (Fv : Valuation τ sig Val) :
    (unaryIndexed (τ := τ) a ![c0, c1, c2, c3] T y f hT ha hix hy).result Fv (no_index (Proc.devRef .tc y))
      = f (Fv (Proc.devRef .tc a))
          ![cast (congrArg (fun U : BufTy => U.Contents Val) (hT 0)) (Fv (Proc.devRef .tc c0)),
            cast (congrArg (fun U : BufTy => U.Contents Val) (hT 1)) (Fv (Proc.devRef .tc c1)),
            cast (congrArg (fun U : BufTy => U.Contents Val) (hT 2)) (Fv (Proc.devRef .tc c2)),
            cast (congrArg (fun U : BufTy => U.Contents Val) (hT 3)) (Fv (Proc.devRef .tc c3))] := by
  rw [unaryIndexed_result']
  congr 1
  funext k
  fin_cases k <;> rfl

/-! One step per window for the buffers no operation of the window writes (stated so that the rewriting finds them). -/
theorem skip0_arg0 (W : Valuation τ sig (Elt F)) : after ops0 W (no_index (Proc.devRef .tc main_arg0)) = W (Proc.devRef .tc main_arg0) := keep0_arg0 W
theorem skip0_arg1 (W : Valuation τ sig (Elt F)) : after ops0 W (no_index (Proc.devRef .tc main_arg1)) = W (Proc.devRef .tc main_arg1) := keep0_arg1 W
theorem skip1_arg0 (W : Valuation τ sig (Elt F)) : after ops1 W (no_index (Proc.devRef .tc main_arg0)) = W (Proc.devRef .tc main_arg0) := keep1_arg0 W
theorem skip1_arg1 (W : Valuation τ sig (Elt F)) : after ops1 W (no_index (Proc.devRef .tc main_arg1)) = W (Proc.devRef .tc main_arg1) := keep1_arg1 W
theorem skip1_v0 (W : Valuation τ sig (Elt F)) : after ops1 W (no_index (Proc.devRef .tc main_v0)) = W (Proc.devRef .tc main_v0) := keep1_v0 W
theorem skip2_arg0 (W : Valuation τ sig (Elt F)) : after ops2 W (no_index (Proc.devRef .tc main_arg0)) = W (Proc.devRef .tc main_arg0) := keep2_arg0 W
theorem skip2_arg1 (W : Valuation τ sig (Elt F)) : after ops2 W (no_index (Proc.devRef .tc main_arg1)) = W (Proc.devRef .tc main_arg1) := keep2_arg1 W
theorem skip2_v0 (W : Valuation τ sig (Elt F)) : after ops2 W (no_index (Proc.devRef .tc main_v0)) = W (Proc.devRef .tc main_v0) := keep2_v0 W
theorem skip3_arg0 (W : Valuation τ sig (Elt F)) : after ops3 W (no_index (Proc.devRef .tc main_arg0)) = W (Proc.devRef .tc main_arg0) := keep3_arg0 W
theorem skip3_arg1 (W : Valuation τ sig (Elt F)) : after ops3 W (no_index (Proc.devRef .tc main_arg1)) = W (Proc.devRef .tc main_arg1) := keep3_arg1 W
theorem skip3_v0 (W : Valuation τ sig (Elt F)) : after ops3 W (no_index (Proc.devRef .tc main_v0)) = W (Proc.devRef .tc main_v0) := keep3_v0 W
theorem skip4_arg0 (W : Valuation τ sig (Elt F)) : after ops4 W (no_index (Proc.devRef .tc main_arg0)) = W (Proc.devRef .tc main_arg0) := keep4_arg0 W
theorem skip4_arg1 (W : Valuation τ sig (Elt F)) : after ops4 W (no_index (Proc.devRef .tc main_arg1)) = W (Proc.devRef .tc main_arg1) := keep4_arg1 W
theorem skip4_v0 (W : Valuation τ sig (Elt F)) : after ops4 W (no_index (Proc.devRef .tc main_v0)) = W (Proc.devRef .tc main_v0) := keep4_v0 W
theorem skip5_arg0 (W : Valuation τ sig (Elt F)) : after ops5 W (no_index (Proc.devRef .tc main_arg0)) = W (Proc.devRef .tc main_arg0) := keep5_arg0 W
theorem skip5_arg1 (W : Valuation τ sig (Elt F)) : after ops5 W (no_index (Proc.devRef .tc main_arg1)) = W (Proc.devRef .tc main_arg1) := keep5_arg1 W
theorem skip5_v0 (W : Valuation τ sig (Elt F)) : after ops5 W (no_index (Proc.devRef .tc main_v0)) = W (Proc.devRef .tc main_v0) := keep5_v0 W
theorem skip6_arg0 (W : Valuation τ sig (Elt F)) : after ops6 W (no_index (Proc.devRef .tc main_arg0)) = W (Proc.devRef .tc main_arg0) := keep6_arg0 W
theorem skip6_arg1 (W : Valuation τ sig (Elt F)) : after ops6 W (no_index (Proc.devRef .tc main_arg1)) = W (Proc.devRef .tc main_arg1) := keep6_arg1 W
theorem skip6_v0 (W : Valuation τ sig (Elt F)) : after ops6 W (no_index (Proc.devRef .tc main_v0)) = W (Proc.devRef .tc main_v0) := keep6_v0 W
theorem skip7_arg0 (W : Valuation τ sig (Elt F)) : after ops7 W (no_index (Proc.devRef .tc main_arg0)) = W (Proc.devRef .tc main_arg0) := keep7_arg0 W
theorem skip7_arg1 (W : Valuation τ sig (Elt F)) : after ops7 W (no_index (Proc.devRef .tc main_arg1)) = W (Proc.devRef .tc main_arg1) := keep7_arg1 W
theorem skip7_v0 (W : Valuation τ sig (Elt F)) : after ops7 W (no_index (Proc.devRef .tc main_v0)) = W (Proc.devRef .tc main_v0) := keep7_v0 W
theorem skip8_arg0 (W : Valuation τ sig (Elt F)) : after ops8 W (no_index (Proc.devRef .tc main_arg0)) = W (Proc.devRef .tc main_arg0) := keep8_arg0 W
theorem skip8_arg1 (W : Valuation τ sig (Elt F)) : after ops8 W (no_index (Proc.devRef .tc main_arg1)) = W (Proc.devRef .tc main_arg1) := keep8_arg1 W
theorem skip8_v0 (W : Valuation τ sig (Elt F)) : after ops8 W (no_index (Proc.devRef .tc main_v0)) = W (Proc.devRef .tc main_v0) := keep8_v0 W
theorem skip9_arg0 (W : Valuation τ sig (Elt F)) : after ops9 W (no_index (Proc.devRef .tc main_arg0)) = W (Proc.devRef .tc main_arg0) := keep9_arg0 W
theorem skip9_arg1 (W : Valuation τ sig (Elt F)) : after ops9 W (no_index (Proc.devRef .tc main_arg1)) = W (Proc.devRef .tc main_arg1) := keep9_arg1 W
theorem skip9_v0 (W : Valuation τ sig (Elt F)) : after ops9 W (no_index (Proc.devRef .tc main_v0)) = W (Proc.devRef .tc main_v0) := keep9_v0 W
theorem skip10_arg0 (W : Valuation τ sig (Elt F)) : after ops10 W (no_index (Proc.devRef .tc main_arg0)) = W (Proc.devRef .tc main_arg0) := keep10_arg0 W
theorem skip10_arg1 (W : Valuation τ sig (Elt F)) : after ops10 W (no_index (Proc.devRef .tc main_arg1)) = W (Proc.devRef .tc main_arg1) := keep10_arg1 W
theorem skip10_v0 (W : Valuation τ sig (Elt F)) : after ops10 W (no_index (Proc.devRef .tc main_v0)) = W (Proc.devRef .tc main_v0) := keep10_v0 W
theorem skip11_arg0 (W : Valuation τ sig (Elt F)) : after ops11 W (no_index (Proc.devRef .tc main_arg0)) = W (Proc.devRef .tc main_arg0) := keep11_arg0 W
theorem skip11_arg1 (W : Valuation τ sig (Elt F)) : after ops11 W (no_index (Proc.devRef .tc main_arg1)) = W (Proc.devRef .tc main_arg1) := keep11_arg1 W
theorem skip11_v0 (W : Valuation τ sig (Elt F)) : after ops11 W (no_index (Proc.devRef .tc main_v0)) = W (Proc.devRef .tc main_v0) := keep11_v0 W
theorem skip12_arg0 (W : Valuation τ sig (Elt F)) : after ops12 W (no_index (Proc.devRef .tc main_arg0)) = W (Proc.devRef .tc main_arg0) := keep12_arg0 W
theorem skip12_arg1 (W : Valuation τ sig (Elt F)) : after ops12 W (no_index (Proc.devRef .tc main_arg1)) = W (Proc.devRef .tc main_arg1) := keep12_arg1 W
theorem skip12_v0 (W : Valuation τ sig (Elt F)) : after ops12 W (no_index (Proc.devRef .tc main_v0)) = W (Proc.devRef .tc main_v0) := keep12_v0 W
theorem skip13_arg0 (W : Valuation τ sig (Elt F)) : after ops13 W (no_index (Proc.devRef .tc main_arg0)) = W (Proc.devRef .tc main_arg0) := keep13_arg0 W
theorem skip13_arg1 (W : Valuation τ sig (Elt F)) : after ops13 W (no_index (Proc.devRef .tc main_arg1)) = W (Proc.devRef .tc main_arg1) := keep13_arg1 W
theorem skip13_v0 (W : Valuation τ sig (Elt F)) : after ops13 W (no_index (Proc.devRef .tc main_v0)) = W (Proc.devRef .tc main_v0) := keep13_v0 W

/-- The padded array after the first window: the host's zero padding of the second argument. -/
theorem padded (m : (ℓ : Loc nD τ sig) → Buf (Elt F) ℓ) (c : Dev nD) :
    after (ops0 : List (HloOp τ sig (Elt F))) (launchContents m c) (Proc.devRef .tc main_v0)
      = pad S4x3x264x520 ![0, 0, 4, 4] ![0, 0, 4, 4] ![0, 0, 0, 0] (m ((c.tc : Thread nD τ).loc main_arg1))
          (sitofp .f32 (constantI S_ 32 0#32)) pads_S4x3x256x512_S4x3x264x520_000_000_440_440 h_S_ := by
  simp (disch := decide) only [ops0, after_cons, after_nil, nullary_result', unary_result', binary_result', reshape_result', unaryIndexed4_result',
        nullary_result_ne', unary_result_ne', binary_result_ne', reshape_result_ne', unaryIndexed_result_ne']
  rfl
theorem padded' (m : (ℓ : Loc nD τ sig) → Buf (Elt F) ℓ) (c : Dev nD) :
    after (ops0 : List (HloOp τ sig (Elt F))) (launchContents m c) (no_index (Proc.devRef .tc main_v0))
      = pad S4x3x264x520 ![0, 0, 4, 4] ![0, 0, 4, 4] ![0, 0, 0, 0] (m ((c.tc : Thread nD τ).loc main_arg1))
          (sitofp .f32 (constantI S_ 32 0#32)) pads_S4x3x256x512_S4x3x264x520_000_000_440_440 h_S_ := padded m c

set_option maxHeartbeats 40000000 in
/-- The fold at the result buffer is the composed term of the two arguments. -/
theorem value (m : (ℓ : Loc nD τ sig) → Buf (Elt F) ℓ) (c : Dev nD) :
    after (ops : List (HloOp τ sig (Elt F))) (launchContents m c) (Proc.devRef .tc main_v406) = res_main_v406 m c := by
  simp only [ops, after_append]
  unfold res_main_v406
  -- window 13
  conv_lhs => simp (disch := decide) only [ops13, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops12 (after ops11 (after ops10 (after ops9 (after ops8 (after ops7 (after ops6 (after ops5 (after ops4 (after ops3 (after ops2 (after ops1 (after ops0 (launchContents m c))))))))))))) : Valuation τ sig (Elt F)) = W
  refine congrArg (fun Y => shapeCast S4x1x131072 Y shapeCasts_S4x256x512_S4x1x131072) ?_
  refine congrArg Host.sqrt ?_
  repeat (refine congrArg₂ minimumf ?_ rfl)
  subst hW
  -- window 12
  conv_lhs => simp (disch := decide) only [ops12, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops11 (after ops10 (after ops9 (after ops8 (after ops7 (after ops6 (after ops5 (after ops4 (after ops3 (after ops2 (after ops1 (after ops0 (launchContents m c)))))))))))) : Valuation τ sig (Elt F)) = W
  repeat (refine congrArg₂ minimumf ?_ rfl)
  subst hW
  -- window 11
  conv_lhs => simp (disch := decide) only [ops11, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops10 (after ops9 (after ops8 (after ops7 (after ops6 (after ops5 (after ops4 (after ops3 (after ops2 (after ops1 (after ops0 (launchContents m c))))))))))) : Valuation τ sig (Elt F)) = W
  repeat (refine congrArg₂ minimumf ?_ rfl)
  subst hW
  -- window 10
  conv_lhs => simp (disch := decide) only [ops10, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops9 (after ops8 (after ops7 (after ops6 (after ops5 (after ops4 (after ops3 (after ops2 (after ops1 (after ops0 (launchContents m c)))))))))) : Valuation τ sig (Elt F)) = W
  repeat (refine congrArg₂ minimumf ?_ rfl)
  subst hW
  -- window 9
  conv_lhs => simp (disch := decide) only [ops9, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops8 (after ops7 (after ops6 (after ops5 (after ops4 (after ops3 (after ops2 (after ops1 (after ops0 (launchContents m c))))))))) : Valuation τ sig (Elt F)) = W
  repeat (refine congrArg₂ minimumf ?_ rfl)
  subst hW
  -- window 8
  conv_lhs => simp (disch := decide) only [ops8, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops7 (after ops6 (after ops5 (after ops4 (after ops3 (after ops2 (after ops1 (after ops0 (launchContents m c)))))))) : Valuation τ sig (Elt F)) = W
  repeat (refine congrArg₂ minimumf ?_ rfl)
  subst hW
  -- window 7
  conv_lhs => simp (disch := decide) only [ops7, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops6 (after ops5 (after ops4 (after ops3 (after ops2 (after ops1 (after ops0 (launchContents m c))))))) : Valuation τ sig (Elt F)) = W
  repeat (refine congrArg₂ minimumf ?_ rfl)
  subst hW
  -- window 6
  conv_lhs => simp (disch := decide) only [ops6, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops5 (after ops4 (after ops3 (after ops2 (after ops1 (after ops0 (launchContents m c)))))) : Valuation τ sig (Elt F)) = W
  repeat (refine congrArg₂ minimumf ?_ rfl)
  subst hW
  -- window 5
  conv_lhs => simp (disch := decide) only [ops5, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops4 (after ops3 (after ops2 (after ops1 (after ops0 (launchContents m c))))) : Valuation τ sig (Elt F)) = W
  repeat (refine congrArg₂ minimumf ?_ rfl)
  subst hW
  -- window 4
  conv_lhs => simp (disch := decide) only [ops4, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops3 (after ops2 (after ops1 (after ops0 (launchContents m c)))) : Valuation τ sig (Elt F)) = W
  repeat (refine congrArg₂ minimumf ?_ rfl)
  subst hW
  -- window 3
  conv_lhs => simp (disch := decide) only [ops3, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops2 (after ops1 (after ops0 (launchContents m c))) : Valuation τ sig (Elt F)) = W
  repeat (refine congrArg₂ minimumf ?_ rfl)
  subst hW
  -- window 2
  conv_lhs => simp (disch := decide) only [ops2, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops1 (after ops0 (launchContents m c)) : Valuation τ sig (Elt F)) = W
  repeat (refine congrArg₂ minimumf ?_ rfl)
  subst hW
  -- window 1
  conv_lhs => simp (disch := decide) only [ops1, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  generalize hW : (after ops0 (launchContents m c) : Valuation τ sig (Elt F)) = W
  repeat (refine congrArg₂ minimumf ?_ rfl)
  subst hW
  -- window 0
  conv_lhs => simp (disch := decide) only [ops0, after_cons, after_nil, nullary_result', unary_result', binary_result', reshape_result', unaryIndexed4_result',
        nullary_result_ne', unary_result_ne', binary_result_ne', reshape_result_ne', unaryIndexed_result_ne']
  try conv_lhs => simp only [skip0_arg0, skip0_arg1, skip1_arg0, skip1_arg1, skip1_v0, skip2_arg0, skip2_arg1, skip2_v0, skip3_arg0, skip3_arg1, skip3_v0, skip4_arg0, skip4_arg1, skip4_v0, skip5_arg0, skip5_arg1, skip5_v0, skip6_arg0, skip6_arg1, skip6_v0, skip7_arg0, skip7_arg1, skip7_v0, skip8_arg0, skip8_arg1, skip8_v0, skip9_arg0, skip9_arg1, skip9_v0, skip10_arg0, skip10_arg1, skip10_v0, skip11_arg0, skip11_arg1, skip11_v0, skip12_arg0, skip12_arg1, skip12_v0, skip13_arg0, skip13_arg1, skip13_v0, padded' m c]
  repeat (refine congrArg₂ minimumf ?_ rfl)
  rfl

/-- On every device, from any memory with zero counters: every weakly fair execution of @main terminates with the result
    at the composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v406) = res_main_v406 m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v406).trans (value m c),
      (h c main_arg0).trans (kept (.inl rfl) _), (h c main_arg1).trans (kept (.inr rfl) _)⟩)
    (run_seq scopedRefs_eq scopedSems_eq defs main (fun _ => ops) main_eq (fun _ => ops_sub) m ρ (fun _ => ops_fresh))

end Cert.ReferenceIdeal.RunP

end
-- ==== Proof.KernelArray.lean ====
/-
  The kernel's result as one array.

  The kernel's grid has four points; point `t` stages image `t`'s block of `tfm` ([1, 3, 256, 512]) and of the padded
  `obs` ([1, 3, 264, 520]), runs the body on them and writes its [1, 256, 512] result back as block `t` of a
  [4, 256, 512] array. The four output blocks tile that array, so after the run it is ONE function of the launch memory:
  its pixel `(n, h, w)` is the body's result on image `n`'s two blocks at `(0, h, w)`. The program's result is that
  array reshaped to [4, 1, 131072]. The blocks are read where they sit: element `(0, c, h, w)` of image `n`'s block is
  element `(n, c, h, w)` of the array, and the padded array is the host's zero padding of the second argument.
-/
import proofs.«179037_j13692355740339_1_alg».proof.Proof.Gen.KernelIdeal.Frame
import Idealize.ShloMosaic.Lib.Pipeline.Value
import Idealize.ShloMosaic.Lib.StableHlo.Run
import Idealize.ShloMosaic.Lib.ValueIdx

noncomputable section

namespace Cert.Knn

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The grid point that works on image `n`. -/
def pt (n : Fin 4) : Fin cfg0.N := ⟨n.val, by have := N_0; have := n.isLt; show n.val < grid0.N; omega⟩

theorem pt_val (n : Fin 4) : (pt n).val = n.val := rfl

/-- The image a grid point works on. -/
def img (t : Fin cfg0.N) : Fin 4 := ⟨t.val, by have := N_0; have h : t.val < grid0.N := t.isLt; omega⟩

theorem pt_img (t : Fin cfg0.N) : pt (img t) = t := Fin.ext rfl

/-- The printed index maps, decided over the four grid points: every window's block index at point `t` is `t` on the batch
    axis and `0` on the others. -/
theorem index_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-! ## The input blocks, read where they sit -/

/-- Element `(0, ch, h, w)` of the first window's block at point `t` is element `(t, ch, h, w)` of the first argument. -/
theorem iblk0_apply (c : Dev nD) (t : Fin cfg0.N) (ch : Fin 3) (h : Fin 256) (w : Fin 512) :
    iblk m c 0 t (ix4 (0 : Fin 1) ch h w) = m ((c : Thread nD τ).loc main_arg0) (ix4 (img t) ch h w) := by
  obtain ⟨e0, e1, e2, e3, -⟩ := index_facts t
  rw [← V_main_arg0 m c]
  show V m c main_arg0 (((cfg0.win 0).blk t).view.emb (ix4 (0 : Fin 1) ch h w)) = V m c main_arg0 (ix4 (img t) ch h w)
  refine congrArg (V m c main_arg0) (funext fun a => Fin.ext ?_)
  match a with
  | ⟨0, _⟩ => show win0_0.index t (0 : Fin 4) * 1 + 1 * 0 = t.val; omega
  | ⟨1, _⟩ => show win0_0.index t (1 : Fin 4) * 3 + 1 * ch.val = ch.val; omega
  | ⟨2, _⟩ => show win0_0.index t (2 : Fin 4) * 256 + 1 * h.val = h.val; omega
  | ⟨3, _⟩ => show win0_0.index t (3 : Fin 4) * 512 + 1 * w.val = w.val; omega

/-- Element `(0, ch, h, w)` of the second window's block at point `t` is element `(t, ch, h, w)` of the padded array as the
    region finds it. -/
theorem iblk1_apply (c : Dev nD) (t : Fin cfg0.N) (ch : Fin 3) (h : Fin 264) (w : Fin 520) :
    iblk m c 1 t (ix4 (0 : Fin 1) ch h w) = V m c main_v0 (ix4 (img t) ch h w) := by
  obtain ⟨-, -, -, -, e0, e1, e2, e3, -⟩ := index_facts t
  show V m c main_v0 (((cfg0.win 1).blk t).view.emb (ix4 (0 : Fin 1) ch h w)) = V m c main_v0 (ix4 (img t) ch h w)
  refine congrArg (V m c main_v0) (funext fun a => Fin.ext ?_)
  match a with
  | ⟨0, _⟩ => show win0_1.index t (0 : Fin 4) * 1 + 1 * 0 = t.val; omega
  | ⟨1, _⟩ => show win0_1.index t (1 : Fin 4) * 3 + 1 * ch.val = ch.val; omega
  | ⟨2, _⟩ => show win0_1.index t (2 : Fin 4) * 264 + 1 * h.val = h.val; omega
  | ⟨3, _⟩ => show win0_1.index t (3 : Fin 4) * 520 + 1 * w.val = w.val; omega

/-- The padded array as the region finds it: the host's padding of the second argument, by four pixels on each side of
    the two image axes, with the converted integer zero. -/
theorem V_main_v0 (c : Dev nD) : (V m c main_v0 : S4x3x264x520.Idx → EReal)
    = pad S4x3x264x520 ![0, 0, 4, 4] ![0, 0, 4, 4] ![0, 0, 0, 0] (m ((c : Thread nD τ).loc main_arg1))
        (sitofp (F := Ideal) .f32 (constantI S_ 32 0#32)) pads_S4x3x256x512_S4x3x264x520_000_000_440_440 h_S_ := by
  dsimp only [V, V0]
  simp only [hostOps0, hostOps0_1, List.flatten_cons, List.flatten_nil, List.append_nil, List.cons_append, List.nil_append]
  after_results
  rfl

/-! ## The output array -/

/-- The distances of the whole batch: pixel `(n, h, w)` is the body's result on image `n`'s blocks, at `(0, h, w)`. -/
def distArr (c : Dev nD) : S4x256x512.Idx → Elt Ideal .f32 := fun i =>
  out0_2 (iblk m c 0 (pt (i 0))) (iblk m c 1 (pt (i 0))) (ix3 (0 : Fin 1) (i 1) (i 2))

theorem distArr_apply (c : Dev nD) (n : Fin 4) (h : Fin 256) (w : Fin 512) :
    distArr m c (ix3 n h w) = out0_2 (iblk m c 0 (pt n)) (iblk m c 1 (pt n)) (ix3 (0 : Fin 1) h w) := rfl

/-- A block `O` written back at point `t` is block `t` of an array `A` as soon as its pixel `(0, h, w)` is `A`'s pixel
    `(t, h, w)` (stated over any block and any array: nothing here looks inside them). -/
theorem written_block (t : Fin cfg0.N) (O : Vec Ideal S1x256x512 .f32) (A : S4x256x512.Idx → Elt Ideal .f32)
    (hOA : ∀ (h : Fin 256) (w : Fin 512), O (ix3 (0 : Fin 1) h w) = A (ix3 (img t) h w)) :
    (cfg0.win 2).cut (grid0.coords t) O = ((cfg0.win 2).blk t).view.read (Elt Ideal) A := by
  obtain ⟨-, -, -, -, -, -, -, -, e0, e1, e2⟩ := index_facts t
  funext j
  obtain ⟨z, h, w, rfl⟩ : ∃ (z : Fin 1) (h : Fin 256) (w : Fin 512), j = ix3 z h w := ⟨j 0, j 1, j 2, eq_ix3 j⟩
  obtain rfl : z = 0 := Fin.ext (by have := z.isLt; omega)
  have hemb : ((cfg0.win 2).blk t).view.emb (ix3 (0 : Fin 1) h w) = ix3 (img t) h w := funext fun a => Fin.ext (by
    match a with
    | ⟨0, _⟩ => show win0_2.index t (0 : Fin 3) * 1 + 1 * 0 = t.val; omega
    | ⟨1, _⟩ => show win0_2.index t (1 : Fin 3) * 256 + 1 * h.val = h.val; omega
    | ⟨2, _⟩ => show win0_2.index t (2 : Fin 3) * 512 + 1 * w.val = w.val; omega)
  show O (ix3 (0 : Fin 1) h w) = A (((cfg0.win 2).blk t).view.emb (ix3 (0 : Fin 1) h w))
  rw [hemb, hOA]

/-- WHAT POINT `t` WRITES BACK is block `t` of that array. -/
theorem flushed_eq (c : Dev nD) (t : Fin cfg0.N) :
    (dats m 0 c).flushed 2 t = ((cfg0.win 2).blk t).view.read (Elt Ideal) (distArr m c) := by
  show (cfg0.win 2).cut (grid0.coords t) ((dats m 0 c).after 2 t) = _
  rw [after0_2]
  exact written_block t _ _ fun h w => by rw [distArr_apply, pt_img]

/-- An index of the array is in point `t`'s block iff each coordinate is in the block's range on its axis. -/
theorem mem_blk (t : Fin cfg0.N) (i : S4x256x512.Idx) :
    i ∈ ((cfg0.win 2).blk t).view.set ↔ ∀ a : Fin 3, win0_2.index t a * S1x256x512.size a ≤ (i a).val
      ∧ (i a).val < win0_2.index t a * S1x256x512.size a + S1x256x512.size a := by
  show i ∈ ((View.whole main_v1).slice (win0_2.rect t)).set ↔ _
  rw [View.set_slice_whole, Rect.mem_set_unit]
  exact Iff.rfl

/-- The four blocks cover the array: pixel `(n, h, w)` is in point `n`'s. -/
theorem cover (i : S4x256x512.Idx) :
    ∃ t : Fin cfg0.N, (cfg0.win 2).flush t = true ∧ i ∈ ((cfg0.win 2).blk t).view.set := by
  have hi0 : (i 0).val < 4 := (i 0).isLt
  have hi1 : (i 1).val < 256 := (i 1).isLt
  have hi2 : (i 2).val < 512 := (i 2).isLt
  refine ⟨pt ⟨(i 0).val, hi0⟩, flush0_2 _, ?_⟩
  rw [mem_blk]
  obtain ⟨-, -, -, -, -, -, -, -, e0, e1, e2⟩ := index_facts (pt ⟨(i 0).val, hi0⟩)
  have ev : (pt ⟨(i 0).val, hi0⟩).val = (i 0).val := rfl
  intro a
  match a with
  | ⟨0, _⟩ =>
    show win0_2.index (pt ⟨(i 0).val, hi0⟩) (0 : Fin 3) * 1 ≤ (i 0).val ∧ (i 0).val < win0_2.index (pt ⟨(i 0).val, hi0⟩) (0 : Fin 3) * 1 + 1
    omega
  | ⟨1, _⟩ =>
    show win0_2.index (pt ⟨(i 0).val, hi0⟩) (1 : Fin 3) * 256 ≤ (i 1).val ∧ (i 1).val < win0_2.index (pt ⟨(i 0).val, hi0⟩) (1 : Fin 3) * 256 + 256
    omega
  | ⟨2, _⟩ =>
    show win0_2.index (pt ⟨(i 0).val, hi0⟩) (2 : Fin 3) * 512 ≤ (i 2).val ∧ (i 2).val < win0_2.index (pt ⟨(i 0).val, hi0⟩) (2 : Fin 3) * 512 + 512
    omega

/-- THE ARRAY after the run. -/
theorem final (c : Dev nD) : (dats m 0 c).arrAt 2 cfg0.N = distArr m c :=
  (dats m 0 c).arrAt_eq_of_cover 2 (distArr m c) (fun t _ => flushed_eq m c t) cover

/-- The host's reshape after the region leaves the result at the reshaped array. -/
theorem tail_eq (c : Dev nD) : Pipeline.afterTail₀ cfgs (dats m) 0 (V0 m) [hostOps1] c main_v2
    = shapeCast S4x1x131072 (distArr m c) shapeCasts_S4x256x512_S4x1x131072 := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = distArr m c := (Pipeline.withArrays_arr spec0 launch0.win.arr_inj c _ _ 2).trans (final m c)
  rw [e]
  rfl

/-! ## The run, read -/

/-- Every weakly fair execution of the kernel's program ends with the result at the reshaped distances and the two
    arguments as launched (the frame run, its post read at the three buffers). -/
theorem run : θ_run defs (onTc (τ := τ) (main (F := Ideal))) ⟨m, fun _ => 0, ρ⟩ fun r => ∀ c : Dev nD,
      r.2.mem ((c.tc : Thread nD τ).loc main_v2) = shapeCast S4x1x131072 (distArr m c) shapeCasts_S4x256x512_S4x1x131072
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Knn

end
-- ==== Proof.Image.lean ====
/-
  One image of the batch at a time.

  The kernel's grid point `n` works on image `n` of the batch: it holds a [256, 512] vector where the reference holds a
  [4, 256, 512] array. `ImageOf n X Y` says that `X` is image `n` of `Y`: `X (h, w) = Y (n, h, w)` at every pixel.
  The relation passes through a pointwise minimum and through the square root (both sides apply the same function of the
  extended reals at each pixel), and it holds between the two programs' squared distances for ONE displacement `(a, b)` of
  the search window: at pixel `(h, w)` the kernel adds, channel by channel, the squares of
  `tfm (n, c, h, w) - pad (n, c, a + h, b + w)` as `(q0 + q1) + q2`, and the reference sums the same three squares
  over the channel axis from the initial value `0`, that is `0 + ((q0 + q1) + q2)`. These are equal in the extended reals
  because `0` is neutral for their addition; no finiteness of the inputs is used.
-/
import Idealize.ShloMosaic.Lib.ValueIdx
import Idealize.ShloMosaic.Lib.Pipeline.Value
import Idealize.ShloMosaic.Lib.DynamicIndex
import Idealize.ShloMosaic.PureOps.Ideal.Laws

noncomputable section

namespace Cert.Knn

open Idealize.ShloMosaic Idealize.ShloMosaic.ValueIdx

/-! ## The shapes -/

/-- One image of distances, [256, 512]. -/
abbrev Img : Shape := ⟨2, ![256, 512]⟩
/-- The same with a leading unit axis, [1, 256, 512]: one channel cut out of a block, and the output block. -/
abbrev Img1 : Shape := ⟨3, ![1, 256, 512]⟩
/-- The three channels of one image, [3, 256, 512]. -/
abbrev Chans : Shape := ⟨3, ![3, 256, 512]⟩
/-- One channel's window of the padded block, [1, 1, 256, 512]. -/
abbrev Win : Shape := ⟨4, ![1, 1, 256, 512]⟩
/-- One image's block of the batch, [1, 3, 256, 512]. -/
abbrev Blk : Shape := ⟨4, ![1, 3, 256, 512]⟩
/-- One image's block of the padded batch, [1, 3, 264, 520]. -/
abbrev PadBlk : Shape := ⟨4, ![1, 3, 264, 520]⟩
/-- The batch, [4, 3, 256, 512]. -/
abbrev Batch : Shape := ⟨4, ![4, 3, 256, 512]⟩
/-- The batch padded by four pixels on each side of the two image axes, [4, 3, 264, 520]. -/
abbrev PadBatch : Shape := ⟨4, ![4, 3, 264, 520]⟩
/-- The distances of the whole batch, [4, 256, 512]. -/
abbrev Dist : Shape := ⟨3, ![4, 256, 512]⟩
/-- The shape of a scalar. -/
abbrev Scal : Shape := ⟨0, ![]⟩

/-! ## The relation -/

/-- `X` is image `n` of `Y`. -/
def ImageOf (n : Fin 4) (X : FVec Ideal Img .f32) (Y : FVec Ideal Dist .f32) : Prop :=
  ∀ (h : Fin 256) (w : Fin 512), X (ix2 h w) = Y (ix3 n h w)

/-- The pointwise minimum of two images of the batch is the image of the pointwise minimum. -/
theorem ImageOf.of_min {n : Fin 4} {X X' : FVec Ideal Img .f32} {Y Y' : FVec Ideal Dist .f32}
    (e : ImageOf n X Y) (e' : ImageOf n X' Y') : ImageOf n (minimumf X X') (minimumf Y Y') := fun h w => by
  show min (X (ix2 h w)) (X' (ix2 h w)) = min (Y (ix3 n h w)) (Y' (ix3 n h w))
  rw [e h w, e' h w]

/-- The kernel's square root and the host's are one function of the extended reals, applied at each pixel. -/
theorem ImageOf.of_sqrt {n : Fin 4} {X : FVec Ideal Img .f32} {Y : FVec Ideal Dist .f32}
    (e : ImageOf n X Y) : ImageOf n (Idealize.ShloMosaic.sqrt X) (Host.sqrt Y) := fun h w => by
  show Ideal.sqrt (X (ix2 h w)) = Ideal.sqrt (Y (ix3 n h w))
  rw [e h w]

/-! ## The pieces of one displacement, as each program spells them -/

/-- Channel `c` of the image's three channels, as the kernel's body cuts it out: a slice [1, 256, 512] at offset `c`,
    viewed [256, 512]. -/
abbrev chan (v : FVec Ideal Chans .f32) (c : ℕ) (s : Chans.Slices ![c, 0, 0] Img1) (cI : Img1.ShapeCasts Img) : FVec Ideal Img .f32 :=
  shapeCast Img (extractStridedSlice Img1 ![c, 0, 0] v s) cI

/-- Channel `c` of the padded block displaced by `(a, b)`, as the kernel's body loads it: the [1, 1, 256, 512] window at
    offsets `(0, c, a, b)`, viewed [256, 512]. -/
abbrev win (x : Vec Ideal PadBlk .f32) (c a b : ℕ) (i : ∀ k, (![0, c, a, b] : Fin 4 → ℕ) k + Win.size k ≤ PadBlk.size k)
    (cW : Win.ShapeCasts Img) : FVec Ideal Img .f32 :=
  shapeCast Img (View.ld x (Rect.unit (s := PadBlk) ![0, c, a, b] Win.size i) : Vec Ideal Win .f32) cW

/-- The square of a difference. -/
abbrev sqDiff {s : Shape} (A L : FVec Ideal s .f32) : FVec Ideal s .f32 := mulf (subf A L) (subf A L)

/-- The start indices of the reference's displaced window: four scalar words `0, 0, a, b` read as signed integers. -/
abbrev hostStart (a b : ℕ) (h0 : 0 < Scal.numel) : Fin 4 → Int := fun k =>
  ((![constantI Scal 32 0#32, constantI Scal 32 0#32, constantI Scal 32 (BitVec.ofNat 32 a), constantI Scal 32 (BitVec.ofNat 32 b)] :
      Fin 4 → (⟨Scal, .i32⟩ : BufTy).Contents (Elt Ideal)) k (Shape.Idx.first h0)).toInt

/-- The padded batch seen through the reference's window displaced by `(a, b)`: a dynamic slice of the batch's shape. -/
abbrev hostWin (P : FVec Ideal PadBatch .f32) (a b : ℕ) (h0 : 0 < Scal.numel) (hf : PadBatch.Slices (fun _ => 0) Batch) :
    FVec Ideal Batch .f32 :=
  Host.dynamicSlice Batch P (hostStart a b h0) hf

/-! ## Reading the pieces at a pixel -/

/-- Channel `c` at pixel `(h, w)` is the element `(c, h, w)`. -/
theorem chan_apply (v : FVec Ideal Chans .f32) (c : ℕ) (s : Chans.Slices ![c, 0, 0] Img1) (cI : Img1.ShapeCasts Img)
    (hc : c < 3) (h : Fin 256) (w : Fin 512) : chan v c s cI (ix2 h w) = v (ix3 ⟨c, hc⟩ h w) := by
  refine (shapeCast_apply _ cI (ix2 h w) (ix3 (0 : Fin 1) h w) ?_).trans
    (extractStridedSlice_apply _ v s (ix3 (0 : Fin 1) h w) (ix3 ⟨c, hc⟩ h w) fun k => ?_)
  · rw [Shape.rowMajor_val_three, Shape.rowMajor_val_two]
    show (0 * 256 + h.val) * 512 + w.val = h.val * 512 + w.val
    omega
  · match k with
    | ⟨0, _⟩ => show c = c + 0; omega
    | ⟨1, _⟩ => show h.val = 0 + h.val; omega
    | ⟨2, _⟩ => show w.val = 0 + w.val; omega

/-- The displaced window of channel `c` at pixel `(h, w)` is the padded block's element `(c, a + h, b + w)`. -/
theorem win_apply (x : Vec Ideal PadBlk .f32) (c a b : ℕ) (i : ∀ k, (![0, c, a, b] : Fin 4 → ℕ) k + Win.size k ≤ PadBlk.size k)
    (cW : Win.ShapeCasts Img) (hc : c < 3) (h : Fin 256) (w : Fin 512) (ha : a + h.val < 264) (hb : b + w.val < 520) :
    win x c a b i cW (ix2 h w) = x (ix4 (0 : Fin 1) ⟨c, hc⟩ ⟨a + h.val, ha⟩ ⟨b + w.val, hb⟩) := by
  refine (shapeCast_apply _ cW (ix2 h w) (ix4 (0 : Fin 1) (0 : Fin 1) h w) ?_).trans ?_
  · rw [Shape.rowMajor_val_four, Shape.rowMajor_val_two]
    show ((0 * 1 + 0) * 256 + h.val) * 512 + w.val = h.val * 512 + w.val
    omega
  · show x _ = x _
    refine congrArg x (funext fun k => Fin.ext ?_)
    match k with
    | ⟨0, _⟩ => show 0 + 1 * 0 = 0; omega
    | ⟨1, _⟩ => show c + 1 * 0 = c; omega
    | ⟨2, _⟩ => show a + 1 * h.val = a + h.val; omega
    | ⟨3, _⟩ => show b + 1 * w.val = b + w.val; omega

/-- A small number as a 32-bit word, read signed, is that number. -/
theorem word_toInt (a : ℕ) (ha : a ≤ 8) : (BitVec.ofNat 32 a).toInt = (a : Int) :=
  toInt_ofNat_of_lt (by omega)

/-- The reference's displaced window at `(n, c, h, w)` is the padded batch's element `(n, c, a + h, b + w)`: the
    displacement leaves the window inside the padded batch (`a, b ≤ 8`), so the clamp of the start indices is the identity. -/
theorem hostWin_apply (P : FVec Ideal PadBatch .f32) (a b : ℕ) (ha : a ≤ 8) (hb : b ≤ 8) (h0 : 0 < Scal.numel)
    (hf : PadBatch.Slices (fun _ => 0) Batch) (n : Fin 4) (c : Fin 3) (h : Fin 256) (w : Fin 512) :
    hostWin P a b h0 hf (ix4 n c h w)
      = P (ix4 n c ⟨a + h.val, by have := h.isLt; omega⟩ ⟨b + w.val, by have := w.isLt; omega⟩) := by
  have hoff : PadBatch.Slices ![0, 0, a, b] Batch := ⟨rfl, fun k => by
    match k with
    | ⟨0, _⟩ => show 0 + 4 ≤ 4; omega
    | ⟨1, _⟩ => show 0 + 3 ≤ 3; omega
    | ⟨2, _⟩ => show a + 256 ≤ 264; omega
    | ⟨3, _⟩ => show b + 512 ≤ 520; omega⟩
  have hs : ∀ k, hostStart a b h0 k = ((![0, 0, a, b] : Fin 4 → ℕ) k : Int) := fun k => by
    match k with
    | ⟨0, _⟩ => rfl
    | ⟨1, _⟩ => rfl
    | ⟨2, _⟩ => exact word_toInt a ha
    | ⟨3, _⟩ => exact word_toInt b hb
  show Host.dynamicSlice Batch P (hostStart a b h0) hf (ix4 n c h w) = _
  rw [Host.dynamicSlice_eq_extractStridedSlice Batch P (hostStart a b h0) ![0, 0, a, b] hf hoff hs]
  refine extractStridedSlice_apply _ P hoff _ _ fun k => ?_
  match k with
  | ⟨0, _⟩ => show n.val = 0 + n.val; omega
  | ⟨1, _⟩ => show c.val = 0 + c.val; omega
  | ⟨2, _⟩ => show a + h.val = a + h.val; rfl
  | ⟨3, _⟩ => show b + w.val = b + w.val; rfl

/-- The host's sum over the channel axis from the initial value `0`, at pixel `(n, h, w)`, is the sum of the three
    channels' elements, grouped from the left (`0` is neutral for the addition of extended reals). -/
theorem chanSum_apply (Z : FVec Ideal Batch .f32) (hr : Batch.ReducesTo [1] Dist) (h0 : 0 < Scal.numel)
    (n : Fin 4) (h : Fin 256) (w : Fin 512) :
    Host.reduceAdd (F := Ideal) Z (constant (F := Ideal) Scal .f32 0x00000000#32) hr h0 (ix3 n h w)
      = Z (ix4 n 0 h w) + Z (ix4 n 1 h w) + Z (ix4 n 2 h w) := by
  have hred : Batch.Reduces [1] Dist := by decide
  have e : ∀ k : Fin 3, hred.lift (ix3 n h w) k = ix4 n k h w := fun k => funext fun a => Fin.ext (by
    match a with
    | ⟨0, _⟩ => rfl
    | ⟨1, _⟩ => rfl
    | ⟨2, _⟩ => rfl
    | ⟨3, _⟩ => rfl)
  show Ideal.hostReduceAdd hr Z (Ideal.ofBits .f32 0x00000000#32) (ix3 n h w) = _
  refine (Ideal.hostReduceAdd_single hr hred Z _ (ix3 n h w)).trans ?_
  show Ideal.ofBits .f32 0x00000000#32 + ∑ k : Fin 3, Z (hred.lift (ix3 n h w) k) = _
  rw [Ideal.ofBits_zero_f32, zero_add, Fin.sum_univ_three, e, e, e]

/-! ## One displacement -/

/-- THE TWO PROGRAMS' SQUARED DISTANCES FOR ONE DISPLACEMENT `(a, b)`. `v` holds the three channels of image `n` of the
    batch `T`, and `x` holds image `n`'s block of the padded batch `P`. The kernel's
    `((v0 - x0)² + (v1 - x1)²) + (v2 - x2)²` over the windows of `x` displaced by `(a, b)` is image `n` of the reference's
    sum over the channel axis of `(T - P displaced by (a, b))²`. The side conditions are those the printed programs state
    wherever they spell these terms; that the displacement is at most 8 each way is read off the kernel's window being
    inside its block. -/
theorem ImageOf.of_shift (n : Fin 4) (T : FVec Ideal Batch .f32) (P : FVec Ideal PadBatch .f32)
    (v : FVec Ideal Chans .f32) (x : Vec Ideal PadBlk .f32)
    (hv : ∀ (c : Fin 3) (h : Fin 256) (w : Fin 512), v (ix3 c h w) = T (ix4 n c h w))
    (hx : ∀ (c : Fin 3) (h : Fin 264) (w : Fin 520), x (ix4 (0 : Fin 1) c h w) = P (ix4 n c h w))
    (a b : ℕ)
    (s0 : Chans.Slices ![0, 0, 0] Img1) (s1 : Chans.Slices ![1, 0, 0] Img1) (s2 : Chans.Slices ![2, 0, 0] Img1)
    (cI : Img1.ShapeCasts Img) (cW : Win.ShapeCasts Img)
    (i0 : ∀ k, (![0, 0, a, b] : Fin 4 → ℕ) k + Win.size k ≤ PadBlk.size k)
    (i1 : ∀ k, (![0, 1, a, b] : Fin 4 → ℕ) k + Win.size k ≤ PadBlk.size k)
    (i2 : ∀ k, (![0, 2, a, b] : Fin 4 → ℕ) k + Win.size k ≤ PadBlk.size k)
    (hf : PadBatch.Slices (fun _ => 0) Batch) (hr : Batch.ReducesTo [1] Dist) (h0 : 0 < Scal.numel) :
    ImageOf n
      (addf (addf (sqDiff (chan v 0 s0 cI) (win x 0 a b i0 cW)) (sqDiff (chan v 1 s1 cI) (win x 1 a b i1 cW)))
        (sqDiff (chan v 2 s2 cI) (win x 2 a b i2 cW)))
      (Host.reduceAdd (F := Ideal) (sqDiff T (hostWin P a b h0 hf)) (constant (F := Ideal) Scal .f32 0x00000000#32) hr h0) := by
  intro h w
  have ha : a + 256 ≤ 264 := i0 2
  have hb : b + 512 ≤ 520 := i0 3
  have hh := h.isLt
  have hw := w.isLt
  have eA : ∀ (c : ℕ) (s : Chans.Slices ![c, 0, 0] Img1) (hc : c < 3), chan v c s cI (ix2 h w) = T (ix4 n ⟨c, hc⟩ h w) :=
    fun c s hc => (chan_apply v c s cI hc h w).trans (hv ⟨c, hc⟩ h w)
  have eL : ∀ (c : ℕ) (i : ∀ k, (![0, c, a, b] : Fin 4 → ℕ) k + Win.size k ≤ PadBlk.size k) (hc : c < 3),
      win x c a b i cW (ix2 h w) = P (ix4 n ⟨c, hc⟩ ⟨a + h.val, by omega⟩ ⟨b + w.val, by omega⟩) :=
    fun c i hc => (win_apply x c a b i cW hc h w (by omega) (by omega)).trans (hx ⟨c, hc⟩ _ _)
  have eD : ∀ c : Fin 3, hostWin P a b h0 hf (ix4 n c h w) = P (ix4 n c ⟨a + h.val, by omega⟩ ⟨b + w.val, by omega⟩) :=
    fun c => hostWin_apply P a b (by omega) (by omega) h0 hf n c h w
  rw [chanSum_apply]
  show (chan v 0 s0 cI (ix2 h w) - win x 0 a b i0 cW (ix2 h w)) * (chan v 0 s0 cI (ix2 h w) - win x 0 a b i0 cW (ix2 h w))
        + (chan v 1 s1 cI (ix2 h w) - win x 1 a b i1 cW (ix2 h w)) * (chan v 1 s1 cI (ix2 h w) - win x 1 a b i1 cW (ix2 h w))
        + (chan v 2 s2 cI (ix2 h w) - win x 2 a b i2 cW (ix2 h w)) * (chan v 2 s2 cI (ix2 h w) - win x 2 a b i2 cW (ix2 h w))
      = (T (ix4 n 0 h w) - hostWin P a b h0 hf (ix4 n 0 h w)) * (T (ix4 n 0 h w) - hostWin P a b h0 hf (ix4 n 0 h w))
        + (T (ix4 n 1 h w) - hostWin P a b h0 hf (ix4 n 1 h w)) * (T (ix4 n 1 h w) - hostWin P a b h0 hf (ix4 n 1 h w))
        + (T (ix4 n 2 h w) - hostWin P a b h0 hf (ix4 n 2 h w)) * (T (ix4 n 2 h w) - hostWin P a b h0 hf (ix4 n 2 h w))
  rw [eA 0 s0 (by omega), eA 1 s1 (by omega), eA 2 s2 (by omega), eL 0 i0 (by omega), eL 1 i1 (by omega), eL 2 i2 (by omega),
    eD 0, eD 1, eD 2]
  rfl

end Cert.Knn

end
-- ==== Proof.Search.lean ====
/-
  The search over the 81 displacements.

  For one image `n` of the batch, the kernel's body computes, at every pixel, the square root of the running minimum, over
  the 9 × 9 displacements `(a, b)` of the search window taken in row-major order, of the squared distance between the
  pixel's three channels and the padded image's three channels displaced by `(a, b)`. The reference computes the same
  running minimum in the same order over the whole batch, then the square root. Both are a left-nested chain of 80 minima
  over 81 squared distances, so "the kernel's vector is image `n` of the reference's array" passes from the 81 leaves
  (one displacement each: `ImageOf.of_shift`) through the 80 minima (`ImageOf.of_min`) and the square root
  (`ImageOf.of_sqrt`). What the body leaves in its output block is that vector under a leading unit axis.
-/
import proofs.«179037_j13692355740339_1_alg».proof.Proof.Gen.KernelIdeal.Frame
import proofs.«179037_j13692355740339_1_alg».proof.Proof.RefTerm
import proofs.«179037_j13692355740339_1_alg».proof.Proof.Image
import Idealize.ShloMosaic.Lib.Pipeline.Value

noncomputable section

namespace Cert.Knn

open Cert.KernelIdeal Cert.KernelIdeal.Gen Idealize.ShloMosaic Idealize.ShloMosaic.TcCoe Idealize.SL.Sem
open Idealize.ShloMosaic.ValueIdx

theorem zero3 : (![0, 0, 0] : Fin 3 → Nat) = fun _ => 0 := funext fun a => by fin_cases a <;> rfl
theorem zero4 : (![0, 0, 0, 0] : Fin 4 → Nat) = fun _ => 0 := funext fun a => by fin_cases a <;> rfl

/-- The image's block [1, 3, 256, 512] viewed as its three channels [3, 256, 512]: element `(c, h, w)` is `(0, c, h, w)`. -/
theorem chans_apply (x0 : Vec Ideal S1x3x256x512 .f32) (c : Fin 3) (h : Fin 256) (w : Fin 512) :
    shapeCast S3x256x512 x0 shapeCasts_S1x3x256x512_S3x256x512 (ix3 c h w) = x0 (ix4 (0 : Fin 1) c h w) := by
  refine shapeCast_apply _ _ (ix3 c h w) (ix4 (0 : Fin 1) c h w) ?_
  rw [Shape.rowMajor_val_four, Shape.rowMajor_val_three]
  show ((0 * 3 + c.val) * 256 + h.val) * 512 + w.val = (c.val * 256 + h.val) * 512 + w.val
  omega

set_option maxHeartbeats 8000000 in
set_option maxRecDepth 16384 in
/-- THE REFERENCE'S RESULT IS THE RESHAPE OF THE KERNEL'S ARRAY. `x0 n` and `x1 n` are image `n`'s blocks of the reference's
    first argument and of its padded second argument; `D` is any [4, 256, 512] array whose pixel `(n, h, w)` is the kernel
    body's result on those blocks at `(0, h, w)`. Then the reference's result — the reshape of the square root of its
    running minimum — is the reshape of `D`. -/
theorem reference_is_body
    (m' : (ℓ : Loc Cert.ReferenceIdeal.nD Cert.ReferenceIdeal.τ Cert.ReferenceIdeal.sig) → Buf (Elt Ideal) ℓ)
    (c' : Dev Cert.ReferenceIdeal.nD)
    (x0 : Fin 4 → Vec Ideal S1x3x256x512 .f32) (x1 : Fin 4 → Vec Ideal S1x3x264x520 .f32)
    (h0 : ∀ (n : Fin 4) (c : Fin 3) (h : Fin 256) (w : Fin 512), x0 n (ix4 (0 : Fin 1) c h w)
      = m' ((c'.tc : Thread Cert.ReferenceIdeal.nD Cert.ReferenceIdeal.τ).loc Cert.ReferenceIdeal.main_arg0) (ix4 n c h w))
    (h1 : ∀ (n : Fin 4) (c : Fin 3) (h : Fin 264) (w : Fin 520), x1 n (ix4 (0 : Fin 1) c h w)
      = pad Cert.ReferenceIdeal.S4x3x264x520 ![0, 0, 4, 4] ![0, 0, 4, 4] ![0, 0, 0, 0]
          (m' ((c'.tc : Thread Cert.ReferenceIdeal.nD Cert.ReferenceIdeal.τ).loc Cert.ReferenceIdeal.main_arg1))
          (sitofp (F := Ideal) .f32 (constantI Cert.ReferenceIdeal.S_ 32 0#32))
          Cert.ReferenceIdeal.Gen.pads_S4x3x256x512_S4x3x264x520_000_000_440_440 Cert.ReferenceIdeal.Gen.h_S_ (ix4 n c h w))
    (D : Cert.ReferenceIdeal.S4x256x512.Idx → Elt Ideal .f32)
    (hD : ∀ (n : Fin 4) (h : Fin 256) (w : Fin 512), D (ix3 n h w) = out0_2 (F := Ideal) (x0 n) (x1 n) (ix3 (0 : Fin 1) h w)) :
    Cert.ReferenceIdeal.RunP.res_main_v406 m' c'
      = shapeCast Cert.ReferenceIdeal.S4x1x131072 D Cert.ReferenceIdeal.Gen.shapeCasts_S4x256x512_S4x1x131072 := by
  unfold Cert.ReferenceIdeal.RunP.res_main_v406
  refine congrArg (fun Y => shapeCast Cert.ReferenceIdeal.S4x1x131072 Y Cert.ReferenceIdeal.Gen.shapeCasts_S4x256x512_S4x1x131072) ?_
  funext i
  obtain ⟨n, h, w, rfl⟩ : ∃ (n : Fin 4) (h : Fin 256) (w : Fin 512), i = ix3 n h w := ⟨i 0, i 1, i 2, eq_ix3 i⟩
  rw [hD n h w]
  have hx0 := h0 n
  have hx1 := h1 n
  generalize x0 n = y0 at hx0 ⊢
  generalize x1 n = y1 at hx1 ⊢
  have hv : ∀ (c : Fin 3) (h : Fin 256) (w : Fin 512),
      shapeCast S3x256x512 y0 shapeCasts_S1x3x256x512_S3x256x512 (ix3 c h w)
        = m' ((c'.tc : Thread Cert.ReferenceIdeal.nD Cert.ReferenceIdeal.τ).loc Cert.ReferenceIdeal.main_arg0) (ix4 n c h w) :=
    fun c h w => (chans_apply y0 c h w).trans (hx0 c h w)
  symm
  unfold out0_2
  rw [View.canon_unit_zero zero3]
  simp only [View.ld_unit_zero (S := S1x3x256x512) zero4]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116]
  refine (shapeCast_apply _ _ (ix3 (0 : Fin 1) h w) (ix2 h w) ?_).trans ?_
  · rw [Shape.rowMajor_val_three, Shape.rowMajor_val_two]
    show h.val * 512 + w.val = (0 * 256 + h.val) * 512 + w.val
    omega
  generalize shapeCast S3x256x512 y0 shapeCasts_S1x3x256x512_S3x256x512 = v at hv ⊢
  generalize m' ((c'.tc : Thread Cert.ReferenceIdeal.nD Cert.ReferenceIdeal.τ).loc Cert.ReferenceIdeal.main_arg0) = T at hv ⊢
  generalize pad Cert.ReferenceIdeal.S4x3x264x520 ![0, 0, 4, 4] ![0, 0, 4, 4] ![0, 0, 0, 0]
      (m' ((c'.tc : Thread Cert.ReferenceIdeal.nD Cert.ReferenceIdeal.τ).loc Cert.ReferenceIdeal.main_arg1))
      (sitofp (F := Ideal) .f32 (constantI Cert.ReferenceIdeal.S_ 32 0#32))
      Cert.ReferenceIdeal.Gen.pads_S4x3x256x512_S4x3x264x520_000_000_440_440 Cert.ReferenceIdeal.Gen.h_S_ = P at hx1 ⊢
  refine ImageOf.of_sqrt ?_ h w
  repeat' refine ImageOf.of_min ?_ ?_
  all_goals exact ImageOf.of_shift n T P v y1 hv hx1 _ _ _ _ _ _ _ _ _ _ _ _ _

end Cert.Knn

end
-- ==== Proof.lean ====
/-
  The certificate of the nearest-neighbour distance kernel against its reference.

  Both programs compute, for every pixel `(h, w)` of every image `n` of the batch, the square root of the minimum, over the
  9 × 9 displacements `(a, b)` of a search window, of the squared distance over the three channels between
  `tfm (n, ·, h, w)` and `obs` padded by four zero pixels on each side, read at `(n, ·, a + h, b + w)`; the result is
  reshaped to [4, 1, 131072]. The kernel does this one image per grid point, the reference on the whole batch.

  * The three frames: the kernel's two (as printed, and idealized) are its generated frame proofs; the reference's is its
    run with the result dropped.
  * The idealization rewrote nothing, so there is nothing to preserve.
  * At the extended reals the two results are equal: the kernel's result array is the reshape of one [4, 256, 512] array
    whose pixel `(n, h, w)` is the body's output on image `n`'s blocks (KernelArray.lean), and the reference's result (its run is RefValue.lean's, over the
    program's fourteen windows) is the reshape of any such array (Search.lean, over Image.lean's one-displacement lemma). The only law used between the
    two sides is that `0` is neutral for the addition of extended reals; the precondition that the inputs are finite is
    not needed.
-/
import proofs.«179037_j13692355740339_1_alg».proof.Defs
import proofs.«179037_j13692355740339_1_alg».proof.Proof.Gen.Kernel
import proofs.«179037_j13692355740339_1_alg».proof.Proof.Gen.Kernel.Frame
import proofs.«179037_j13692355740339_1_alg».proof.Proof.Gen.KernelIdeal
import proofs.«179037_j13692355740339_1_alg».proof.Proof.Gen.KernelIdeal.Frame
import proofs.«179037_j13692355740339_1_alg».proof.Proof.Gen.ReferenceIdeal
import proofs.«179037_j13692355740339_1_alg».proof.Proof.Gen.Pre_finite_inputs
import proofs.«179037_j13692355740339_1_alg».proof.Proof.RefValue
import proofs.«179037_j13692355740339_1_alg».proof.Proof.KernelArray
import proofs.«179037_j13692355740339_1_alg».proof.Proof.Search
import Idealize.ShloMosaic.Adequacy
import Idealize.ShloMosaic.Init

noncomputable section

namespace Cert.Proof

open Idealize.ShloMosaic Idealize.ShloMosaic.TcCoe Idealize.SL.Sem Idealize.ShloMosaic.ValueIdx

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.RunP.run (F := Ideal) m ρ)

theorem preserves : Cert.preserves_Kernel_KernelIdeal := trivial

/-- From memories that agree on the two arguments both programs end with the reshaped distances of the kernel's launch
    memory: the kernel by its run, the reference because its result is the reshape of any array that holds the kernel
    body's output image by image — here the kernel's own, whose blocks are read in the agreeing arguments. -/
theorem algebraic : Cert.algebraic_KernelIdeal_ReferenceIdeal := by
  intro m ρ m' ρ' _ hagree
  refine ⟨fun c => shapeCast Cert.KernelIdeal.S4x1x131072 (Cert.Knn.distArr m c) Cert.KernelIdeal.Gen.shapeCasts_S4x256x512_S4x1x131072,
    Cert.Knn.run m ρ, ?_⟩
  refine (θ_run Cert.ReferenceIdeal.defs _ _).mono (fun _ h c => ⟨(h c).1.trans ?_, (h c).2⟩)
    (Cert.ReferenceIdeal.RunP.run (F := Ideal) m' ρ')
  refine Cert.Knn.reference_is_body m' c (fun n => Cert.KernelIdeal.Gen.iblk m c 0 (Cert.Knn.pt n))
    (fun n => Cert.KernelIdeal.Gen.iblk m c 1 (Cert.Knn.pt n)) (fun n ch h w => ?_) (fun n ch h w => ?_)
    (Cert.Knn.distArr m c) (fun n h w => rfl)
  · refine (Cert.Knn.iblk0_apply m c (Cert.Knn.pt n) ch h w).trans ?_
    rw [(hagree c).1]
    rfl
  · refine (Cert.Knn.iblk1_apply m c (Cert.Knn.pt n) ch h w).trans ?_
    rw [Cert.Knn.V_main_v0, (hagree c).2]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
